-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg14 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg14
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg10 : FVec F S128 .f32) (main_arg11 : FVec F S128x128 .f32) (main_arg12 : FVec F S128 .f32) (main_arg13 : FVec F S128x128 .f32) (main_arg14 : FVec F S128 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg11
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg13
  let main_cst_18 : FVec F S_ .f32 := constant S_ .f32 0x7F800000#32
  let main_v50 : FVec F S128x128 .f32 := broadcastInDim S128x128 ![] bcast_S_S128x128 main_cst_18
  fn_part3 (F := F) main_arg14 main_v48 main_v49 main_v50

def fn_part1 {F : FTy → Type} [FloatOps F] (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_v13 : IVec S_ 1) (main_v16 : IVec S50000x128 1) : IVec S_ 1 :=
  let main_c_5 : IVec S_ 1 := constantI S_ 1 1#1
  let main_v17 : IVec S_ 1 := (fun x v => Host.reduce IntOp.andi x v reducesTo_S50000x128_S_d0_1 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_arg11 main_arg12 main_arg13 main_arg14 main_v33

def fn {F : FTy → Type} [FloatOps F] (main_arg0 : FVec F S50000x128 .f32) (main_arg1 : FVec F S50000x128 .f32) (main_arg2 : FVec F S50000x128 .f32) (main_arg3 : FVec F S50000x128 .f32) (main_arg4 : IVec S2x800000 32) (main_arg5 : IVec S2x800000 32) (main_arg6 : IVec S2x800000 32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S50000x128 .f32 := Host.absf main_arg2
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S50000x128 .f32 := Host.absf main_arg3
  let main_cst_4 : FVec F S_ .f32 := constant S_ .f32 0x7F800000#32
  let main_v15 : FVec F S50000x128 .f32 := broadcastInDim S50000x128 ![] bcast_S_S50000x128 main_cst_4
  let main_v16 : IVec S50000x128 1 := cmpf .olt main_v14 main_v15
  fn_part1 (F := F) main_arg7 main_arg8 main_arg9 main_arg10 main_arg11 main_arg12 main_arg13 main_arg14 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S5000x128 : Shape := ⟨2, ![5000, 128]⟩
abbrev S1x128 : Shape := ⟨2, ![1, 128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S5000x1 : Shape := ⟨2, ![5000, 1]⟩
abbrev S850000x128 : Shape := ⟨2, ![850000, 128]⟩

abbrev nBuf : Space → Nat
  | .hbm => 148
  | .vmem => 54
  | .smem => 0
  | _ => 0

abbrev hbmTy0_0 (i : Nat) : BufTy := match i % 128 with
  | 0 => ⟨S50000x128, .f32⟩
  | 1 => ⟨S50000x128, .f32⟩
  | 2 => ⟨S50000x128, .f32⟩
  | 3 => ⟨S50000x128, .f32⟩
  | 4 => ⟨S2x800000, .i32⟩
  | 5 => ⟨S2x800000, .i32⟩
  | 6 => ⟨S2x800000, .i32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S50000x128, .f32⟩
  | 16 => ⟨S50000, .i32⟩
  | 17 => ⟨S1x800000, .i32⟩
  | 18 => ⟨S800000, .i32⟩
  | 19 => ⟨S850000, .i32⟩
  | 20 => ⟨S1x800000, .i32⟩
  | 21 => ⟨S800000, .i32⟩
  | 22 => ⟨S850000, .i32⟩
  | 23 => ⟨S_, .i32⟩
  | 24 => ⟨S50000, .i32⟩
  | 25 => ⟨S_, .i32⟩
  | 26 => ⟨S850000, .i32⟩
  | 27 => ⟨S_, .i32⟩
  | 28 => ⟨S850000, .i32⟩
  | 29 => ⟨S850000, .i1⟩
  | 30 => ⟨S_, .i32⟩
  | 31 => ⟨S850000, .i32⟩
  | 32 => ⟨S850000, .i32⟩
  | 33 => ⟨S850000, .i32⟩
  | 34 => ⟨S850000x1, .i32⟩
  | 35 => ⟨S50000, .i32⟩
  | 36 => ⟨S50000, .f32⟩
  | 37 => ⟨S_, .f32⟩
  | 38 => ⟨S50000, .f32⟩
  | 39 => ⟨S50000, .i1⟩
  | 40 => ⟨S50000, .f32⟩
  | 41 => ⟨S_, .f32⟩
  | 42 => ⟨S50000, .f32⟩
  | 43 => ⟨S50000, .f32⟩
  | 44 => ⟨S50000x1, .f32⟩
  | 45 => ⟨S50000x128, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000x128, .f32⟩
  | 55 => ⟨S_, .f32⟩
  | 56 => ⟨S50000x128, .f32⟩
  | 57 => ⟨S850000x1, .i32⟩
  | 58 => ⟨S50000x128, .f32⟩
  | 59 => ⟨S50000x128, .f32⟩
  | 60 => ⟨S50000, .i32⟩
  | 61 => ⟨S1x800000, .i32⟩
  | 62 => ⟨S800000, .i32⟩
  | 63 => ⟨S850000, .i32⟩
  | 64 => ⟨S1x800000, .i32⟩
  | 65 => ⟨S800000, .i32⟩
  | 66 => ⟨S850000, .i32⟩
  | 67 => ⟨S_, .i32⟩
  | 68 => ⟨S50000, .i32⟩
  | 69 => ⟨S_, .i32⟩
  | 70 => ⟨S850000, .i32⟩
  | 71 => ⟨S_, .i32⟩
  | 72 => ⟨S850000, .i32⟩
  | 73 => ⟨S850000, .i1⟩
  | 74 => ⟨S_, .i32⟩
  | 75 => ⟨S850000, .i32⟩
  | 76 => ⟨S850000, .i32⟩
  | 77 => ⟨S850000, .i32⟩
  | 78 => ⟨S850000x1, .i32⟩
  | 79 => ⟨S50000, .i32⟩
  | 80 => ⟨S50000, .f32⟩
  | 81 => ⟨S_, .f32⟩
  | 82 => ⟨S50000, .f32⟩
  | 83 => ⟨S50000, .i1⟩
  | 84 => ⟨S50000, .f32⟩
  | 85 => ⟨S_, .f32⟩
  | 86 => ⟨S50000, .f32⟩
  | 87 => ⟨S50000, .f32⟩
  | 88 => ⟨S50000x1, .f32⟩
  | 89 => ⟨S50000x128, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000x128, .f32⟩
  | 99 => ⟨S_, .f32⟩
  | 100 => ⟨S50000x128, .f32⟩
  | 101 => ⟨S850000x1, .i32⟩
  | 102 => ⟨S50000x128, .f32⟩
  | 103 => ⟨S50000x128, .f32⟩
  | 104 => ⟨S50000, .i32⟩
  | 105 => ⟨S1x800000, .i32⟩
  | 106 => ⟨S800000, .i32⟩
  | 107 => ⟨S850000, .i32⟩
  | 108 => ⟨S1x800000, .i32⟩
  | 109 => ⟨S800000, .i32⟩
  | 110 => ⟨S850000, .i32⟩
  | 111 => ⟨S_, .i32⟩
  | 112 => ⟨S50000, .i32⟩
  | 113 => ⟨S_, .i32⟩
  | 114 => ⟨S850000, .i32⟩
  | 115 => ⟨S_, .i32⟩
  | 116 => ⟨S850000, .i32⟩
  | 117 => ⟨S850000, .i1⟩
  | 118 => ⟨S_, .i32⟩
  | 119 => ⟨S850000, .i32⟩
  | 120 => ⟨S850000, .i32⟩
  | 121 => ⟨S850000, .i32⟩
  | 122 => ⟨S850000x1, .i32⟩
  | 123 => ⟨S50000, .i32⟩
  | 124 => ⟨S50000, .f32⟩
  | 125 => ⟨S_, .f32⟩
  | 126 => ⟨S50000, .f32⟩
  | 127 => ⟨S50000, .i1⟩
  | _ => ⟨S50000x128, .f32⟩

abbrev hbmTy0_1 (i : Nat) : BufTy := match i % 128 with
  | 0 => ⟨S50000, .f32⟩
  | 1 => ⟨S_, .f32⟩
  | 2 => ⟨S50000, .f32⟩
  | 3 => ⟨S50000, .f32⟩
  | 4 => ⟨S50000x1, .f32⟩
  | 5 => ⟨S50000x128, .f32⟩
  | 6 => ⟨S_, .i32⟩
  | 7 => ⟨S850000, .i32⟩
  | 8 => ⟨S850000, .i1⟩
  | 9 => ⟨S_, .i32⟩
  | 10 => ⟨S850000, .i32⟩
  | 11 => ⟨S850000, .i32⟩
  | 12 => ⟨S850000, .i32⟩
  | 13 => ⟨S850000x1, .i32⟩
  | 14 => ⟨S850000x128, .f32⟩
  | 15 => ⟨S_, .f32⟩
  | 16 => ⟨S50000x128, .f32⟩
  | 17 => ⟨S850000x1, .i32⟩
  | 18 => ⟨S50000x128, .f32⟩
  | 19 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S5000x1, .f32⟩
  | .local _ .vmem, ⟨10, _⟩ => ⟨S5000x1, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S5000x1, .f32⟩
  | .local _ .vmem, ⟨26, _⟩ => ⟨S5000x1, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x1, .f32⟩
  | .local _ .vmem, ⟨32, _⟩ => ⟨S5000x1, .f32⟩
  | .local _ .vmem, ⟨33, _⟩ => ⟨S128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x128, .f32⟩
  | .local _ .vmem, ⟨41, _⟩ => ⟨S5000x1, .f32⟩
  | .local _ .vmem, ⟨42, _⟩ => ⟨S5000x1, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x1, .f32⟩
  | .local _ .vmem, ⟨48, _⟩ => ⟨S5000x1, .f32⟩
  | .local _ .vmem, ⟨49, _⟩ => ⟨S128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_v8 : Ref sig .tc := ⟨.hbm, 24, rfl⟩
abbrev main_c_0 : Ref sig .tc := ⟨.hbm, 25, rfl⟩
abbrev main_v9 : Ref sig .tc := ⟨.hbm, 26, rfl⟩
abbrev main_c_1 : Ref sig .tc := ⟨.hbm, 27, rfl⟩
abbrev main_v10 : Ref sig .tc := ⟨.hbm, 28, rfl⟩
abbrev main_v11 : Ref sig .tc := ⟨.hbm, 29, rfl⟩
abbrev main_c_2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_4 : Ref sig .tc := ⟨.hbm, 46, rfl⟩
abbrev main_v25 : Ref sig .tc := ⟨.hbm, 47, rfl⟩
abbrev main_v26 : Ref sig .tc := ⟨.hbm, 48, rfl⟩
abbrev main_c_5 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_7 : Ref sig .tc := ⟨.hbm, 67, rfl⟩
abbrev main_v43 : Ref sig .tc := ⟨.hbm, 68, rfl⟩
abbrev main_c_8 : Ref sig .tc := ⟨.hbm, 69, rfl⟩
abbrev main_v44 : Ref sig .tc := ⟨.hbm, 70, rfl⟩
abbrev main_c_9 : Ref sig .tc := ⟨.hbm, 71, rfl⟩
abbrev main_v45 : Ref sig .tc := ⟨.hbm, 72, rfl⟩
abbrev main_v46 : Ref sig .tc := ⟨.hbm, 73, rfl⟩
abbrev main_c_10 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_12 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_c_13 : Ref sig .tc := ⟨.hbm, 90, rfl⟩
abbrev main_v60 : Ref sig .tc := ⟨.hbm, 91, rfl⟩
abbrev main_v61 : Ref sig .tc := ⟨.hbm, 92, rfl⟩
abbrev main_c_14 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_15 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_c_16 : Ref sig .tc := ⟨.hbm, 111, rfl⟩
abbrev main_v78 : Ref sig .tc := ⟨.hbm, 112, rfl⟩
abbrev main_c_17 : Ref sig .tc := ⟨.hbm, 113, rfl⟩
abbrev main_v79 : Ref sig .tc := ⟨.hbm, 114, rfl⟩
abbrev main_c_18 : Ref sig .tc := ⟨.hbm, 115, rfl⟩
abbrev main_v80 : Ref sig .tc := ⟨.hbm, 116, rfl⟩
abbrev main_v81 : Ref sig .tc := ⟨.hbm, 117, rfl⟩
abbrev main_c_19 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_20 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_21 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_c_22 : Ref sig .tc := ⟨.hbm, 134, rfl⟩
abbrev main_v95 : Ref sig .tc := ⟨.hbm, 135, rfl⟩
abbrev main_v96 : Ref sig .tc := ⟨.hbm, 136, rfl⟩
abbrev main_c_23 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_cst_24 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc4_stg4_0 : Ref sig .tc := ⟨.vmem, 36, rfl⟩
abbrev cc4_stg4_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg2_1 : Ref sig .tc := ⟨.vmem, 42, rfl⟩
abbrev cc5_stg3_0 : Ref sig .tc := ⟨.vmem, 43, rfl⟩
abbrev cc5_stg3_1 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg1_1 : Ref sig .tc := ⟨.vmem, 48, rfl⟩
abbrev cc6_stg2_0 : Ref sig .tc := ⟨.vmem, 49, rfl⟩
abbrev cc6_stg3_0 : Ref sig .tc := ⟨.vmem, 50, rfl⟩
abbrev cc6_stg3_1 : Ref sig .tc := ⟨.vmem, 51, rfl⟩
abbrev cc6_stg4_0 : Ref sig .tc := ⟨.vmem, 52, rfl⟩
abbrev cc6_stg4_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc3_sem3_0 : DmaSem sig := 27
abbrev cc3_sem3_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem3_0 : DmaSem sig := 34
abbrev cc4_sem3_1 : DmaSem sig := 35
abbrev cc4_sem4_0 : DmaSem sig := 36
abbrev cc4_sem4_1 : DmaSem sig := 37
abbrev cc5_sem0_0 : DmaSem sig := 38
abbrev cc5_sem0_1 : DmaSem sig := 39
abbrev cc5_sem1_0 : DmaSem sig := 40
abbrev cc5_sem2_0 : DmaSem sig := 41
abbrev cc5_sem2_1 : DmaSem sig := 42
abbrev cc5_sem3_0 : DmaSem sig := 43
abbrev cc5_sem3_1 : DmaSem sig := 44
abbrev cc6_sem0_0 : DmaSem sig := 45
abbrev cc6_sem0_1 : DmaSem sig := 46
abbrev cc6_sem1_0 : DmaSem sig := 47
abbrev cc6_sem1_1 : DmaSem sig := 48
abbrev cc6_sem2_0 : DmaSem sig := 49
abbrev cc6_sem3_0 : DmaSem sig := 50
abbrev cc6_sem3_1 : DmaSem sig := 51
abbrev cc6_sem4_0 : DmaSem sig := 52
abbrev cc6_sem4_1 : DmaSem sig := 53

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S5000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  bcast_S50000_S50000x1_0 : S50000.BroadcastsInDim S50000x1 (![0] : Fin 1 → Fin S50000x1.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S5000x128_S5000x128 : S5000x128.ShapeCasts S5000x128
  dot_S5000x128_S128x128_S5000x128_1_0_0_1_n_n_wf : DotDims.WF S5000x128 S128x128 S5000x128 [1] [0] [0] [1] [] []
  scatter_S50000_S850000x1_S850000_n_0_0_1_wf : ScatterDims.WF S50000 S850000x1 S850000 [] [0] [0] 1
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .f32 = 32 ∨ (Rect.block (s := S50000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S50000x128.size a
  hwx4_3 : ∀ i : grid4.Coords, EltTy.bits .f32 = 32 ∨ (Rect.block (s := S50000x128) S5000x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S50000x128.size a
  hwx4_4 : ∀ i : grid4.Coords, EltTy.bits .f32 = 32 ∨ (Rect.block (s := S50000x128) S5000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S50000x128.size a
  hwx5_3 : ∀ i : grid5.Coords, EltTy.bits .f32 = 32 ∨ (Rect.block (s := S50000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S50000x1.size a
  hwx6_1 : ∀ i : grid6.Coords, EltTy.bits .f32 = 32 ∨ (Rect.block (s := S50000x1) S5000x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128.size a ≤ S128.size a
  hwx6_2 : ∀ i : grid6.Coords, EltTy.bits .f32 = 32 ∨ (Rect.block (s := S128) S128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S50000x128.size a
  hwx6_3 : ∀ i : grid6.Coords, EltTy.bits .f32 = 32 ∨ (Rect.block (s := S50000x128) S5000x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x128.size a ≤ S50000x128.size a
  hwx6_4 : ∀ i : grid6.Coords, EltTy.bits .f32 = 32 ∨ (Rect.block (s := S50000x128) S5000x128.size (cc6_transform_4 i) (hinb6_4 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v34) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v0) S5000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v35) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_arg2) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v59) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v69) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v58) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg12) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v35) S5000x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v70) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_arg3) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg13) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v93) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v94) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v104) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v93) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg14) S128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v70) S5000x128.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v105) S5000x128.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x128 : Shape := ⟨2, ![1, 128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩

abbrev nBuf : Space → Nat
  | .hbm => 229
  | .vmem => 0
  | .smem => 0
  | _ => 0

abbrev hbmTy0_0 (i : Nat) : BufTy := match i % 128 with
  | 0 => ⟨S50000x128, .f32⟩
  | 1 => ⟨S50000x128, .f32⟩
  | 2 => ⟨S50000x128, .f32⟩
  | 3 => ⟨S50000x128, .f32⟩
  | 4 => ⟨S2x800000, .i32⟩
  | 5 => ⟨S2x800000, .i32⟩
  | 6 => ⟨S2x800000, .i32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S50000x128, .f32⟩
  | 16 => ⟨S1x128, .f32⟩
  | 17 => ⟨S50000x128, .f32⟩
  | 18 => ⟨S50000x128, .f32⟩
  | 19 => ⟨S50000, .i32⟩
  | 20 => ⟨S1x800000, .i32⟩
  | 21 => ⟨S800000, .i32⟩
  | 22 => ⟨S850000, .i32⟩
  | 23 => ⟨S1x800000, .i32⟩
  | 24 => ⟨S800000, .i32⟩
  | 25 => ⟨S850000, .i32⟩
  | 26 => ⟨S_, .f32⟩
  | 27 => ⟨S50000, .f32⟩
  | 28 => ⟨S_, .f32⟩
  | 29 => ⟨S850000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S50000, .f32⟩
  | 39 => ⟨S_, .f32⟩
  | 40 => ⟨S50000, .f32⟩
  | 41 => ⟨S50000, .i1⟩
  | 42 => ⟨S50000, .f32⟩
  | 43 => ⟨S_, .f32⟩
  | 44 => ⟨S50000, .f32⟩
  | 45 => ⟨S50000, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000, .f32⟩
  | 55 => ⟨S_, .i32⟩
  | 56 => ⟨S850000, .i32⟩
  | 57 => ⟨S850000, .i1⟩
  | 58 => ⟨S_, .i32⟩
  | 59 => ⟨S850000, .i32⟩
  | 60 => ⟨S850000, .i32⟩
  | 61 => ⟨S850000, .i32⟩
  | 62 => ⟨S850000x1, .i32⟩
  | 63 => ⟨S850000, .f32⟩
  | 64 => ⟨S850000, .f32⟩
  | 65 => ⟨S50000x128, .f32⟩
  | 66 => ⟨S_, .i32⟩
  | 67 => ⟨S850000, .i32⟩
  | 68 => ⟨S850000, .i1⟩
  | 69 => ⟨S_, .i32⟩
  | 70 => ⟨S850000, .i32⟩
  | 71 => ⟨S850000, .i32⟩
  | 72 => ⟨S850000, .i32⟩
  | 73 => ⟨S850000x1, .i32⟩
  | 74 => ⟨S850000x128, .f32⟩
  | 75 => ⟨S850000x1, .f32⟩
  | 76 => ⟨S850000x128, .f32⟩
  | 77 => ⟨S850000x128, .f32⟩
  | 78 => ⟨S_, .f32⟩
  | 79 => ⟨S50000x128, .f32⟩
  | 80 => ⟨S850000x1, .i32⟩
  | 81 => ⟨S50000x128, .f32⟩
  | 82 => ⟨S1x128, .f32⟩
  | 83 => ⟨S50000x128, .f32⟩
  | 84 => ⟨S50000x128, .f32⟩
  | 85 => ⟨S_, .f32⟩
  | 86 => ⟨S50000x128, .f32⟩
  | 87 => ⟨S50000x128, .f32⟩
  | 88 => ⟨S50000x128, .f32⟩
  | 89 => ⟨S50000, .i32⟩
  | 90 => ⟨S1x800000, .i32⟩
  | 91 => ⟨S800000, .i32⟩
  | 92 => ⟨S850000, .i32⟩
  | 93 => ⟨S1x800000, .i32⟩
  | 94 => ⟨S800000, .i32⟩
  | 95 => ⟨S850000, .i32⟩
  | 96 => ⟨S_, .f32⟩
  | 97 => ⟨S50000, .f32⟩
  | 98 => ⟨S_, .f32⟩
  | 99 => ⟨S850000, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S50000, .f32⟩
  | 109 => ⟨S_, .f32⟩
  | 110 => ⟨S50000, .f32⟩
  | 111 => ⟨S50000, .i1⟩
  | 112 => ⟨S50000, .f32⟩
  | 113 => ⟨S_, .f32⟩
  | 114 => ⟨S50000, .f32⟩
  | 115 => ⟨S50000, .f32⟩
  | 116 => ⟨S_, .i32⟩
  | 117 => ⟨S850000, .i32⟩
  | 118 => ⟨S850000, .i1⟩
  | 119 => ⟨S_, .i32⟩
  | 120 => ⟨S850000, .i32⟩
  | 121 => ⟨S850000, .i32⟩
  | 122 => ⟨S850000, .i32⟩
  | 123 => ⟨S850000x1, .i32⟩
  | 124 => ⟨S850000, .f32⟩
  | 125 => ⟨S_, .i32⟩
  | 126 => ⟨S850000, .i32⟩
  | 127 => ⟨S850000, .i1⟩
  | _ => ⟨S50000x128, .f32⟩

abbrev hbmTy0_1 (i : Nat) : BufTy := match i % 128 with
  | 0 => ⟨S_, .i32⟩
  | 1 => ⟨S850000, .i32⟩
  | 2 => ⟨S850000, .i32⟩
  | 3 => ⟨S850000, .i32⟩
  | 4 => ⟨S850000x1, .i32⟩
  | 5 => ⟨S850000, .f32⟩
  | 6 => ⟨S850000, .f32⟩
  | 7 => ⟨S50000x128, .f32⟩
  | 8 => ⟨S_, .i32⟩
  | 9 => ⟨S850000, .i32⟩
  | 10 => ⟨S850000, .i1⟩
  | 11 => ⟨S_, .i32⟩
  | 12 => ⟨S850000, .i32⟩
  | 13 => ⟨S850000, .i32⟩
  | 14 => ⟨S850000, .i32⟩
  | 15 => ⟨S850000x1, .i32⟩
  | 16 => ⟨S850000x128, .f32⟩
  | 17 => ⟨S850000x1, .f32⟩
  | 18 => ⟨S850000x128, .f32⟩
  | 19 => ⟨S850000x128, .f32⟩
  | 20 => ⟨S_, .f32⟩
  | 21 => ⟨S50000x128, .f32⟩
  | 22 => ⟨S850000x1, .i32⟩
  | 23 => ⟨S50000x128, .f32⟩
  | 24 => ⟨S1x128, .f32⟩
  | 25 => ⟨S50000x128, .f32⟩
  | 26 => ⟨S50000x128, .f32⟩
  | 27 => ⟨S_, .f32⟩
  | 28 => ⟨S50000x128, .f32⟩
  | 29 => ⟨S50000x128, .f32⟩
  | 30 => ⟨S50000x128, .f32⟩
  | 31 => ⟨S50000, .i32⟩
  | 32 => ⟨S1x800000, .i32⟩
  | 33 => ⟨S800000, .i32⟩
  | 34 => ⟨S850000, .i32⟩
  | 35 => ⟨S1x800000, .i32⟩
  | 36 => ⟨S800000, .i32⟩
  | 37 => ⟨S850000, .i32⟩
  | 38 => ⟨S_, .f32⟩
  | 39 => ⟨S50000, .f32⟩
  | 40 => ⟨S_, .f32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S50000, .f32⟩
  | 51 => ⟨S_, .f32⟩
  | 52 => ⟨S50000, .f32⟩
  | 53 => ⟨S50000, .i1⟩
  | 54 => ⟨S50000, .f32⟩
  | 55 => ⟨S_, .f32⟩
  | 56 => ⟨S50000, .f32⟩
  | 57 => ⟨S50000, .f32⟩
  | 58 => ⟨S_, .i32⟩
  | 59 => ⟨S850000, .i32⟩
  | 60 => ⟨S850000, .i1⟩
  | 61 => ⟨S_, .i32⟩
  | 62 => ⟨S850000, .i32⟩
  | 63 => ⟨S850000, .i32⟩
  | 64 => ⟨S850000, .i32⟩
  | 65 => ⟨S850000x1, .i32⟩
  | 66 => ⟨S850000, .f32⟩
  | 67 => ⟨S_, .i32⟩
  | 68 => ⟨S850000, .i32⟩
  | 69 => ⟨S850000, .i1⟩
  | 70 => ⟨S_, .i32⟩
  | 71 => ⟨S850000, .i32⟩
  | 72 => ⟨S850000, .i32⟩
  | 73 => ⟨S850000, .i32⟩
  | 74 => ⟨S850000x1, .i32⟩
  | 75 => ⟨S850000, .f32⟩
  | 76 => ⟨S850000, .f32⟩
  | 77 => ⟨S50000x128, .f32⟩
  | 78 => ⟨S_, .i32⟩
  | 79 => ⟨S850000, .i32⟩
  | 80 => ⟨S850000, .i1⟩
  | 81 => ⟨S_, .i32⟩
  | 82 => ⟨S850000, .i32⟩
  | 83 => ⟨S850000, .i32⟩
  | 84 => ⟨S850000, .i32⟩
  | 85 => ⟨S850000x1, .i32⟩
  | 86 => ⟨S850000x128, .f32⟩
  | 87 => ⟨S850000x1, .f32⟩
  | 88 => ⟨S850000x128, .f32⟩
  | 89 => ⟨S850000x128, .f32⟩
  | 90 => ⟨S_, .f32⟩
  | 91 => ⟨S50000x128, .f32⟩
  | 92 => ⟨S850000x1, .i32⟩
  | 93 => ⟨S50000x128, .f32⟩
  | 94 => ⟨S1x128, .f32⟩
  | 95 => ⟨S50000x128, .f32⟩
  | 96 => ⟨S50000x128, .f32⟩
  | 97 => ⟨S_, .f32⟩
  | 98 => ⟨S50000x128, .f32⟩
  | 99 => ⟨S50000x128, .f32⟩
  | 100 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_1 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_c_4 : Ref sig .tc := ⟨.hbm, 46, rfl⟩
abbrev main_v25 : Ref sig .tc := ⟨.hbm, 47, rfl⟩
abbrev main_v26 : Ref sig .tc := ⟨.hbm, 48, rfl⟩
abbrev main_c_5 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_6 : Ref sig .tc := ⟨.hbm, 55, rfl⟩
abbrev main_v32 : Ref sig .tc := ⟨.hbm, 56, rfl⟩
abbrev main_v33 : Ref sig .tc := ⟨.hbm, 57, rfl⟩
abbrev main_c_7 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_c_8 : Ref sig .tc := ⟨.hbm, 66, rfl⟩
abbrev main_v41 : Ref sig .tc := ⟨.hbm, 67, rfl⟩
abbrev main_v42 : Ref sig .tc := ⟨.hbm, 68, rfl⟩
abbrev main_c_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_call1_cst : Ref sig .tc := ⟨.hbm, 85, rfl⟩
abbrev main_call1_v0 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_11 : Ref sig .tc := ⟨.hbm, 96, rfl⟩
abbrev main_v66 : Ref sig .tc := ⟨.hbm, 97, rfl⟩
abbrev main_cst_12 : Ref sig .tc := ⟨.hbm, 98, rfl⟩
abbrev main_v67 : Ref sig .tc := ⟨.hbm, 99, rfl⟩
abbrev main_c_13 : Ref sig .tc := ⟨.hbm, 100, rfl⟩
abbrev main_v68 : Ref sig .tc := ⟨.hbm, 101, rfl⟩
abbrev main_v69 : Ref sig .tc := ⟨.hbm, 102, rfl⟩
abbrev main_c_14 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_15 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_16 : Ref sig .tc := ⟨.hbm, 113, rfl⟩
abbrev main_v78 : Ref sig .tc := ⟨.hbm, 114, rfl⟩
abbrev main_v79 : Ref sig .tc := ⟨.hbm, 115, rfl⟩
abbrev main_c_17 : Ref sig .tc := ⟨.hbm, 116, rfl⟩
abbrev main_v80 : Ref sig .tc := ⟨.hbm, 117, rfl⟩
abbrev main_v81 : Ref sig .tc := ⟨.hbm, 118, rfl⟩
abbrev main_c_18 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_c_19 : Ref sig .tc := ⟨.hbm, 125, rfl⟩
abbrev main_v87 : Ref sig .tc := ⟨.hbm, 126, rfl⟩
abbrev main_v88 : Ref sig .tc := ⟨.hbm, 127, rfl⟩
abbrev main_c_20 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_c_21 : Ref sig .tc := ⟨.hbm, 136, rfl⟩
abbrev main_v96 : Ref sig .tc := ⟨.hbm, 137, rfl⟩
abbrev main_v97 : Ref sig .tc := ⟨.hbm, 138, rfl⟩
abbrev main_c_22 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_cst_23 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_call3_cst : Ref sig .tc := ⟨.hbm, 155, rfl⟩
abbrev main_call3_v0 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_cst_24 : Ref sig .tc := ⟨.hbm, 166, rfl⟩
abbrev main_v121 : Ref sig .tc := ⟨.hbm, 167, rfl⟩
abbrev main_cst_25 : Ref sig .tc := ⟨.hbm, 168, rfl⟩
abbrev main_v122 : Ref sig .tc := ⟨.hbm, 169, rfl⟩
abbrev main_c_26 : Ref sig .tc := ⟨.hbm, 170, rfl⟩
abbrev main_v123 : Ref sig .tc := ⟨.hbm, 171, rfl⟩
abbrev main_v124 : Ref sig .tc := ⟨.hbm, 172, rfl⟩
abbrev main_c_27 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_cst_28 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_cst_29 : Ref sig .tc := ⟨.hbm, 183, rfl⟩
abbrev main_v133 : Ref sig .tc := ⟨.hbm, 184, rfl⟩
abbrev main_v134 : Ref sig .tc := ⟨.hbm, 185, rfl⟩
abbrev main_c_30 : Ref sig .tc := ⟨.hbm, 186, rfl⟩
abbrev main_v135 : Ref sig .tc := ⟨.hbm, 187, rfl⟩
abbrev main_v136 : Ref sig .tc := ⟨.hbm, 188, rfl⟩
abbrev main_c_31 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_c_32 : Ref sig .tc := ⟨.hbm, 195, rfl⟩
abbrev main_v142 : Ref sig .tc := ⟨.hbm, 196, rfl⟩
abbrev main_v143 : Ref sig .tc := ⟨.hbm, 197, rfl⟩
abbrev main_c_33 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_c_34 : Ref sig .tc := ⟨.hbm, 206, rfl⟩
abbrev main_v151 : Ref sig .tc := ⟨.hbm, 207, rfl⟩
abbrev main_v152 : Ref sig .tc := ⟨.hbm, 208, rfl⟩
abbrev main_c_35 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_cst_36 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_call5_cst : Ref sig .tc := ⟨.hbm, 225, rfl⟩
abbrev main_call5_v0 : Ref sig .tc := ⟨.hbm, 226, rfl⟩
abbrev main_v167 : Ref sig .tc := ⟨.hbm, 227, rfl⟩
abbrev main_v168 : Ref sig .tc := ⟨.hbm, 228, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.RunNamed.lean ====
/-
  The idealized kernel program's run with its result named.

  Every weakly fair execution of the program ends with each buffer at the contents the fold through its segments
  leaves there: seven tiled regions among stretches of host operations. In particular the result table ends at the
  last boundary's contents, and every argument as launched.
-/
import proofs.«172900_j70188355551845_2_alg».proof.Proof.Gen.KernelIdeal.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Named

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program runs, its result table ends at the last boundary's contents, and its arguments end as launched. -/
theorem run : θ_run defs (onTc (τ := τ) (main (F := F))) ⟨m, fun _ => 0, ρ⟩ (fun r => ∀ c : Dev nD,
      r.2.mem ((c.tc : Thread nD τ).loc main_v105) = W19 m ρ c (Proc.devRef .tc main_v105)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v105 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c),
       (h c _ (mem_uc main_arg8 (by decide))).trans (W19_main_arg8 m ρ c),
       (h c _ (mem_uc main_arg9 (by decide))).trans (W19_main_arg9 m ρ c),
       (h c _ (mem_uc main_arg10 (by decide))).trans (W19_main_arg10 m ρ c),
       (h c _ (mem_uc main_arg11 (by decide))).trans (W19_main_arg11 m ρ c),
       (h c _ (mem_uc main_arg12 (by decide))).trans (W19_main_arg12 m ρ c),
       (h c _ (mem_uc main_arg13 (by decide))).trans (W19_main_arg13 m ρ c),
       (h c _ (mem_uc main_arg14 (by decide))).trans (W19_main_arg14 m ρ c)⟩)

end Cert.KernelIdeal.Named

end
-- ==== Proof.LibPlainDot.lean ====
/-
  A plain matrix product read at an index, on the extended reals.

  For dimension numbers that contract the left operand's second axis against the right operand's first — an
  [M, K] array times a [K, P] array — the product into a zero accumulator, read at row `p` and column `q`, is
  `Σ k, l (p, k) · r (k, q)` over the K contraction coordinates. The contraction's index set has one axis; the sum is
  re-indexed through that axis's coordinate. The two facts about the free axes (the left index keeps the row, the right
  index keeps the column) are taken as hypotheses, since for given dimension numbers they hold by computation.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The matrix product into the zero accumulator at (p, q) is the sum over the contraction coordinate of the left
    operand at (p, k) times the right operand at (k, q). -/
theorem matmul_zero_apply {M K P : ℕ} {φ₁ φ₂ : FTy}
    (D : DotDims ⟨2, ![M, K]⟩ ⟨2, ![K, P]⟩ ⟨2, ![M, P]⟩)
    (hlc : D.lhsContracting = [1]) (hrc : D.rhsContracting = [0])
    (hl0 : ∀ (j : (⟨2, ![M, P]⟩ : Shape).Idx) (c : D.contr.Idx), (D.lhsIdx j c 0).val = (j 0).val)
    (hr1 : ∀ (j : (⟨2, ![M, P]⟩ : Shape).Idx) (c : D.contr.Idx), (D.rhsIdx j c 1).val = (j 1).val)
    (hrank : D.contr.rank = 1) (hsize : D.contr.size ⟨0, by omega⟩ = K)
    (prec : Option ContractPrecision)
    (l : FVec Ideal ⟨2, ![M, K]⟩ φ₁) (r : FVec Ideal ⟨2, ![K, P]⟩ φ₂) (p : Fin M) (q : Fin P) :
    FloatOps.matmul D prec l r (constant ⟨2, ![M, P]⟩ .f32 0x00000000#32) (ix2 p q)
      = ∑ k : Fin K, l (ix2 p k) * r (ix2 k q) := by
  rw [Ideal.matmul_constant_zero_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hrank hsize).symm k) = ix2 k q := funext fun a => Fin.ext (by
    match a with
    | ⟨0, _⟩ => exact (D.rhsIdx_val_of_single hrc _ _).trans hk
    | ⟨1, _⟩ => exact hr1 _ _)
  rw [el, er]

end Cert.LibPlainDot

end
-- ==== Proof.LibBiasRow.lean ====
/-
  A bias vector used against every row of a table, and a scalar filling a table.

  A length-b vector added to every row of an [a, b] table is first made a [1, b] row and then repeated along the rows.
  Whether the row is made by a reshape and repeated by a trailing-axes broadcast, or made by placing the vector's axis
  on the table's second axis and repeated by an axis-by-axis broadcast, the repeated table holds at (p, k) the vector's
  entry k. A scalar broadcast to a table holds the scalar everywhere.
-/
import Idealize.ShloMosaic.Lib.Pipeline.Value
import Idealize.ShloMosaic.Lib.ValueIdx
import Idealize.ShloMosaic.Lib.ValueLayout

noncomputable section

namespace Cert.LibBiasRow

open Idealize.ShloMosaic Idealize.ShloMosaic.ValueIdx

variable {α : Type}

/-- The vector placed on the second axis of a [1, b] row, the row then broadcast axis by axis to [a, b]: at (p, k) the
    vector at k. -/
theorem placed_row_apply {a b : ℕ} (x : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (k : Fin b) :
    broadcastInDim ⟨2, ![a, b]⟩ ![0, 1] h2 (broadcastInDim ⟨2, ![1, b]⟩ ![1] h1 x) (ix2 p k) = x (ix1 k) := by
  refine (broadcastInDim_apply ![0, 1] h2 _ (ix2 p k) (ix2 (0 : Fin 1) k) fun ax => ?_).trans ?_
  · match ax with
    | ⟨0, _⟩ => rfl
    | ⟨1, _⟩ =>
      show k.val = if b = 1 then 0 else k.val
      split
      · have := k.isLt; omega
      · rfl
  · refine broadcastInDim_apply ![1] h1 x (ix2 (0 : Fin 1) k) (ix1 k) fun ax => ?_
    match ax with
    | ⟨0, _⟩ =>
      show k.val = if b = 1 then 0 else k.val
      split
      · have := k.isLt; omega
      · rfl

/-- The vector reshaped to a [1, b] row, the row then broadcast over the leading axis to [a, b]: at (p, k) the vector
    at k. -/
theorem reshaped_row_apply {a b : ℕ} (x : (⟨1, ![b]⟩ : Shape).Idx → α)
    (h1 : (⟨1, ![b]⟩ : Shape).ShapeCasts ⟨2, ![1, b]⟩)
    (h2 : (⟨2, ![1, b]⟩ : Shape).Broadcasts ⟨2, ![a, b]⟩) (p : Fin a) (k : Fin b) :
    broadcastTo ⟨2, ![a, b]⟩ (shapeCast ⟨2, ![1, b]⟩ x h1) h2 (ix2 p k) = x (ix1 k) := by
  refine (broadcastTo_apply _ h2 (ix2 p k) (ix2 (0 : Fin 1) k) fun ax => ?_).trans (shapeCast_a_1a_apply x h1 0 k)
  match ax with
  | ⟨0, _⟩ => rfl
  | ⟨1, _⟩ =>
    show k.val = if b = 1 then 0 else k.val
    split
    · have := k.isLt; omega
    · rfl

/-- A scalar broadcast to any shape holds the scalar at every index. -/
theorem fill_apply {t : Shape} (z : (⟨0, ![]⟩ : Shape).Idx → α) (h : (⟨0, ![]⟩ : Shape).BroadcastsInDim t ![]) (j : t.Idx) :
    broadcastInDim t ![] h z j = z ix0 :=
  broadcastInDim_apply ![] h z j ix0 fun ax => ax.elim0

end Cert.LibBiasRow

end
-- ==== Proof.LibColumn.lean ====
/-
  A column of per-row values used against a matrix.

  A vector of length `a` written as an `[a, 1]` column (a reshape that appends a unit axis) holds, at row `i`, the
  vector's entry `i`; and an `[a, 1]` column broadcast along the second axis to `[a, b]` holds, at `(p, c)`, the
  column's entry of row `p`, whatever the column coordinate `c`. Both are read off the general index lemmas for a
  shape cast (equal row-major positions) and for a broadcast (unit axes read at 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.Payloads.lean ====
/-
  What each tiled kernel's body stores, entry by entry: a 5000-row tile of the projection with bias, of the scaled
  projection, and of the update.
-/
import proofs.«172900_j70188355551845_2_alg».proof.Proof.Gen.KernelIdeal.Skeleton
import proofs.«172900_j70188355551845_2_alg».proof.Proof.LibPlainDot
import proofs.«172900_j70188355551845_2_alg».proof.Proof.LibBiasRow
import proofs.«172900_j70188355551845_2_alg».proof.Proof.LibColumn
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators
open Idealize.ShloMosaic Idealize.ShloMosaic.ValueIdx

namespace Cert.KernelIdeal.Pay

open Cert.KernelIdeal Cert.KernelIdeal.Gen

/-- The product of a tile with the weight, into the zero accumulator, at (p, q): row p of the tile against column q
    of the weight. The narrowing of both operands changes nothing on the extended reals. -/
theorem prod_apply (x : Vec Ideal S5000x128 .f32) (w : Vec Ideal S128x128 .f32) (p : Fin 5000) (q : Fin 128) :
    matmul (F := Ideal) dot_S5000x128_S128x128_S5000x128_1_0_0_1_n_n none
        (truncf .bf16 x bitsLt_bf16_f32) (truncf .bf16 w bitsLt_bf16_f32)
        (constant S5000x128 .f32 0x00000000#32) (ix2 p q)
      = ∑ k : Fin 128, x (ix2 p k) * w (ix2 k q) :=
  Cert.LibPlainDot.matmul_zero_apply (M := 5000) (K := 128) (P := 128)
    dot_S5000x128_S128x128_S5000x128_1_0_0_1_n_n rfl rfl (fun _ _ => rfl) (fun _ _ => rfl) rfl rfl none
    (truncf .bf16 x bitsLt_bf16_f32) (truncf .bf16 w bitsLt_bf16_f32) p q

/-- The per-row factor as a tile: the [5000, 1] column, recast to its own shape and repeated along the columns, holds
    at (p, q) the factor of row p. -/
theorem column_apply (d : Vec Ideal S5000x1 .f32) (p : Fin 5000) (q : Fin 128) :
    broadcastTo S5000x128 (shapeCast S5000x1 d shapeCasts_S5000x1_S5000x1) broadcasts_S5000x1_S5000x128 (ix2 p q)
      = d (ix2 p 0) := by
  rw [shapeCast_self]
  exact Cert.LibColumn.broadcastTo_a1_ab_apply (a := 5000) (b := 128) d broadcasts_S5000x1_S5000x128 p q

/-- The bias as a tile: the length-128 vector made a [1, 128] row and repeated over the rows holds at (p, q) the
    bias of column q. -/
theorem row_apply (b : Vec Ideal S128 .f32) (p : Fin 5000) (q : Fin 128) :
    broadcastTo S5000x128 (shapeCast S1x128 b shapeCasts_S128_S1x128) broadcasts_S1x128_S5000x128 (ix2 p q)
      = b (ix1 q) :=
  Cert.LibBiasRow.reshaped_row_apply (a := 5000) (b := 128) b shapeCasts_S128_S1x128 broadcasts_S1x128_S5000x128 p q

/-- The bias kernel's tile at (p, q): row p of the tile against column q of the weight, plus b(q). -/
theorem bias_pay (x : Vec Ideal S5000x128 .f32) (w : Vec Ideal S128x128 .f32) (b : Vec Ideal S128 .f32)
    (p : Fin 5000) (q : Fin 128) :
    k0_pay1 (F := Ideal) x w b (ix2 p q) = (∑ k : Fin 128, x (ix2 p k) * w (ix2 k q)) + b (ix1 q) := by
  unfold k0_pay1
  refine (addf_apply _ _ _).trans ?_
  exact congrArg₂ (· + ·) (prod_apply x w p q) (row_apply b p q)

/-- The scaling kernel's tile at (p, q): row p against column q, times the row's factor. -/
theorem scale_pay (x : Vec Ideal S5000x128 .f32) (w : Vec Ideal S128x128 .f32) (d : Vec Ideal S5000x1 .f32)
    (p : Fin 5000) (q : Fin 128) :
    k1_pay1 (F := Ideal) x w d (ix2 p q) = (∑ k : Fin 128, x (ix2 p k) * w (ix2 k q)) * d (ix2 p 0) := by
  unfold k1_pay1
  refine (mulf_apply _ _ _).trans ?_
  exact congrArg₂ (· * ·) (prod_apply x w p q) (column_apply d p q)

/-- The update kernel's tile at (p, q). -/
theorem update_pay (agg : Vec Ideal S5000x128 .f32) (d : Vec Ideal S5000x1 .f32) (b : Vec Ideal S128 .f32)
    (run : Vec Ideal S5000x128 .f32) (p : Fin 5000) (q : Fin 128) :
    k2_pay1 (F := Ideal) agg d b run (ix2 p q)
      = run (ix2 p q) + max (agg (ix2 p q) * d (ix2 p 0) + b (ix1 q)) 0 := by
  unfold k2_pay1
  refine (addf_apply _ _ _).trans ?_
  refine congrArg₂ (· + ·) (congrFun (shapeCast_self run _) _) ?_
  refine (maximumf_apply _ _ _).trans ?_
  refine congrArg₂ max ?_ ((broadcast_apply _ _).trans Ideal.ofBits_zero_f32)
  refine (addf_apply _ _ _).trans ?_
  refine congrArg₂ (· + ·) ?_ (row_apply b p q)
  refine (mulf_apply _ _ _).trans ?_
  exact congrArg₂ (· * ·) (congrFun (shapeCast_self agg _) _) (column_apply d p q)

/-- The three scaling kernels store the same function of their loads, and so do the three update kernels. -/
theorem k3_eq : @k3_pay1 Ideal _ = @k1_pay1 Ideal _ := rfl
theorem k5_eq : @k5_pay1 Ideal _ = @k1_pay1 Ideal _ := rfl
theorem k4_eq : @k4_pay1 Ideal _ = @k2_pay1 Ideal _ := rfl
theorem k6_eq : @k6_pay1 Ideal _ = @k2_pay1 Ideal _ := rfl

end Cert.KernelIdeal.Pay

end
-- ==== Proof.Spec.lean ====
/-
  The layer's dense pieces, entry by entry, over the extended reals.

  A node table has 50000 rows of 128 features. Three whole-table functions make up everything the tiled kernels
  compute: a projection with a bias added to every row, a projection with every row scaled by that row's factor, and
  the update that adds to the running table the positive part of a scaled, biased aggregate.
-/
import Idealize.ShloMosaic.PureOps.Ideal
import Idealize.ShloMosaic.Lib.ValueIdx

noncomputable section

open scoped BigOperators
open Idealize.ShloMosaic Idealize.ShloMosaic.ValueIdx

namespace Cert.Spec

/-- A table of 50000 rows by 128 features. -/
abbrev Tab : Shape := ⟨2, ![50000, 128]⟩
/-- A 128 by 128 weight. -/
abbrev Wgt : Shape := ⟨2, ![128, 128]⟩
/-- A bias of 128 entries. -/
abbrev Bias : Shape := ⟨1, ![128]⟩
/-- One factor per row, kept as a column. -/
abbrev Col : Shape := ⟨2, ![50000, 1]⟩

/-- Row p of x against column q of w. -/
def proj (x : Tab.Idx → EReal) (w : Wgt.Idx → EReal) (p : Fin 50000) (q : Fin 128) : EReal :=
  ∑ k : Fin 128, x (ix2 p k) * w (ix2 k q)

/-- The projection x·w with the bias b added to every row. -/
def denseBias (x : Tab.Idx → EReal) (w : Wgt.Idx → EReal) (b : Bias.Idx → EReal) : Tab.Idx → EReal :=
  fun i => proj x w (i 0) (i 1) + b (ix1 (i 1))

/-- The projection x·w with row p multiplied by the factor d(p). -/
def denseScale (x : Tab.Idx → EReal) (w : Wgt.Idx → EReal) (d : Col.Idx → EReal) : Tab.Idx → EReal :=
  fun i => proj x w (i 0) (i 1) * d (ix2 (i 0) 0)

/-- The running table plus the positive part of (aggregate · row factor + bias). -/
def hopUpdate (agg : Tab.Idx → EReal) (d : Col.Idx → EReal) (b : Bias.Idx → EReal) (run : Tab.Idx → EReal) :
    Tab.Idx → EReal :=
  fun i => run i + max (agg i * d (ix2 (i 0) 0) + b (ix1 (i 1))) 0

end Cert.Spec

end
-- ==== Proof.Region0.lean ====
/-
  The projection with bias, whole: the ten 5000-row tiles its kernel writes back make up the biased projection of the
  full 50000-row table.
-/
import proofs.«172900_j70188355551845_2_alg».proof.Proof.Gen.KernelIdeal.Frame
import proofs.«172900_j70188355551845_2_alg».proof.Proof.Payloads
import proofs.«172900_j70188355551845_2_alg».proof.Proof.Spec
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

/-- A whole tile sits at offset zero on every axis. -/
theorem zero_off1 : (![0] : Fin 1 → Nat) = fun _ => 0 := funext fun a => by fin_cases a <;> rfl

theorem zero_off : (![0, 0] : Fin 2 → Nat) = fun _ => 0 := funext fun a => by fin_cases a <;> rfl

/-- There are ten tiles. -/
theorem ten : cfg0.N = 10 := N_0

/-- Tile t of the table and of the result starts at row block t and column block 0; the weight and the bias are one
    block each. -/
theorem tile_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0 ∧ True
    ∧ win0_3.index t (0 : Fin 2) = t.val ∧ win0_3.index t (1 : Fin 2) = 0 :=
  (by decide +kernel : ∀ t : Fin grid0.N, _)

/-- The biased projection of the whole table, from the arrays as the region finds them. -/
abbrev whole (c : Dev nD) : S50000x128.Idx → Elt Ideal .f32 :=
  Cert.Spec.denseBias (V c main_arg0) (V c main_arg7) (V c main_arg8)

/-- Row p of tile t of the table is row 5000·t + p of the table. -/
theorem table_tile (c : Dev nD) (t : Fin cfg0.N) (p : Fin 5000) (k : Fin 128) (r : Fin 50000)
    (hr : r.val = t.val * 5000 + p.val) :
    (iblk0 (F := Ideal) V c 0 t : Vec Ideal S5000x128 .f32) (ix2 p k)
      = (V c main_arg0 : S50000x128.Idx → Elt Ideal .f32) (ix2 r k) := by
  obtain ⟨e0, e1, -⟩ := tile_index t
  show V c main_arg0 (((cfg0.win 0).blk t).view.emb (ix2 p k)) = V c main_arg0 (ix2 r k)
  refine congrArg _ ?_
  funext a; apply Fin.ext
  match a with
  | ⟨0, _⟩ => show win0_0.index t (0 : Fin 2) * 5000 + 1 * p.val = r.val; omega
  | ⟨1, _⟩ => show win0_0.index t (1 : Fin 2) * 128 + 1 * k.val = k.val; omega

/-- The weight's one tile is the weight. -/
theorem weight_tile (c : Dev nD) (t : Fin cfg0.N) (k : Fin 128) (q : Fin 128) :
    (iblk0 (F := Ideal) V c 1 t : Vec Ideal S128x128 .f32) (ix2 k q)
      = (V c main_arg7 : S128x128.Idx → Elt Ideal .f32) (ix2 k q) := by
  obtain ⟨-, -, e2, e3, -⟩ := tile_index t
  show V c main_arg7 (((cfg0.win 1).blk t).view.emb (ix2 k q)) = V c main_arg7 (ix2 k q)
  refine congrArg _ ?_
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-- The bias's one tile is the bias. -/
theorem bias_tile (c : Dev nD) (t : Fin cfg0.N) (q : Fin 128) :
    (iblk0 (F := Ideal) V c 2 t : Vec Ideal S128 .f32) (ix1 q)
      = (V c main_arg8 : S128.Idx → Elt Ideal .f32) (ix1 q) := by
  obtain ⟨-, -, -, -, e4, -⟩ := tile_index t
  show V c main_arg8 (((cfg0.win 2).blk t).view.emb (ix1 q)) = V c main_arg8 (ix1 q)
  refine congrArg _ ?_
  funext a; apply Fin.ext
  match a with
  | ⟨0, _⟩ => show win0_2.index t (0 : Fin 1) * 128 + 1 * q.val = q.val; omega

/-- A tile entry of the bias kernel, once its three loads are read as rows of whole arrays, is the biased projection
    of those arrays there. -/
theorem biased_of_loads (x : Vec Ideal S5000x128 .f32) (w : Vec Ideal S128x128 .f32) (b : Vec Ideal S128 .f32)
    (X : S50000x128.Idx → EReal) (W : S128x128.Idx → EReal) (B : S128.Idx → EReal)
    (p : Fin 5000) (q : Fin 128) (r : Fin 50000)
    (hx : ∀ k : Fin 128, x (ix2 p k) = X (ix2 r k)) (hw : ∀ k : Fin 128, w (ix2 k q) = W (ix2 k q))
    (hb : b (ix1 q) = B (ix1 q)) :
    k0_pay1 (F := Ideal) x w b (ix2 p q) = Cert.Spec.denseBias X W B (ix2 r q) := by
  refine (Pay.bias_pay x w b p q).trans ?_
  show _ = (∑ k : Fin 128, X (ix2 r k) * W (ix2 k q)) + B (ix1 q)
  rw [hb]
  refine congrArg (· + B (ix1 q)) ?_
  exact Finset.sum_congr rfl fun k _ => by rw [hx k, hw k]

/-- What tile t stores at (p, q) is the biased projection of the whole table at (5000·t + p, q). -/
theorem tile_entry (c : Dev nD) (t : Fin cfg0.N) (p : Fin 5000) (q : Fin 128) (r : Fin 50000)
    (hr : r.val = t.val * 5000 + p.val) :
    k0_pay1 (F := Ideal) (iblk0 V c 0 t) (iblk0 V c 1 t) (iblk0 V c 2 t) (ix2 p q)
      = whole V c (ix2 r q) := by
  exact biased_of_loads _ _ _ _ _ _ p q r (fun k => table_tile V c t p k r hr) (fun k => weight_tile V c t k q)
    (bias_tile V c t q)

/-- The same at any entry j of the tile: it lands where the tile's rectangle puts j. -/
theorem tile_point (c : Dev nD) (t : Fin cfg0.N) (j : S5000x128.Idx) :
    k0_pay1 (F := Ideal) (iblk0 V c 0 t) (iblk0 V c 1 t) (iblk0 V c 2 t) j
      = whole V c (((cfg0.win 3).blk t).view.emb j) := by
  obtain ⟨-, -, -, -, -, -, e6, e7⟩ := tile_index t
  have ht : t.val < 10 := lt_of_lt_of_eq t.isLt ten
  have hj0 : (j 0).val < 5000 := idx2_lt0 j
  have hE : ((cfg0.win 3).blk t).view.emb j
      = ix2 (⟨t.val * 5000 + (j 0).val, by omega⟩ : Fin 50000) (j 1) := by
    funext a; apply Fin.ext
    match a with
    | ⟨0, _⟩ => show win0_3.index t (0 : Fin 2) * 5000 + 1 * (j 0).val = t.val * 5000 + (j 0).val; omega
    | ⟨1, _⟩ => show win0_3.index t (1 : Fin 2) * 128 + 1 * (j 1).val = (j 1).val; omega
  rw [hE]
  refine (congrArg (k0_pay1 (F := Ideal) (iblk0 V c 0 t) (iblk0 V c 1 t) (iblk0 V c 2 t)) (eq_ix2 j)).trans ?_
  exact tile_entry V c t (j 0) (j 1) _ rfl

/-- What point t writes back is tile t of the biased projection of the whole table. -/
theorem flushed_eq (c : Dev nD) (t : Fin cfg0.N) :
    (dat0 (F := Ideal) V c).flushed 3 t = ((cfg0.win 3).blk t).view.read (Elt Ideal) (whole V c) := by
  show (cfg0.win 3).cut (grid0.coords t) ((dat0 (F := Ideal) V c).after 3 t) = _
  rw [after0_3]
  unfold out0_3
  rw [View.canon_unit_zero zero_off]
  simp only [View.ld_unit_zero (S := S5000x128) zero_off, View.ld_unit_zero (S := S128x128) zero_off,
    View.ld_unit_zero (S := S128) zero_off1]
  funext j
  exact tile_point V c t j

/-- A table entry is in tile t iff each coordinate is in the tile's range on its axis. -/
theorem mem_blk (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v0).slice (win0_3.rect t)).set ↔ _
  rw [View.set_slice_whole, Rect.mem_set_unit]
  exact Iff.rfl

/-- Row r lies in tile r / 5000, so the ten tiles cover the table. -/
theorem cover (i : S50000x128.Idx) :
    ∃ t : Fin cfg0.N, (cfg0.win 3).flush t = true ∧ i ∈ ((cfg0.win 3).blk t).view.set := by
  have hi0 : (i 0).val < 50000 := idx2_lt0 i
  have hi1 : (i 1).val < 128 := idx2_lt1 i
  obtain ⟨t, ht⟩ : ∃ t : Fin cfg0.N, t.val = (i 0).val / 5000 :=
    ⟨⟨(i 0).val / 5000, lt_of_lt_of_eq (by omega : (i 0).val / 5000 < 10) ten.symm⟩, rfl⟩
  obtain ⟨-, -, -, -, -, -, e6, e7⟩ := tile_index t
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- After the region's ten write-backs the result array holds the biased projection of the whole table. -/
theorem value (c : Dev nD) :
    (dat0 (F := Ideal) V c).arrAt 3 cfg0.N
      = Cert.Spec.denseBias (V c main_arg0) (V c main_arg7) (V c main_arg8) :=
  (dat0 (F := Ideal) V c).arrAt_eq_of_cover 3 (whole V c) (fun t _ => flushed_eq V c t) (cover)

end Cert.KernelIdeal.Region0

end
-- ==== Proof.Region1.lean ====
/-
  The first scaled projection, whole: the ten 5000-row tiles its kernel writes back make up the scaled projection of
  the full 50000-row table.
-/
import proofs.«172900_j70188355551845_2_alg».proof.Proof.Gen.KernelIdeal.Frame
import proofs.«172900_j70188355551845_2_alg».proof.Proof.Payloads
import proofs.«172900_j70188355551845_2_alg».proof.Proof.Spec
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

/-- A whole tile sits at offset zero on both axes. -/
theorem zero_off : (![0, 0] : Fin 2 → Nat) = fun _ => 0 := funext fun a => by fin_cases a <;> rfl

/-- There are ten tiles. -/
theorem ten : cfg1.N = 10 := N_1

/-- Tile t of the table, of the row factors and of the result starts at row block t and column block 0; the weight
    is one block. -/
theorem tile_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- The scaled projection of the whole table, from the arrays as the region finds them. -/
abbrev whole (c : Dev nD) : S50000x128.Idx → Elt Ideal .f32 :=
  Cert.Spec.denseScale (V c main_arg1) (V c main_arg9) (V c main_v23)

/-- Row p of tile t of the table is row 5000·t + p of the table. -/
theorem table_tile (c : Dev nD) (t : Fin cfg1.N) (p : Fin 5000) (k : Fin 128) (r : Fin 50000)
    (hr : r.val = t.val * 5000 + p.val) :
    (iblk1 (F := Ideal) V c 0 t : Vec Ideal S5000x128 .f32) (ix2 p k)
      = (V c main_arg1 : S50000x128.Idx → Elt Ideal .f32) (ix2 r k) := by
  obtain ⟨e0, e1, -⟩ := tile_index t
  show V c main_arg1 (((cfg1.win 0).blk t).view.emb (ix2 p k)) = V c main_arg1 (ix2 r k)
  refine congrArg _ ?_
  funext a; apply Fin.ext
  match a with
  | ⟨0, _⟩ => show win1_0.index t (0 : Fin 2) * 5000 + 1 * p.val = r.val; omega
  | ⟨1, _⟩ => show win1_0.index t (1 : Fin 2) * 128 + 1 * k.val = k.val; omega

/-- The weight's one tile is the weight. -/
theorem weight_tile (c : Dev nD) (t : Fin cfg1.N) (k : Fin 128) (q : Fin 128) :
    (iblk1 (F := Ideal) V c 1 t : Vec Ideal S128x128 .f32) (ix2 k q)
      = (V c main_arg9 : S128x128.Idx → Elt Ideal .f32) (ix2 k q) := by
  obtain ⟨-, -, e2, e3, -⟩ := tile_index t
  show V c main_arg9 (((cfg1.win 1).blk t).view.emb (ix2 k q)) = V c main_arg9 (ix2 k q)
  refine congrArg _ ?_
  funext a; apply Fin.ext
  match a with
  | ⟨0, _⟩ => show win1_1.index t (0 : Fin 2) * 128 + 1 * k.val = k.val; omega
  | ⟨1, _⟩ => show win1_1.index t (1 : Fin 2) * 128 + 1 * q.val = q.val; omega

/-- Entry p of tile t of the row factors is the factor of row 5000·t + p. -/
theorem factor_tile (c : Dev nD) (t : Fin cfg1.N) (p : Fin 5000) (r : Fin 50000)
    (hr : r.val = t.val * 5000 + p.val) :
    (iblk1 (F := Ideal) V c 2 t : Vec Ideal S5000x1 .f32) (ix2 p 0)
      = (V c main_v23 : S50000x1.Idx → Elt Ideal .f32) (ix2 r 0) := by
  obtain ⟨-, -, -, -, e4, e5, -⟩ := tile_index t
  show V c main_v23 (((cfg1.win 2).blk t).view.emb (ix2 p 0)) = V c main_v23 (ix2 r 0)
  refine congrArg _ ?_
  funext a; apply Fin.ext
  match a with
  | ⟨0, _⟩ => show win1_2.index t (0 : Fin 2) * 5000 + 1 * p.val = r.val; omega
  | ⟨1, _⟩ => show win1_2.index t (1 : Fin 2) * 1 + 1 * 0 = 0; omega

/-- A tile entry of the scaling kernel, once its three loads are read as rows of whole arrays, is the scaled
    projection of those arrays there. -/
theorem scaled_of_loads (x : Vec Ideal S5000x128 .f32) (w : Vec Ideal S128x128 .f32) (d : Vec Ideal S5000x1 .f32)
    (X : S50000x128.Idx → EReal) (W : S128x128.Idx → EReal) (D : S50000x1.Idx → EReal)
    (p : Fin 5000) (q : Fin 128) (r : Fin 50000)
    (hx : ∀ k : Fin 128, x (ix2 p k) = X (ix2 r k)) (hw : ∀ k : Fin 128, w (ix2 k q) = W (ix2 k q))
    (hd : d (ix2 p 0) = D (ix2 r 0)) :
    k1_pay1 (F := Ideal) x w d (ix2 p q) = Cert.Spec.denseScale X W D (ix2 r q) := by
  refine (Pay.scale_pay x w d p q).trans ?_
  show _ = (∑ k : Fin 128, X (ix2 r k) * W (ix2 k q)) * D (ix2 r 0)
  rw [hd]
  refine congrArg (· * D (ix2 r 0)) ?_
  exact Finset.sum_congr rfl fun k _ => by rw [hx k, hw k]

/-- What tile t stores at (p, q) is the scaled projection of the whole table at (5000·t + p, q). -/
theorem tile_entry (c : Dev nD) (t : Fin cfg1.N) (p : Fin 5000) (q : Fin 128) (r : Fin 50000)
    (hr : r.val = t.val * 5000 + p.val) :
    k1_pay1 (F := Ideal) (iblk1 V c 0 t) (iblk1 V c 1 t) (iblk1 V c 2 t) (ix2 p q)
      = whole V c (ix2 r q) := by
  exact scaled_of_loads _ _ _ _ _ _ p q r (fun k => table_tile V c t p k r hr) (fun k => weight_tile V c t k q)
    (factor_tile V c t p r hr)

/-- The same at any entry j of the tile: it lands where the tile's rectangle puts j. -/
theorem tile_point (c : Dev nD) (t : Fin cfg1.N) (j : S5000x128.Idx) :
    k1_pay1 (F := Ideal) (iblk1 V c 0 t) (iblk1 V c 1 t) (iblk1 V c 2 t) j
      = whole V c (((cfg1.win 3).blk t).view.emb j) := by
  obtain ⟨-, -, -, -, -, -, e6, e7⟩ := tile_index t
  have ht : t.val < 10 := lt_of_lt_of_eq t.isLt ten
  have hj0 : (j 0).val < 5000 := idx2_lt0 j
  have hE : ((cfg1.win 3).blk t).view.emb j
      = ix2 (⟨t.val * 5000 + (j 0).val, by omega⟩ : Fin 50000) (j 1) := by
    funext a; apply Fin.ext
    match a with
    | ⟨0, _⟩ => show win1_3.index t (0 : Fin 2) * 5000 + 1 * (j 0).val = t.val * 5000 + (j 0).val; omega
    | ⟨1, _⟩ => show win1_3.index t (1 : Fin 2) * 128 + 1 * (j 1).val = (j 1).val; omega
  rw [hE]
  refine (congrArg (k1_pay1 (F := Ideal) (iblk1 V c 0 t) (iblk1 V c 1 t) (iblk1 V c 2 t)) (eq_ix2 j)).trans ?_
  exact tile_entry V c t (j 0) (j 1) _ rfl

/-- What point t writes back is tile t of the scaled projection of the whole table. -/
theorem flushed_eq (c : Dev nD) (t : Fin cfg1.N) :
    (dat1 (F := Ideal) V c).flushed 3 t = ((cfg1.win 3).blk t).view.read (Elt Ideal) (whole V c) := by
  show (cfg1.win 3).cut (grid1.coords t) ((dat1 (F := Ideal) V c).after 3 t) = _
  rw [after1_3]
  unfold out1_3
  rw [View.canon_unit_zero zero_off]
  simp only [View.ld_unit_zero (S := S5000x128) zero_off, View.ld_unit_zero (S := S128x128) zero_off,
    View.ld_unit_zero (S := S5000x1) zero_off]
  funext j
  exact tile_point V c t j

/-- A table entry is in tile t iff each coordinate is in the tile's range on its axis. -/
theorem mem_blk (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v24).slice (win1_3.rect t)).set ↔ _
  rw [View.set_slice_whole, Rect.mem_set_unit]
  exact Iff.rfl

/-- Row r lies in tile r / 5000, so the ten tiles cover the table. -/
theorem cover (i : S50000x128.Idx) :
    ∃ t : Fin cfg1.N, (cfg1.win 3).flush t = true ∧ i ∈ ((cfg1.win 3).blk t).view.set := by
  have hi0 : (i 0).val < 50000 := idx2_lt0 i
  have hi1 : (i 1).val < 128 := idx2_lt1 i
  obtain ⟨t, ht⟩ : ∃ t : Fin cfg1.N, t.val = (i 0).val / 5000 :=
    ⟨⟨(i 0).val / 5000, lt_of_lt_of_eq (by omega : (i 0).val / 5000 < 10) ten.symm⟩, rfl⟩
  obtain ⟨-, -, -, -, -, -, e6, e7⟩ := tile_index t
  refine ⟨t, flush1_3 t, ?_⟩
  rw [mem_blk]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 128 ≤ (i 1).val ∧ (i 1).val < win1_3.index t (1 : Fin 2) * 128 + 128
    omega

/-- After the region's ten write-backs the result array holds the scaled projection of the whole table. -/
theorem value (c : Dev nD) :
    (dat1 (F := Ideal) V c).arrAt 3 cfg1.N
      = Cert.Spec.denseScale (V c main_arg1) (V c main_arg9) (V c main_v23) :=
  (dat1 (F := Ideal) V c).arrAt_eq_of_cover 3 (whole V c) (fun t _ => flushed_eq V c t) (cover)

end Cert.KernelIdeal.Region1

end
-- ==== Proof.Region2.lean ====
/-
  The update over the whole table. The table's 50000 rows are cut into ten tiles of 5000; the tile at step t is rows
  5000 t .. 5000 t + 4999, every tile is written once with the update of its own rows, and the ten tiles fill the
  table. So the table ends holding the update of the whole aggregate, row factors, bias and running table.
-/
import proofs.«172900_j70188355551845_2_alg».proof.Proof.Gen.KernelIdeal.Frame
import proofs.«172900_j70188355551845_2_alg».proof.Proof.Payloads
import proofs.«172900_j70188355551845_2_alg».proof.Proof.Spec
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The tile at step t: every table window is at row tile t and column tile 0; the bias window does not move. -/
theorem tile_at : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 1) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- The update of the whole table, from the four arrays as the step finds them. -/
abbrev whole (c : Dev nD) : Cert.Spec.Tab.Idx → EReal :=
  Cert.Spec.hopUpdate (V c main_v34) (V c main_v23) (V c main_arg10) (V c main_v0)

/-- Entry (p, q) of the aggregate's tile t is entry (5000 t + p, q) of the aggregate. -/
theorem agg_tile (c : Dev nD) (t : Fin cfg2.N) (p : Fin 5000) (q : Fin 128) (i : Cert.Spec.Tab.Idx)
    (h0 : (i 0).val = t.val * 5000 + p.val) (h1 : (i 1).val = q.val) :
    (iblk2 V c 0 t : Vec Ideal S5000x128 .f32) (ix2 p q) = (V c main_v34 : Cert.Spec.Tab.Idx → EReal) i := by
  obtain ⟨e0, e1, -⟩ := tile_at t
  unfold iblk2
  rw [View.read_apply]
  show V c main_v34 _ = V c main_v34 _
  congr 1
  funext a
  apply Fin.ext
  match a with
  | ⟨0, _⟩ => show win2_0.index t (0 : Fin 2) * 5000 + 1 * p.val = (i 0).val; rw [e0, h0]; omega
  | ⟨1, _⟩ => show win2_0.index t (1 : Fin 2) * 128 + 1 * q.val = (i 1).val; rw [e1, h1]; omega

/-- Entry (p, 0) of the row factors' tile t is the factor of row 5000 t + p. -/
theorem col_tile (c : Dev nD) (t : Fin cfg2.N) (p : Fin 5000) (i : Cert.Spec.Col.Idx)
    (h0 : (i 0).val = t.val * 5000 + p.val) :
    (iblk2 V c 1 t : Vec Ideal S5000x1 .f32) (ix2 p 0) = (V c main_v23 : Cert.Spec.Col.Idx → EReal) i := by
  obtain ⟨-, -, e0, e1, -⟩ := tile_at t
  unfold iblk2
  rw [View.read_apply]
  show V c main_v23 _ = V c main_v23 _
  congr 1
  funext a
  apply Fin.ext
  match a with
  | ⟨0, _⟩ => show win2_1.index t (0 : Fin 2) * 5000 + 1 * p.val = (i 0).val; rw [e0, h0]; omega
  | ⟨1, _⟩ => show win2_1.index t (1 : Fin 2) * 1 + 1 * 0 = (i 1).val; rw [e1]; have hi : (i 1).val < 1 := (i 1).isLt; omega

/-- The bias window is the whole bias at every step. -/
theorem bias_tile (c : Dev nD) (t : Fin cfg2.N) (q : Fin 128) :
    (iblk2 V c 2 t : Vec Ideal S128 .f32) (ix1 q) = (V c main_arg10 : Cert.Spec.Bias.Idx → EReal) (ix1 q) := by
  obtain ⟨-, -, -, -, e0, -⟩ := tile_at t
  unfold iblk2
  rw [View.read_apply]
  show V c main_arg10 _ = V c main_arg10 _
  congr 1
  funext a
  apply Fin.ext
  match a with
  | ⟨0, _⟩ => show win2_2.index t (0 : Fin 1) * 128 + 1 * q.val = q.val; rw [e0]; omega

/-- Entry (p, q) of the running table's tile t is entry (5000 t + p, q) of the running table. -/
theorem run_tile (c : Dev nD) (t : Fin cfg2.N) (p : Fin 5000) (q : Fin 128) (i : Cert.Spec.Tab.Idx)
    (h0 : (i 0).val = t.val * 5000 + p.val) (h1 : (i 1).val = q.val) :
    (iblk2 V c 3 t : Vec Ideal S5000x128 .f32) (ix2 p q) = (V c main_v0 : Cert.Spec.Tab.Idx → EReal) i := by
  obtain ⟨-, -, -, -, -, e0, e1, -⟩ := tile_at t
  unfold iblk2
  rw [View.read_apply]
  show V c main_v0 _ = V c main_v0 _
  congr 1
  funext a
  apply Fin.ext
  match a with
  | ⟨0, _⟩ => show win2_3.index t (0 : Fin 2) * 5000 + 1 * p.val = (i 0).val; rw [e0, h0]; omega
  | ⟨1, _⟩ => show win2_3.index t (1 : Fin 2) * 128 + 1 * q.val = (i 1).val; rw [e1, h1]; omega

/-- What step t stores at (p, q) is the update at row 5000 t + p, column q. -/
theorem stored (c : Dev nD) (t : Fin cfg2.N) (p : Fin 5000) (q : Fin 128) (i : Cert.Spec.Tab.Idx)
    (h0 : (i 0).val = t.val * 5000 + p.val) (h1 : (i 1).val = q.val) :
    k2_pay1 (F := Ideal) (iblk2 V c 0 t) (iblk2 V c 1 t) (iblk2 V c 2 t) (iblk2 V c 3 t) (ix2 p q) = whole V c i := by
  rw [Pay.update_pay, agg_tile V c t p q i h0 h1, run_tile V c t p q i h0 h1, col_tile V c t p (ix2 (i 0) 0) h0, bias_tile V c t q]
  have hq : q = i 1 := Fin.ext h1.symm
  subst hq
  rfl

/-- What step t writes back is tile t of the whole update. -/
theorem written_back (c : Dev nD) (t : Fin cfg2.N) :
    (dat2 (F := Ideal) V c).flushed 4 t = ((cfg2.win 4).blk t).view.read (Elt Ideal) (whole V c) := by
  show (cfg2.win 4).cut (grid2.coords t) ((dat2 V c).after 4 t) = _
  rw [after2_4]
  unfold out2_4
  rw [View.canon_unit_zero zero2]
  simp only [View.ld_unit_zero (S := S5000x128) zero2, View.ld_unit_zero (S := S5000x1) zero2, View.ld_unit_zero (S := S128) zero1]
  obtain ⟨-, -, -, -, -, -, -, e0, e1⟩ := tile_at t
  funext j
  rw [eq_ix2 j]
  refine (stored V c t (j 0) (j 1) (((cfg2.win 4).blk t).view.emb (ix2 (j 0) (j 1))) ?_ ?_).trans ?_
  · show win2_4.index t (0 : Fin 2) * 5000 + 1 * (j 0).val = _; rw [e0]; omega
  · show win2_4.index t (1 : Fin 2) * 128 + 1 * (j 1).val = _; rw [e1]; omega
  · rfl

/-- A table entry is in tile t when each coordinate is in the tile's range. -/
theorem mem_tile (t : Fin cfg2.N) (i : S50000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v35).slice (win2_4.rect t)).set ↔ _
  rw [View.set_slice_whole, Rect.mem_set_unit]
  exact Iff.rfl

/-- Row r is in tile r / 5000: the ten tiles fill the table. -/
theorem filled (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  have ht : t.val = (i 0).val / 5000 := rfl
  obtain ⟨-, -, -, -, -, -, -, e0, e1⟩ := tile_at t
  refine ⟨t, flush2_4 t, ?_⟩
  rw [mem_tile]
  intro a
  match a with
  | ⟨0, _⟩ => show win2_4.index t (0 : Fin 2) * 5000 ≤ (i 0).val ∧ (i 0).val < win2_4.index t (0 : Fin 2) * 5000 + 5000; rw [e0, ht]; omega
  | ⟨1, _⟩ => show win2_4.index t (1 : Fin 2) * 128 ≤ (i 1).val ∧ (i 1).val < win2_4.index t (1 : Fin 2) * 128 + 128; rw [e1]; omega

/-- After the ten steps the output table is the update of the whole table. -/
theorem value (c : Dev nD) :
    (dat2 (F := Ideal) V c).arrAt 4 cfg2.N
      = Cert.Spec.hopUpdate (V c main_v34) (V c main_v23) (V c main_arg10) (V c main_v0) :=
  (dat2 (F := Ideal) V c).arrAt_eq_of_cover 4 (whole V c) (fun t _ => written_back V c t) filled

end Cert.KernelIdeal.Region2

end
-- ==== Proof.Region3.lean ====
/-
  The second scaled projection, whole: the ten 5000-row tiles its kernel writes back make up the scaled projection of
  the full 50000-row table.
-/
import proofs.«172900_j70188355551845_2_alg».proof.Proof.Gen.KernelIdeal.Frame
import proofs.«172900_j70188355551845_2_alg».proof.Proof.Payloads
import proofs.«172900_j70188355551845_2_alg».proof.Proof.Spec
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen

variable (V : (c : Dev nD) → (b : Ref sig .tc) → Buf (Elt Ideal) ((c : Thread nD τ).loc b))

/-- A whole tile sits at offset zero on both axes. -/
theorem zero_off : (![0, 0] : Fin 2 → Nat) = fun _ => 0 := funext fun a => by fin_cases a <;> rfl

/-- There are ten tiles. -/
theorem ten : cfg3.N = 10 := N_3

/-- Tile t of the table, of the row factors and of the result starts at row block t and column block 0; the weight
    is one block. -/
theorem tile_index : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- The scaled projection of the whole table, from the arrays as the region finds them. -/
abbrev whole (c : Dev nD) : S50000x128.Idx → Elt Ideal .f32 :=
  Cert.Spec.denseScale (V c main_arg2) (V c main_arg11) (V c main_v58)

/-- Row p of tile t of the table is row 5000·t + p of the table. -/
theorem table_tile (c : Dev nD) (t : Fin cfg3.N) (p : Fin 5000) (k : Fin 128) (r : Fin 50000)
    (hr : r.val = t.val * 5000 + p.val) :
    (iblk3 (F := Ideal) V c 0 t : Vec Ideal S5000x128 .f32) (ix2 p k)
      = (V c main_arg2 : S50000x128.Idx → Elt Ideal .f32) (ix2 r k) := by
  obtain ⟨e0, e1, -⟩ := tile_index t
  show V c main_arg2 (((cfg3.win 0).blk t).view.emb (ix2 p k)) = V c main_arg2 (ix2 r k)
  refine congrArg _ ?_
  funext a; apply Fin.ext
  match a with
  | ⟨0, _⟩ => show win3_0.index t (0 : Fin 2) * 5000 + 1 * p.val = r.val; omega
  | ⟨1, _⟩ => show win3_0.index t (1 : Fin 2) * 128 + 1 * k.val = k.val; omega

/-- The weight's one tile is the weight. -/
theorem weight_tile (c : Dev nD) (t : Fin cfg3.N) (k : Fin 128) (q : Fin 128) :
    (iblk3 (F := Ideal) V c 1 t : Vec Ideal S128x128 .f32) (ix2 k q)
      = (V c main_arg11 : S128x128.Idx → Elt Ideal .f32) (ix2 k q) := by
  obtain ⟨-, -, e2, e3, -⟩ := tile_index t
  show V c main_arg11 (((cfg3.win 1).blk t).view.emb (ix2 k q)) = V c main_arg11 (ix2 k q)
  refine congrArg _ ?_
  funext a; apply Fin.ext
  match a with
  | ⟨0, _⟩ => show win3_1.index t (0 : Fin 2) * 128 + 1 * k.val = k.val; omega
  | ⟨1, _⟩ => show win3_1.index t (1 : Fin 2) * 128 + 1 * q.val = q.val; omega

/-- Entry p of tile t of the row factors is the factor of row 5000·t + p. -/
theorem factor_tile (c : Dev nD) (t : Fin cfg3.N) (p : Fin 5000) (r : Fin 50000)
    (hr : r.val = t.val * 5000 + p.val) :
    (iblk3 (F := Ideal) V c 2 t : Vec Ideal S5000x1 .f32) (ix2 p 0)
      = (V c main_v58 : S50000x1.Idx → Elt Ideal .f32) (ix2 r 0) := by
  obtain ⟨-, -, -, -, e4, e5, -⟩ := tile_index t
  show V c main_v58 (((cfg3.win 2).blk t).view.emb (ix2 p 0)) = V c main_v58 (ix2 r 0)
  refine congrArg _ ?_
  funext a; apply Fin.ext
  match a with
  | ⟨0, _⟩ => show win3_2.index t (0 : Fin 2) * 5000 + 1 * p.val = r.val; omega
  | ⟨1, _⟩ => show win3_2.index t (1 : Fin 2) * 1 + 1 * 0 = 0; omega

/-- A tile entry of the scaling kernel, once its three loads are read as rows of whole arrays, is the scaled
    projection of those arrays there. -/
theorem scaled_of_loads (x : Vec Ideal S5000x128 .f32) (w : Vec Ideal S128x128 .f32) (d : Vec Ideal S5000x1 .f32)
    (X : S50000x128.Idx → EReal) (W : S128x128.Idx → EReal) (D : S50000x1.Idx → EReal)
    (p : Fin 5000) (q : Fin 128) (r : Fin 50000)
    (hx : ∀ k : Fin 128, x (ix2 p k) = X (ix2 r k)) (hw : ∀ k : Fin 128, w (ix2 k q) = W (ix2 k q))
    (hd : d (ix2 p 0) = D (ix2 r 0)) :
    k1_pay1 (F := Ideal) x w d (ix2 p q) = Cert.Spec.denseScale X W D (ix2 r q) := by
  refine (Pay.scale_pay x w d p q).trans ?_
  show _ = (∑ k : Fin 128, X (ix2 r k) * W (ix2 k q)) * D (ix2 r 0)
  rw [hd]
  refine congrArg (· * D (ix2 r 0)) ?_
  exact Finset.sum_congr rfl fun k _ => by rw [hx k, hw k]

/-- What tile t stores at (p, q) is the scaled projection of the whole table at (5000·t + p, q). -/
theorem tile_entry (c : Dev nD) (t : Fin cfg3.N) (p : Fin 5000) (q : Fin 128) (r : Fin 50000)
    (hr : r.val = t.val * 5000 + p.val) :
    k3_pay1 (F := Ideal) (iblk3 V c 0 t) (iblk3 V c 1 t) (iblk3 V c 2 t) (ix2 p q)
      = whole V c (ix2 r q) := by
  rw [Pay.k3_eq]
  exact scaled_of_loads _ _ _ _ _ _ p q r (fun k => table_tile V c t p k r hr) (fun k => weight_tile V c t k q)
    (factor_tile V c t p r hr)

/-- The same at any entry j of the tile: it lands where the tile's rectangle puts j. -/
theorem tile_point (c : Dev nD) (t : Fin cfg3.N) (j : S5000x128.Idx) :
    k3_pay1 (F := Ideal) (iblk3 V c 0 t) (iblk3 V c 1 t) (iblk3 V c 2 t) j
      = whole V c (((cfg3.win 3).blk t).view.emb j) := by
  obtain ⟨-, -, -, -, -, -, e6, e7⟩ := tile_index t
  have ht : t.val < 10 := lt_of_lt_of_eq t.isLt ten
  have hj0 : (j 0).val < 5000 := idx2_lt0 j
  have hE : ((cfg3.win 3).blk t).view.emb j
      = ix2 (⟨t.val * 5000 + (j 0).val, by omega⟩ : Fin 50000) (j 1) := by
    funext a; apply Fin.ext
    match a with
    | ⟨0, _⟩ => show win3_3.index t (0 : Fin 2) * 5000 + 1 * (j 0).val = t.val * 5000 + (j 0).val; omega
    | ⟨1, _⟩ => show win3_3.index t (1 : Fin 2) * 128 + 1 * (j 1).val = (j 1).val; omega
  rw [hE]
  refine (congrArg (k3_pay1 (F := Ideal) (iblk3 V c 0 t) (iblk3 V c 1 t) (iblk3 V c 2 t)) (eq_ix2 j)).trans ?_
  exact tile_entry V c t (j 0) (j 1) _ rfl

/-- What point t writes back is tile t of the scaled projection of the whole table. -/
theorem flushed_eq (c : Dev nD) (t : Fin cfg3.N) :
    (dat3 (F := Ideal) V c).flushed 3 t = ((cfg3.win 3).blk t).view.read (Elt Ideal) (whole V c) := by
  show (cfg3.win 3).cut (grid3.coords t) ((dat3 (F := Ideal) V c).after 3 t) = _
  rw [after3_3]
  unfold out3_3
  rw [View.canon_unit_zero zero_off]
  simp only [View.ld_unit_zero (S := S5000x128) zero_off, View.ld_unit_zero (S := S128x128) zero_off,
    View.ld_unit_zero (S := S5000x1) zero_off]
  funext j
  exact tile_point V c t j

/-- A table entry is in tile t iff each coordinate is in the tile's range on its axis. -/
theorem mem_blk (t : Fin cfg3.N) (i : S50000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v59).slice (win3_3.rect t)).set ↔ _
  rw [View.set_slice_whole, Rect.mem_set_unit]
  exact Iff.rfl

/-- Row r lies in tile r / 5000, so the ten tiles cover the table. -/
theorem cover (i : S50000x128.Idx) :
    ∃ t : Fin cfg3.N, (cfg3.win 3).flush t = true ∧ i ∈ ((cfg3.win 3).blk t).view.set := by
  have hi0 : (i 0).val < 50000 := idx2_lt0 i
  have hi1 : (i 1).val < 128 := idx2_lt1 i
  obtain ⟨t, ht⟩ : ∃ t : Fin cfg3.N, t.val = (i 0).val / 5000 :=
    ⟨⟨(i 0).val / 5000, lt_of_lt_of_eq (by omega : (i 0).val / 5000 < 10) ten.symm⟩, rfl⟩
  obtain ⟨-, -, -, -, -, -, e6, e7⟩ := tile_index t
  refine ⟨t, flush3_3 t, ?_⟩
  rw [mem_blk]
  intro a
  match a with
  | ⟨0, _⟩ =>
    show win3_3.index t (0 : Fin 2) * 5000 ≤ (i 0).val ∧ (i 0).val < win3_3.index t (0 : Fin 2) * 5000 + 5000
    omega
  | ⟨1, _⟩ =>
    show win3_3.index t (1 : Fin 2) * 128 ≤ (i 1).val ∧ (i 1).val < win3_3.index t (1 : Fin 2) * 128 + 128
    omega

/-- After the region's ten write-backs the result array holds the scaled projection of the whole table. -/
theorem value (c : Dev nD) :
    (dat3 (F := Ideal) V c).arrAt 3 cfg3.N
      = Cert.Spec.denseScale (V c main_arg2) (V c main_arg11) (V c main_v58) :=
  (dat3 (F := Ideal) V c).arrAt_eq_of_cover 3 (whole V c) (fun t _ => flushed_eq V c t) (cover)

end Cert.KernelIdeal.Region3

end
-- ==== Proof.Region4.lean ====
/-
  The update over the whole table. The table's 50000 rows are cut into ten tiles of 5000; the tile at step t is rows
  5000 t .. 5000 t + 4999, every tile is written once with the update of its own rows, and the ten tiles fill the
  table. So the table ends holding the update of the whole aggregate, row factors, bias and running table.
-/
import proofs.«172900_j70188355551845_2_alg».proof.Proof.Gen.KernelIdeal.Frame
import proofs.«172900_j70188355551845_2_alg».proof.Proof.Payloads
import proofs.«172900_j70188355551845_2_alg».proof.Proof.Spec
import Idealize.ShloMosaic.Lib.Pipeline.Value

set_option maxRecDepth 16384

noncomputable section

namespace Cert.KernelIdeal.Region4

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The tile at step t: every table window is at row tile t and column tile 0; the bias window does not move. -/
theorem tile_at : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 1) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- The update of the whole table, from the four arrays as the step finds them. -/
abbrev whole (c : Dev nD) : Cert.Spec.Tab.Idx → EReal :=
  Cert.Spec.hopUpdate (V c main_v69) (V c main_v58) (V c main_arg12) (V c main_v35)

/-- Entry (p, q) of the aggregate's tile t is entry (5000 t + p, q) of the aggregate. -/
theorem agg_tile (c : Dev nD) (t : Fin cfg4.N) (p : Fin 5000) (q : Fin 128) (i : Cert.Spec.Tab.Idx)
    (h0 : (i 0).val = t.val * 5000 + p.val) (h1 : (i 1).val = q.val) :
    (iblk4 V c 0 t : Vec Ideal S5000x128 .f32) (ix2 p q) = (V c main_v69 : Cert.Spec.Tab.Idx → EReal) i := by
  obtain ⟨e0, e1, -⟩ := tile_at t
  unfold iblk4
  rw [View.read_apply]
  show V c main_v69 _ = V c main_v69 _
  congr 1
  funext a
  apply Fin.ext
  match a with
  | ⟨0, _⟩ => show win4_0.index t (0 : Fin 2) * 5000 + 1 * p.val = (i 0).val; rw [e0, h0]; omega
  | ⟨1, _⟩ => show win4_0.index t (1 : Fin 2) * 128 + 1 * q.val = (i 1).val; rw [e1, h1]; omega

/-- Entry (p, 0) of the row factors' tile t is the factor of row 5000 t + p. -/
theorem col_tile (c : Dev nD) (t : Fin cfg4.N) (p : Fin 5000) (i : Cert.Spec.Col.Idx)
    (h0 : (i 0).val = t.val * 5000 + p.val) :
    (iblk4 V c 1 t : Vec Ideal S5000x1 .f32) (ix2 p 0) = (V c main_v58 : Cert.Spec.Col.Idx → EReal) i := by
  obtain ⟨-, -, e0, e1, -⟩ := tile_at t
  unfold iblk4
  rw [View.read_apply]
  show V c main_v58 _ = V c main_v58 _
  congr 1
  funext a
  apply Fin.ext
  match a with
  | ⟨0, _⟩ => show win4_1.index t (0 : Fin 2) * 5000 + 1 * p.val = (i 0).val; rw [e0, h0]; omega
  | ⟨1, _⟩ => show win4_1.index t (1 : Fin 2) * 1 + 1 * 0 = (i 1).val; rw [e1]; have hi : (i 1).val < 1 := (i 1).isLt; omega

/-- The bias window is the whole bias at every step. -/
theorem bias_tile (c : Dev nD) (t : Fin cfg4.N) (q : Fin 128) :
    (iblk4 V c 2 t : Vec Ideal S128 .f32) (ix1 q) = (V c main_arg12 : Cert.Spec.Bias.Idx → EReal) (ix1 q) := by
  obtain ⟨-, -, -, -, e0, -⟩ := tile_at t
  unfold iblk4
  rw [View.read_apply]
  show V c main_arg12 _ = V c main_arg12 _
  congr 1
  funext a
  apply Fin.ext
  match a with
  | ⟨0, _⟩ => show win4_2.index t (0 : Fin 1) * 128 + 1 * q.val = q.val; rw [e0]; omega

/-- Entry (p, q) of the running table's tile t is entry (5000 t + p, q) of the running table. -/
theorem run_tile (c : Dev nD) (t : Fin cfg4.N) (p : Fin 5000) (q : Fin 128) (i : Cert.Spec.Tab.Idx)
    (h0 : (i 0).val = t.val * 5000 + p.val) (h1 : (i 1).val = q.val) :
    (iblk4 V c 3 t : Vec Ideal S5000x128 .f32) (ix2 p q) = (V c main_v35 : Cert.Spec.Tab.Idx → EReal) i := by
  obtain ⟨-, -, -, -, -, e0, e1, -⟩ := tile_at t
  unfold iblk4
  rw [View.read_apply]
  show V c main_v35 _ = V c main_v35 _
  congr 1
  funext a
  apply Fin.ext
  match a with
  | ⟨0, _⟩ => show win4_3.index t (0 : Fin 2) * 5000 + 1 * p.val = (i 0).val; rw [e0, h0]; omega
  | ⟨1, _⟩ => show win4_3.index t (1 : Fin 2) * 128 + 1 * q.val = (i 1).val; rw [e1, h1]; omega

/-- What step t stores at (p, q) is the update at row 5000 t + p, column q. -/
theorem stored (c : Dev nD) (t : Fin cfg4.N) (p : Fin 5000) (q : Fin 128) (i : Cert.Spec.Tab.Idx)
    (h0 : (i 0).val = t.val * 5000 + p.val) (h1 : (i 1).val = q.val) :
    k4_pay1 (F := Ideal) (iblk4 V c 0 t) (iblk4 V c 1 t) (iblk4 V c 2 t) (iblk4 V c 3 t) (ix2 p q) = whole V c i := by
  rw [Pay.k4_eq]
  rw [Pay.update_pay, agg_tile V c t p q i h0 h1, run_tile V c t p q i h0 h1, col_tile V c t p (ix2 (i 0) 0) h0, bias_tile V c t q]
  have hq : q = i 1 := Fin.ext h1.symm
  subst hq
  rfl

/-- What step t writes back is tile t of the whole update. -/
theorem written_back (c : Dev nD) (t : Fin cfg4.N) :
    (dat4 (F := Ideal) V c).flushed 4 t = ((cfg4.win 4).blk t).view.read (Elt Ideal) (whole V c) := by
  show (cfg4.win 4).cut (grid4.coords t) ((dat4 V c).after 4 t) = _
  rw [after4_4]
  unfold out4_4
  rw [View.canon_unit_zero zero2]
  simp only [View.ld_unit_zero (S := S5000x128) zero2, View.ld_unit_zero (S := S5000x1) zero2, View.ld_unit_zero (S := S128) zero1]
  obtain ⟨-, -, -, -, -, -, -, e0, e1⟩ := tile_at t
  funext j
  rw [eq_ix2 j]
  refine (stored V c t (j 0) (j 1) (((cfg4.win 4).blk t).view.emb (ix2 (j 0) (j 1))) ?_ ?_).trans ?_
  · show win4_4.index t (0 : Fin 2) * 5000 + 1 * (j 0).val = _; rw [e0]; omega
  · show win4_4.index t (1 : Fin 2) * 128 + 1 * (j 1).val = _; rw [e1]; omega
  · rfl

/-- A table entry is in tile t when each coordinate is in the tile's range. -/
theorem mem_tile (t : Fin cfg4.N) (i : S50000x128.Idx) :
    i ∈ ((cfg4.win 4).blk t).view.set ↔ ∀ a : Fin 2, win4_4.index t a * S5000x128.size a ≤ (i a).val ∧ (i a).val < win4_4.index t a * S5000x128.size a + S5000x128.size a := by
  show i ∈ ((View.whole main_v70).slice (win4_4.rect t)).set ↔ _
  rw [View.set_slice_whole, Rect.mem_set_unit]
  exact Iff.rfl

/-- Row r is in tile r / 5000: the ten tiles fill the table. -/
theorem filled (i : S50000x128.Idx) :
    ∃ t : Fin cfg4.N, (cfg4.win 4).flush t = true ∧ i ∈ ((cfg4.win 4).blk t).view.set := by
  have hi0 : (i 0).val < 50000 := (i 0).isLt
  have hi1 : (i 1).val < 128 := (i 1).isLt
  have hN : cfg4.N = 10 := N_4
  let t : Fin cfg4.N := ⟨(i 0).val / 5000, by rw [hN]; omega⟩
  have ht : t.val = (i 0).val / 5000 := rfl
  obtain ⟨-, -, -, -, -, -, -, e0, e1⟩ := tile_at t
  refine ⟨t, flush4_4 t, ?_⟩
  rw [mem_tile]
  intro a
  match a with
  | ⟨0, _⟩ => show win4_4.index t (0 : Fin 2) * 5000 ≤ (i 0).val ∧ (i 0).val < win4_4.index t (0 : Fin 2) * 5000 + 5000; rw [e0, ht]; omega
  | ⟨1, _⟩ => show win4_4.index t (1 : Fin 2) * 128 ≤ (i 1).val ∧ (i 1).val < win4_4.index t (1 : Fin 2) * 128 + 128; rw [e1]; omega

/-- After the ten steps the output table is the update of the whole table. -/
theorem value (c : Dev nD) :
    (dat4 (F := Ideal) V c).arrAt 4 cfg4.N
      = Cert.Spec.hopUpdate (V c main_v69) (V c main_v58) (V c main_arg12) (V c main_v35) :=
  (dat4 (F := Ideal) V c).arrAt_eq_of_cover 4 (whole V c) (fun t _ => written_back V c t) filled

end Cert.KernelIdeal.Region4

end
-- ==== Proof.Region5.lean ====
/-
  The third scaled projection, whole: the ten 5000-row tiles its kernel writes back make up the scaled projection of
  the full 50000-row table.
-/
import proofs.«172900_j70188355551845_2_alg».proof.Proof.Gen.KernelIdeal.Frame
import proofs.«172900_j70188355551845_2_alg».proof.Proof.Payloads
import proofs.«172900_j70188355551845_2_alg».proof.Proof.Spec
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region5

open Cert.KernelIdeal Cert.KernelIdeal.Gen

variable (V : (c : Dev nD) → (b : Ref sig .tc) → Buf (Elt Ideal) ((c : Thread nD τ).loc b))

/-- A whole tile sits at offset zero on both axes. -/
theorem zero_off : (![0, 0] : Fin 2 → Nat) = fun _ => 0 := funext fun a => by fin_cases a <;> rfl

/-- There are ten tiles. -/
theorem ten : cfg5.N = 10 := N_5

/-- Tile t of the table, of the row factors and of the result starts at row block t and column block 0; the weight
    is one block. -/
theorem tile_index : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0 :=
  (by decide +kernel : ∀ t : Fin grid5.N, _)

/-- The scaled projection of the whole table, from the arrays as the region finds them. -/
abbrev whole (c : Dev nD) : S50000x128.Idx → Elt Ideal .f32 :=
  Cert.Spec.denseScale (V c main_arg3) (V c main_arg13) (V c main_v93)

/-- Row p of tile t of the table is row 5000·t + p of the table. -/
theorem table_tile (c : Dev nD) (t : Fin cfg5.N) (p : Fin 5000) (k : Fin 128) (r : Fin 50000)
    (hr : r.val = t.val * 5000 + p.val) :
    (iblk5 (F := Ideal) V c 0 t : Vec Ideal S5000x128 .f32) (ix2 p k)
      = (V c main_arg3 : S50000x128.Idx → Elt Ideal .f32) (ix2 r k) := by
  obtain ⟨e0, e1, -⟩ := tile_index t
  show V c main_arg3 (((cfg5.win 0).blk t).view.emb (ix2 p k)) = V c main_arg3 (ix2 r k)
  refine congrArg _ ?_
  funext a; apply Fin.ext
  match a with
  | ⟨0, _⟩ => show win5_0.index t (0 : Fin 2) * 5000 + 1 * p.val = r.val; omega
  | ⟨1, _⟩ => show win5_0.index t (1 : Fin 2) * 128 + 1 * k.val = k.val; omega

/-- The weight's one tile is the weight. -/
theorem weight_tile (c : Dev nD) (t : Fin cfg5.N) (k : Fin 128) (q : Fin 128) :
    (iblk5 (F := Ideal) V c 1 t : Vec Ideal S128x128 .f32) (ix2 k q)
      = (V c main_arg13 : S128x128.Idx → Elt Ideal .f32) (ix2 k q) := by
  obtain ⟨-, -, e2, e3, -⟩ := tile_index t
  show V c main_arg13 (((cfg5.win 1).blk t).view.emb (ix2 k q)) = V c main_arg13 (ix2 k q)
  refine congrArg _ ?_
  funext a; apply Fin.ext
  match a with
  | ⟨0, _⟩ => show win5_1.index t (0 : Fin 2) * 128 + 1 * k.val = k.val; omega
  | ⟨1, _⟩ => show win5_1.index t (1 : Fin 2) * 128 + 1 * q.val = q.val; omega

/-- Entry p of tile t of the row factors is the factor of row 5000·t + p. -/
theorem factor_tile (c : Dev nD) (t : Fin cfg5.N) (p : Fin 5000) (r : Fin 50000)
    (hr : r.val = t.val * 5000 + p.val) :
    (iblk5 (F := Ideal) V c 2 t : Vec Ideal S5000x1 .f32) (ix2 p 0)
      = (V c main_v93 : S50000x1.Idx → Elt Ideal .f32) (ix2 r 0) := by
  obtain ⟨-, -, -, -, e4, e5, -⟩ := tile_index t
  show V c main_v93 (((cfg5.win 2).blk t).view.emb (ix2 p 0)) = V c main_v93 (ix2 r 0)
  refine congrArg _ ?_
  funext a; apply Fin.ext
  match a with
  | ⟨0, _⟩ => show win5_2.index t (0 : Fin 2) * 5000 + 1 * p.val = r.val; omega
  | ⟨1, _⟩ => show win5_2.index t (1 : Fin 2) * 1 + 1 * 0 = 0; omega

/-- A tile entry of the scaling kernel, once its three loads are read as rows of whole arrays, is the scaled
    projection of those arrays there. -/
theorem scaled_of_loads (x : Vec Ideal S5000x128 .f32) (w : Vec Ideal S128x128 .f32) (d : Vec Ideal S5000x1 .f32)
    (X : S50000x128.Idx → EReal) (W : S128x128.Idx → EReal) (D : S50000x1.Idx → EReal)
    (p : Fin 5000) (q : Fin 128) (r : Fin 50000)
    (hx : ∀ k : Fin 128, x (ix2 p k) = X (ix2 r k)) (hw : ∀ k : Fin 128, w (ix2 k q) = W (ix2 k q))
    (hd : d (ix2 p 0) = D (ix2 r 0)) :
    k1_pay1 (F := Ideal) x w d (ix2 p q) = Cert.Spec.denseScale X W D (ix2 r q) := by
  refine (Pay.scale_pay x w d p q).trans ?_
  show _ = (∑ k : Fin 128, X (ix2 r k) * W (ix2 k q)) * D (ix2 r 0)
  rw [hd]
  refine congrArg (· * D (ix2 r 0)) ?_
  exact Finset.sum_congr rfl fun k _ => by rw [hx k, hw k]

/-- What tile t stores at (p, q) is the scaled projection of the whole table at (5000·t + p, q). -/
theorem tile_entry (c : Dev nD) (t : Fin cfg5.N) (p : Fin 5000) (q : Fin 128) (r : Fin 50000)
    (hr : r.val = t.val * 5000 + p.val) :
    k5_pay1 (F := Ideal) (iblk5 V c 0 t) (iblk5 V c 1 t) (iblk5 V c 2 t) (ix2 p q)
      = whole V c (ix2 r q) := by
  rw [Pay.k5_eq]
  exact scaled_of_loads _ _ _ _ _ _ p q r (fun k => table_tile V c t p k r hr) (fun k => weight_tile V c t k q)
    (factor_tile V c t p r hr)

/-- The same at any entry j of the tile: it lands where the tile's rectangle puts j. -/
theorem tile_point (c : Dev nD) (t : Fin cfg5.N) (j : S5000x128.Idx) :
    k5_pay1 (F := Ideal) (iblk5 V c 0 t) (iblk5 V c 1 t) (iblk5 V c 2 t) j
      = whole V c (((cfg5.win 3).blk t).view.emb j) := by
  obtain ⟨-, -, -, -, -, -, e6, e7⟩ := tile_index t
  have ht : t.val < 10 := lt_of_lt_of_eq t.isLt ten
  have hj0 : (j 0).val < 5000 := idx2_lt0 j
  have hE : ((cfg5.win 3).blk t).view.emb j
      = ix2 (⟨t.val * 5000 + (j 0).val, by omega⟩ : Fin 50000) (j 1) := by
    funext a; apply Fin.ext
    match a with
    | ⟨0, _⟩ => show win5_3.index t (0 : Fin 2) * 5000 + 1 * (j 0).val = t.val * 5000 + (j 0).val; omega
    | ⟨1, _⟩ => show win5_3.index t (1 : Fin 2) * 128 + 1 * (j 1).val = (j 1).val; omega
  rw [hE]
  refine (congrArg (k5_pay1 (F := Ideal) (iblk5 V c 0 t) (iblk5 V c 1 t) (iblk5 V c 2 t)) (eq_ix2 j)).trans ?_
  exact tile_entry V c t (j 0) (j 1) _ rfl

/-- What point t writes back is tile t of the scaled projection of the whole table. -/
theorem flushed_eq (c : Dev nD) (t : Fin cfg5.N) :
    (dat5 (F := Ideal) V c).flushed 3 t = ((cfg5.win 3).blk t).view.read (Elt Ideal) (whole V c) := by
  show (cfg5.win 3).cut (grid5.coords t) ((dat5 (F := Ideal) V c).after 3 t) = _
  rw [after5_3]
  unfold out5_3
  rw [View.canon_unit_zero zero_off]
  simp only [View.ld_unit_zero (S := S5000x128) zero_off, View.ld_unit_zero (S := S128x128) zero_off,
    View.ld_unit_zero (S := S5000x1) zero_off]
  funext j
  exact tile_point V c t j

/-- A table entry is in tile t iff each coordinate is in the tile's range on its axis. -/
theorem mem_blk (t : Fin cfg5.N) (i : S50000x128.Idx) :
    i ∈ ((cfg5.win 3).blk t).view.set ↔ ∀ a : Fin 2, win5_3.index t a * S5000x128.size a ≤ (i a).val
      ∧ (i a).val < win5_3.index t a * S5000x128.size a + S5000x128.size a := by
  show i ∈ ((View.whole main_v94).slice (win5_3.rect t)).set ↔ _
  rw [View.set_slice_whole, Rect.mem_set_unit]
  exact Iff.rfl

/-- Row r lies in tile r / 5000, so the ten tiles cover the table. -/
theorem cover (i : S50000x128.Idx) :
    ∃ t : Fin cfg5.N, (cfg5.win 3).flush t = true ∧ i ∈ ((cfg5.win 3).blk t).view.set := by
  have hi0 : (i 0).val < 50000 := idx2_lt0 i
  have hi1 : (i 1).val < 128 := idx2_lt1 i
  obtain ⟨t, ht⟩ : ∃ t : Fin cfg5.N, t.val = (i 0).val / 5000 :=
    ⟨⟨(i 0).val / 5000, lt_of_lt_of_eq (by omega : (i 0).val / 5000 < 10) ten.symm⟩, rfl⟩
  obtain ⟨-, -, -, -, -, -, e6, e7⟩ := tile_index t
  refine ⟨t, flush5_3 t, ?_⟩
  rw [mem_blk]
  intro a
  match a with
  | ⟨0, _⟩ =>
    show win5_3.index t (0 : Fin 2) * 5000 ≤ (i 0).val ∧ (i 0).val < win5_3.index t (0 : Fin 2) * 5000 + 5000
    omega
  | ⟨1, _⟩ =>
    show win5_3.index t (1 : Fin 2) * 128 ≤ (i 1).val ∧ (i 1).val < win5_3.index t (1 : Fin 2) * 128 + 128
    omega

/-- After the region's ten write-backs the result array holds the scaled projection of the whole table. -/
theorem value (c : Dev nD) :
    (dat5 (F := Ideal) V c).arrAt 3 cfg5.N
      = Cert.Spec.denseScale (V c main_arg3) (V c main_arg13) (V c main_v93) :=
  (dat5 (F := Ideal) V c).arrAt_eq_of_cover 3 (whole V c) (fun t _ => flushed_eq V c t) (cover)

end Cert.KernelIdeal.Region5

end
-- ==== Proof.Region6.lean ====
/-
  The update over the whole table. The table's 50000 rows are cut into ten tiles of 5000; the tile at step t is rows
  5000 t .. 5000 t + 4999, every tile is written once with the update of its own rows, and the ten tiles fill the
  table. So the table ends holding the update of the whole aggregate, row factors, bias and running table.
-/
import proofs.«172900_j70188355551845_2_alg».proof.Proof.Gen.KernelIdeal.Frame
import proofs.«172900_j70188355551845_2_alg».proof.Proof.Payloads
import proofs.«172900_j70188355551845_2_alg».proof.Proof.Spec
import Idealize.ShloMosaic.Lib.Pipeline.Value

set_option maxRecDepth 16384

noncomputable section

namespace Cert.KernelIdeal.Region6

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The tile at step t: every table window is at row tile t and column tile 0; the bias window does not move. -/
theorem tile_at : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 1) = 0
    ∧ win6_3.index t (0 : Fin 2) = t.val ∧ win6_3.index t (1 : Fin 2) = 0
    ∧ win6_4.index t (0 : Fin 2) = t.val ∧ win6_4.index t (1 : Fin 2) = 0 :=
  (by decide +kernel : ∀ t : Fin grid6.N, _)

/-- The update of the whole table, from the four arrays as the step finds them. -/
abbrev whole (c : Dev nD) : Cert.Spec.Tab.Idx → EReal :=
  Cert.Spec.hopUpdate (V c main_v104) (V c main_v93) (V c main_arg14) (V c main_v70)

/-- Entry (p, q) of the aggregate's tile t is entry (5000 t + p, q) of the aggregate. -/
theorem agg_tile (c : Dev nD) (t : Fin cfg6.N) (p : Fin 5000) (q : Fin 128) (i : Cert.Spec.Tab.Idx)
    (h0 : (i 0).val = t.val * 5000 + p.val) (h1 : (i 1).val = q.val) :
    (iblk6 V c 0 t : Vec Ideal S5000x128 .f32) (ix2 p q) = (V c main_v104 : Cert.Spec.Tab.Idx → EReal) i := by
  obtain ⟨e0, e1, -⟩ := tile_at t
  unfold iblk6
  rw [View.read_apply]
  show V c main_v104 _ = V c main_v104 _
  congr 1
  funext a
  apply Fin.ext
  match a with
  | ⟨0, _⟩ => show win6_0.index t (0 : Fin 2) * 5000 + 1 * p.val = (i 0).val; rw [e0, h0]; omega
  | ⟨1, _⟩ => show win6_0.index t (1 : Fin 2) * 128 + 1 * q.val = (i 1).val; rw [e1, h1]; omega

/-- Entry (p, 0) of the row factors' tile t is the factor of row 5000 t + p. -/
theorem col_tile (c : Dev nD) (t : Fin cfg6.N) (p : Fin 5000) (i : Cert.Spec.Col.Idx)
    (h0 : (i 0).val = t.val * 5000 + p.val) :
    (iblk6 V c 1 t : Vec Ideal S5000x1 .f32) (ix2 p 0) = (V c main_v93 : Cert.Spec.Col.Idx → EReal) i := by
  obtain ⟨-, -, e0, e1, -⟩ := tile_at t
  unfold iblk6
  rw [View.read_apply]
  show V c main_v93 _ = V c main_v93 _
  congr 1
  funext a
  apply Fin.ext
  match a with
  | ⟨0, _⟩ => show win6_1.index t (0 : Fin 2) * 5000 + 1 * p.val = (i 0).val; rw [e0, h0]; omega
  | ⟨1, _⟩ => show win6_1.index t (1 : Fin 2) * 1 + 1 * 0 = (i 1).val; rw [e1]; have hi : (i 1).val < 1 := (i 1).isLt; omega

/-- The bias window is the whole bias at every step. -/
theorem bias_tile (c : Dev nD) (t : Fin cfg6.N) (q : Fin 128) :
    (iblk6 V c 2 t : Vec Ideal S128 .f32) (ix1 q) = (V c main_arg14 : Cert.Spec.Bias.Idx → EReal) (ix1 q) := by
  obtain ⟨-, -, -, -, e0, -⟩ := tile_at t
  unfold iblk6
  rw [View.read_apply]
  show V c main_arg14 _ = V c main_arg14 _
  congr 1
  funext a
  apply Fin.ext
  match a with
  | ⟨0, _⟩ => show win6_2.index t (0 : Fin 1) * 128 + 1 * q.val = q.val; rw [e0]; omega

/-- Entry (p, q) of the running table's tile t is entry (5000 t + p, q) of the running table. -/
theorem run_tile (c : Dev nD) (t : Fin cfg6.N) (p : Fin 5000) (q : Fin 128) (i : Cert.Spec.Tab.Idx)
    (h0 : (i 0).val = t.val * 5000 + p.val) (h1 : (i 1).val = q.val) :
    (iblk6 V c 3 t : Vec Ideal S5000x128 .f32) (ix2 p q) = (V c main_v70 : Cert.Spec.Tab.Idx → EReal) i := by
  obtain ⟨-, -, -, -, -, e0, e1, -⟩ := tile_at t
  unfold iblk6
  rw [View.read_apply]
  show V c main_v70 _ = V c main_v70 _
  congr 1
  funext a
  apply Fin.ext
  match a with
  | ⟨0, _⟩ => show win6_3.index t (0 : Fin 2) * 5000 + 1 * p.val = (i 0).val; rw [e0, h0]; omega
  | ⟨1, _⟩ => show win6_3.index t (1 : Fin 2) * 128 + 1 * q.val = (i 1).val; rw [e1, h1]; omega

/-- What step t stores at (p, q) is the update at row 5000 t + p, column q. -/
theorem stored (c : Dev nD) (t : Fin cfg6.N) (p : Fin 5000) (q : Fin 128) (i : Cert.Spec.Tab.Idx)
    (h0 : (i 0).val = t.val * 5000 + p.val) (h1 : (i 1).val = q.val) :
    k6_pay1 (F := Ideal) (iblk6 V c 0 t) (iblk6 V c 1 t) (iblk6 V c 2 t) (iblk6 V c 3 t) (ix2 p q) = whole V c i := by
  rw [Pay.k6_eq]
  rw [Pay.update_pay, agg_tile V c t p q i h0 h1, run_tile V c t p q i h0 h1, col_tile V c t p (ix2 (i 0) 0) h0, bias_tile V c t q]
  have hq : q = i 1 := Fin.ext h1.symm
  subst hq
  rfl

/-- What step t writes back is tile t of the whole update. -/
theorem written_back (c : Dev nD) (t : Fin cfg6.N) :
    (dat6 (F := Ideal) V c).flushed 4 t = ((cfg6.win 4).blk t).view.read (Elt Ideal) (whole V c) := by
  show (cfg6.win 4).cut (grid6.coords t) ((dat6 V c).after 4 t) = _
  rw [after6_4]
  unfold out6_4
  rw [View.canon_unit_zero zero2]
  simp only [View.ld_unit_zero (S := S5000x128) zero2, View.ld_unit_zero (S := S5000x1) zero2, View.ld_unit_zero (S := S128) zero1]
  obtain ⟨-, -, -, -, -, -, -, e0, e1⟩ := tile_at t
  funext j
  rw [eq_ix2 j]
  refine (stored V c t (j 0) (j 1) (((cfg6.win 4).blk t).view.emb (ix2 (j 0) (j 1))) ?_ ?_).trans ?_
  · show win6_4.index t (0 : Fin 2) * 5000 + 1 * (j 0).val = _; rw [e0]; omega
  · show win6_4.index t (1 : Fin 2) * 128 + 1 * (j 1).val = _; rw [e1]; omega
  · rfl

/-- A table entry is in tile t when each coordinate is in the tile's range. -/
theorem mem_tile (t : Fin cfg6.N) (i : S50000x128.Idx) :
    i ∈ ((cfg6.win 4).blk t).view.set ↔ ∀ a : Fin 2, win6_4.index t a * S5000x128.size a ≤ (i a).val ∧ (i a).val < win6_4.index t a * S5000x128.size a + S5000x128.size a := by
  show i ∈ ((View.whole main_v105).slice (win6_4.rect t)).set ↔ _
  rw [View.set_slice_whole, Rect.mem_set_unit]
  exact Iff.rfl

/-- Row r is in tile r / 5000: the ten tiles fill the table. -/
theorem filled (i : S50000x128.Idx) :
    ∃ t : Fin cfg6.N, (cfg6.win 4).flush t = true ∧ i ∈ ((cfg6.win 4).blk t).view.set := by
  have hi0 : (i 0).val < 50000 := (i 0).isLt
  have hi1 : (i 1).val < 128 := (i 1).isLt
  have hN : cfg6.N = 10 := N_6
  let t : Fin cfg6.N := ⟨(i 0).val / 5000, by rw [hN]; omega⟩
  have ht : t.val = (i 0).val / 5000 := rfl
  obtain ⟨-, -, -, -, -, -, -, e0, e1⟩ := tile_at t
  refine ⟨t, flush6_4 t, ?_⟩
  rw [mem_tile]
  intro a
  match a with
  | ⟨0, _⟩ => show win6_4.index t (0 : Fin 2) * 5000 ≤ (i 0).val ∧ (i 0).val < win6_4.index t (0 : Fin 2) * 5000 + 5000; rw [e0, ht]; omega
  | ⟨1, _⟩ => show win6_4.index t (1 : Fin 2) * 128 ≤ (i 1).val ∧ (i 1).val < win6_4.index t (1 : Fin 2) * 128 + 128; rw [e1]; omega

/-- After the ten steps the output table is the update of the whole table. -/
theorem value (c : Dev nD) :
    (dat6 (F := Ideal) V c).arrAt 4 cfg6.N
      = Cert.Spec.hopUpdate (V c main_v104) (V c main_v93) (V c main_arg14) (V c main_v70) :=
  (dat6 (F := Ideal) V c).arrAt_eq_of_cover 4 (whole V c) (fun t _ => written_back V c t) filled

end Cert.KernelIdeal.Region6

end
-- ==== Proof.LibRegionOp.lean ====
/-
  A pipelined region as one pure operation on the buffer contents.

  When a region ends, its windows' arrays hold what the pipeline leaves and every other buffer what it held at entry.
  If exactly one window is written — the others end as they were entered — and the written array ends at a value that
  a host-style operation would put there, then the contents at the region's exit are that operation's result on the
  contents at entry.  This lets a program of several regions among host operations be read as ONE list of operations.
-/
import Idealize.ShloMosaic.Lib.Pipeline.FrameSuffix
import Idealize.ShloMosaic.Lib.StableHlo.Run

noncomputable section

namespace Cert.LibRegionOp

open Idealize.ShloMosaic Idealize.ShloMosaic.StableHlo Idealize.ShloMosaic.Pipeline

variable {nD : Nat} {τ : Topo} {sig : RefSig} {Val : EltTy → Type}

/-- The exit contents of a region whose only changed array is window `wo`'s are the result of an operation that
    writes exactly that array with the same value. -/
theorem withArrays_eq_result {gr : Nat} {W : Nat} (win : Fin W → WinSpec sig gr)
    (hinj : Function.Injective (arrRef win)) (c : Dev nD) (V : Valuation τ sig Val)
    (A : (w : Fin W) → Buf Val ((win w).arr.view.loc (c.tc : Thread nD τ))) (op : HloOp τ sig Val) (wo : Fin W)
    (hw : op.writes = {Proc.devRef .tc (arrRef win wo)})
    (hout : A wo = op.result V (Proc.devRef .tc (arrRef win wo)))
    (hin : ∀ w, w ≠ wo → A w = V (Proc.devRef .tc (arrRef win w))) :
    withArrays win c V A = op.result V := by
  funext b
  by_cases h : ∃ w, Proc.devRef (τ := τ) .tc (arrRef win w) = b
  · obtain ⟨w, rfl⟩ := h
    rw [withArrays_arr win hinj]
    by_cases hwo : w = wo
    · subst hwo
      exact hout
    · rw [hin w hwo]
      refine (op.result_of_not_mem V ?_).symm
      rw [hw, Finset.mem_singleton]
      exact fun e => hwo (hinj (Proc.devRef_injective _ e))
  · have hV : withArrays win c V A b = V b := by
      unfold withArrays
      rw [dif_neg h]
    rw [hV]
    refine (op.result_of_not_mem V ?_).symm
    rw [hw, Finset.mem_singleton]
    exact fun e => h ⟨wo, e.symm⟩

end Cert.LibRegionOp

end
-- ==== Proof.KDefs.lean ====
/-
  The idealized kernel program's result in named pieces.

  Per hop: the degrees are counted in integers and then read as reals; every row of the hop's projection is scaled
  by the inverse square root of its own node's degree inside the projection kernel; the scaled rows are gathered by
  source and summed by destination; and the update kernel scales each summed row by the inverse square root of the
  destination's degree, adds the bias, takes the positive part and adds it to the running table.
-/
import proofs.«172900_j70188355551845_2_alg».proof.Proof.Gen.KernelIdeal
import proofs.«172900_j70188355551845_2_alg».proof.Proof.Spec

set_option maxRecDepth 16384

noncomputable section

namespace Cert.KernelIdeal.KT

open Cert.KernelIdeal Cert.KernelIdeal.Gen Idealize.ShloMosaic Idealize.ShloMosaic.TcCoe Idealize.SL.Sem Idealize.ShloMosaic.StableHlo

variable {F : FTy → Type} [FloatOps F]

/-- The source words: row 0 of the edge table followed by 0, 1, …, 49999. -/
def srcWords (ei : (⟨S2x800000, .i32⟩ : BufTy).Contents (Elt F)) : (⟨S850000, .i32⟩ : BufTy).Contents (Elt F) :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

/-- The destination words: row 1 of the edge table followed by 0, 1, …, 49999. -/
def dstWords (ei : (⟨S2x800000, .i32⟩ : BufTy).Contents (Elt F)) : (⟨S850000, .i32⟩ : BufTy).Contents (Elt F) :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- A word list as a column of index words, a negative word first moved up by 50000. -/
def norm (v : (⟨S850000, .i32⟩ : BufTy).Contents (Elt F)) : (⟨S850000x1, .i32⟩ : BufTy).Contents (Elt F) :=
  broadcastInDim S850000x1 ![0] bcast_S850000_S850000x1_0 (select (cmpi .slt v (broadcastInDim S850000 ![] bcast_S_S850000 (constantI S_ 32 0#32))) (addi v (broadcastInDim S850000 ![] bcast_S_S850000 (constantI S_ 32 50000#32))) v)

/-- A word list as a column of index words, as it is. -/
def raw (v : (⟨S850000, .i32⟩ : BufTy).Contents (Elt F)) : (⟨S850000x1, .i32⟩ : BufTy).Contents (Elt F) :=
  broadcastInDim S850000x1 ![0] bcast_S850000_S850000x1_0 v

/-- The degrees counted in 32-bit integers — the word 1 added per listed word into zeros — and read as reals. -/
def degI (nd : (⟨S850000x1, .i32⟩ : BufTy).Contents (Elt F)) : (⟨S50000, .f32⟩ : BufTy).Contents (Elt F) :=
  sitofp .f32 (Host.scatter scatter_S50000_S850000x1_S850000_n_0_0_1 IntOp.addi (broadcastInDim S50000 ![] bcast_S_S50000 (constantI S_ 32 0#32)) nd (broadcastInDim S850000 ![] bcast_S_S850000 (constantI S_ 32 1#32)))

/-- The inverse square root of a positive degree, and zero otherwise. -/
def dinv (dg : (⟨S50000, .f32⟩ : BufTy).Contents (Elt F)) : (⟨S50000, .f32⟩ : BufTy).Contents (Elt F) :=
  select (cmpf .ogt dg (broadcastInDim S50000 ![] bcast_S_S50000 (constant S_ .f32 0x00000000#32))) (Host.rsqrt dg) (broadcastInDim S50000 ![] bcast_S_S50000 (constant S_ .f32 0x00000000#32))

/-- A vector of row factors as a column. -/
def col (d : (⟨S50000, .f32⟩ : BufTy).Contents (Elt F)) : (⟨S50000x1, .f32⟩ : BufTy).Contents (Elt F) :=
  broadcastInDim S50000x1 ![0] bcast_S50000_S50000x1_0 d

end Cert.KernelIdeal.KT

namespace Cert.KernelIdeal.KT

open Cert.KernelIdeal Cert.KernelIdeal.Gen Idealize.ShloMosaic Idealize.ShloMosaic.TcCoe Idealize.SL.Sem Idealize.ShloMosaic.StableHlo

/-- The aggregate: the scaled projection's rows gathered by ns and summed into the rows rd names. -/
def agg (x : (⟨S50000x128, .f32⟩ : BufTy).Contents (Elt Ideal)) (w : (⟨S128x128, .f32⟩ : BufTy).Contents (Elt Ideal))
    (dc : (⟨S50000x1, .f32⟩ : BufTy).Contents (Elt Ideal)) (ns rd : (⟨S850000x1, .i32⟩ : BufTy).Contents (Elt Ideal)) :
    (⟨S50000x128, .f32⟩ : BufTy).Contents (Elt Ideal) :=
  Host.scatterAdd (F := Ideal) scatter_S50000x128_S850000x1_S850000x128_1_0_0_1 (broadcastInDim S50000x128 ![] bcast_S_S50000x128 (constant (F := Ideal) S_ .f32 0x00000000#32)) rd (Host.gather gather_S50000x128_S850000x1_S850000x128_1_0_n_n_0_1_1128 (Cert.Spec.denseScale x w dc : FVec Ideal S50000x128 .f32) ns)

/-- One hop of the kernel program: the update of the running table. -/
def hop (x : (⟨S50000x128, .f32⟩ : BufTy).Contents (Elt Ideal)) (ei : (⟨S2x800000, .i32⟩ : BufTy).Contents (Elt Ideal))
    (w : (⟨S128x128, .f32⟩ : BufTy).Contents (Elt Ideal)) (b : (⟨S128, .f32⟩ : BufTy).Contents (Elt Ideal))
    (run : (⟨S50000x128, .f32⟩ : BufTy).Contents (Elt Ideal)) : (⟨S50000x128, .f32⟩ : BufTy).Contents (Elt Ideal) :=
  Cert.Spec.hopUpdate (agg x w (col (dinv (degI (norm (dstWords ei))))) (norm (srcWords ei)) (raw (dstWords ei)))
    (col (dinv (degI (norm (dstWords ei))))) b run

end Cert.KernelIdeal.KT

end
-- ==== Proof.KRun.lean ====
/-
  The idealized kernel program's result as one composed term of its arguments.

  Each tiled region leaves exactly what one pure whole-table operation would leave: its output table is the
  projection with bias, the scaled projection or the update of its input tables, and no other buffer changes. The
  program is therefore one list of pure operations, and its result is the three hops' updates applied in turn to the
  ego projection.
-/
import proofs.«172900_j70188355551845_2_alg».proof.Proof.Gen.KernelIdeal.Frame
import proofs.«172900_j70188355551845_2_alg».proof.Proof.Region0
import proofs.«172900_j70188355551845_2_alg».proof.Proof.Region1
import proofs.«172900_j70188355551845_2_alg».proof.Proof.Region2
import proofs.«172900_j70188355551845_2_alg».proof.Proof.Region3
import proofs.«172900_j70188355551845_2_alg».proof.Proof.Region4
import proofs.«172900_j70188355551845_2_alg».proof.Proof.Region5
import proofs.«172900_j70188355551845_2_alg».proof.Proof.Region6
import proofs.«172900_j70188355551845_2_alg».proof.Proof.LibRegionOp
import proofs.«172900_j70188355551845_2_alg».proof.Proof.Spec
import proofs.«172900_j70188355551845_2_alg».proof.Proof.KDefs
import Idealize.ShloMosaic.Lib.StableHlo.Run

set_option maxRecDepth 16384

noncomputable section

namespace Cert.KernelIdeal.KRun

open Cert.KernelIdeal Cert.KernelIdeal.Gen
open Idealize.ShloMosaic Idealize.ShloMosaic.TcCoe Idealize.SL.Sem Idealize.ShloMosaic.StableHlo Idealize.ShloMosaic.Pipeline

variable (m : (ℓ : Loc nD τ sig) → Buf (Elt Ideal) ℓ) (ρ : Dev nD → PrngReg)

/-! ## Each region as one operation -/

abbrev op0 : HloOp τ sig (Elt Ideal) :=
  ternary main_arg0 main_arg7 main_arg8 main_v0 (Cert.Spec.denseBias : _ → _ → _ → _)

set_option maxHeartbeats 4000000 in
/-- Region 0 leaves the buffers at what one pure operation leaves: its output table is the whole-table function of
    its inputs, every other buffer as entered. -/
theorem step0 (c : Dev nD) : W1 m ρ c = (op0).result (W0 m ρ c) := by
  unfold W1
  refine Cert.LibRegionOp.withArrays_eq_result spec0 launch0.win.arr_inj c (W0 m ρ c) _ op0 3 (ternary_writes ..) ?_ ?_
  · show (dat0 (V0 m ρ) c).arrAt 3 cfg0.N = (op0).result (W0 m ρ c) (Proc.devRef .tc main_v0)
    dsimp only [op0]
    rw [ternary_result]
    exact Cert.KernelIdeal.Region0.value (V0 m ρ) c
  · intro w hw
    match w, hw with
    | ⟨0, _⟩, _ => exact ((dat0 (V0 m ρ) c).arrAt_in 0 rfl _).trans (A_eq0 (V0 m ρ) c 0)
    | ⟨1, _⟩, _ => exact ((dat0 (V0 m ρ) c).arrAt_in 1 rfl _).trans (A_eq0 (V0 m ρ) c 1)
    | ⟨2, _⟩, _ => exact ((dat0 (V0 m ρ) c).arrAt_in 2 rfl _).trans (A_eq0 (V0 m ρ) c 2)
    | ⟨3, _⟩, h => exact absurd rfl h

abbrev op1 : HloOp τ sig (Elt Ideal) :=
  ternary main_arg1 main_arg9 main_v23 main_v24 (Cert.Spec.denseScale : _ → _ → _ → _)

set_option maxHeartbeats 4000000 in
/-- Region 1 leaves the buffers at what one pure operation leaves: its output table is the whole-table function of
    its inputs, every other buffer as entered. -/
theorem step1 (c : Dev nD) : W5 m ρ c = (op1).result (W4 m ρ c) := by
  unfold W5
  refine Cert.LibRegionOp.withArrays_eq_result spec1 launch1.win.arr_inj c (W4 m ρ c) _ op1 3 (ternary_writes ..) ?_ ?_
  · show (dat1 (V4 m ρ) c).arrAt 3 cfg1.N = (op1).result (W4 m ρ c) (Proc.devRef .tc main_v24)
    dsimp only [op1]
    rw [ternary_result]
    exact Cert.KernelIdeal.Region1.value (V4 m ρ) c
  · intro w hw
    match w, hw with
    | ⟨0, _⟩, _ => exact ((dat1 (V4 m ρ) c).arrAt_in 0 rfl _).trans (A_eq1 (V4 m ρ) c 0)
    | ⟨1, _⟩, _ => exact ((dat1 (V4 m ρ) c).arrAt_in 1 rfl _).trans (A_eq1 (V4 m ρ) c 1)
    | ⟨2, _⟩, _ => exact ((dat1 (V4 m ρ) c).arrAt_in 2 rfl _).trans (A_eq1 (V4 m ρ) c 2)
    | ⟨3, _⟩, h => exact absurd rfl h

abbrev op2 : HloOp τ sig (Elt Ideal) :=
  quaternary main_v34 main_v23 main_arg10 main_v0 main_v35 (Cert.Spec.hopUpdate : _ → _ → _ → _ → _)

set_option maxHeartbeats 4000000 in
/-- Region 2 leaves the buffers at what one pure operation leaves: its output table is the whole-table function of
    its inputs, every other buffer as entered. -/
theorem step2 (c : Dev nD) : W7 m ρ c = (op2).result (W6 m ρ c) := by
  unfold W7
  refine Cert.LibRegionOp.withArrays_eq_result spec2 launch2.win.arr_inj c (W6 m ρ c) _ op2 4 (quaternary_writes ..) ?_ ?_
  · show (dat2 (V6 m ρ) c).arrAt 4 cfg2.N = (op2).result (W6 m ρ c) (Proc.devRef .tc main_v35)
    dsimp only [op2]
    rw [quaternary_result]
    exact Cert.KernelIdeal.Region2.value (V6 m ρ) c
  · intro w hw
    match w, hw with
    | ⟨0, _⟩, _ => exact ((dat2 (V6 m ρ) c).arrAt_in 0 rfl _).trans (A_eq2 (V6 m ρ) c 0)
    | ⟨1, _⟩, _ => exact ((dat2 (V6 m ρ) c).arrAt_in 1 rfl _).trans (A_eq2 (V6 m ρ) c 1)
    | ⟨2, _⟩, _ => exact ((dat2 (V6 m ρ) c).arrAt_in 2 rfl _).trans (A_eq2 (V6 m ρ) c 2)
    | ⟨3, _⟩, _ => exact ((dat2 (V6 m ρ) c).arrAt_in 3 rfl _).trans (A_eq2 (V6 m ρ) c 3)
    | ⟨4, _⟩, h => exact absurd rfl h

abbrev op3 : HloOp τ sig (Elt Ideal) :=
  ternary main_arg2 main_arg11 main_v58 main_v59 (Cert.Spec.denseScale : _ → _ → _ → _)

set_option maxHeartbeats 4000000 in
/-- Region 3 leaves the buffers at what one pure operation leaves: its output table is the whole-table function of
    its inputs, every other buffer as entered. -/
theorem step3 (c : Dev nD) : W11 m ρ c = (op3).result (W10 m ρ c) := by
  unfold W11
  refine Cert.LibRegionOp.withArrays_eq_result spec3 launch3.win.arr_inj c (W10 m ρ c) _ op3 3 (ternary_writes ..) ?_ ?_
  · show (dat3 (V10 m ρ) c).arrAt 3 cfg3.N = (op3).result (W10 m ρ c) (Proc.devRef .tc main_v59)
    dsimp only [op3]
    rw [ternary_result]
    exact Cert.KernelIdeal.Region3.value (V10 m ρ) c
  · intro w hw
    match w, hw with
    | ⟨0, _⟩, _ => exact ((dat3 (V10 m ρ) c).arrAt_in 0 rfl _).trans (A_eq3 (V10 m ρ) c 0)
    | ⟨1, _⟩, _ => exact ((dat3 (V10 m ρ) c).arrAt_in 1 rfl _).trans (A_eq3 (V10 m ρ) c 1)
    | ⟨2, _⟩, _ => exact ((dat3 (V10 m ρ) c).arrAt_in 2 rfl _).trans (A_eq3 (V10 m ρ) c 2)
    | ⟨3, _⟩, h => exact absurd rfl h

abbrev op4 : HloOp τ sig (Elt Ideal) :=
  quaternary main_v69 main_v58 main_arg12 main_v35 main_v70 (Cert.Spec.hopUpdate : _ → _ → _ → _ → _)

set_option maxHeartbeats 4000000 in
/-- Region 4 leaves the buffers at what one pure operation leaves: its output table is the whole-table function of
    its inputs, every other buffer as entered. -/
theorem step4 (c : Dev nD) : W13 m ρ c = (op4).result (W12 m ρ c) := by
  unfold W13
  refine Cert.LibRegionOp.withArrays_eq_result spec4 launch4.win.arr_inj c (W12 m ρ c) _ op4 4 (quaternary_writes ..) ?_ ?_
  · show (dat4 (V12 m ρ) c).arrAt 4 cfg4.N = (op4).result (W12 m ρ c) (Proc.devRef .tc main_v70)
    dsimp only [op4]
    rw [quaternary_result]
    exact Cert.KernelIdeal.Region4.value (V12 m ρ) c
  · intro w hw
    match w, hw with
    | ⟨0, _⟩, _ => exact ((dat4 (V12 m ρ) c).arrAt_in 0 rfl _).trans (A_eq4 (V12 m ρ) c 0)
    | ⟨1, _⟩, _ => exact ((dat4 (V12 m ρ) c).arrAt_in 1 rfl _).trans (A_eq4 (V12 m ρ) c 1)
    | ⟨2, _⟩, _ => exact ((dat4 (V12 m ρ) c).arrAt_in 2 rfl _).trans (A_eq4 (V12 m ρ) c 2)
    | ⟨3, _⟩, _ => exact ((dat4 (V12 m ρ) c).arrAt_in 3 rfl _).trans (A_eq4 (V12 m ρ) c 3)
    | ⟨4, _⟩, h => exact absurd rfl h

abbrev op5 : HloOp τ sig (Elt Ideal) :=
  ternary main_arg3 main_arg13 main_v93 main_v94 (Cert.Spec.denseScale : _ → _ → _ → _)

set_option maxHeartbeats 4000000 in
/-- Region 5 leaves the buffers at what one pure operation leaves: its output table is the whole-table function of
    its inputs, every other buffer as entered. -/
theorem step5 (c : Dev nD) : W17 m ρ c = (op5).result (W16 m ρ c) := by
  unfold W17
  refine Cert.LibRegionOp.withArrays_eq_result spec5 launch5.win.arr_inj c (W16 m ρ c) _ op5 3 (ternary_writes ..) ?_ ?_
  · show (dat5 (V16 m ρ) c).arrAt 3 cfg5.N = (op5).result (W16 m ρ c) (Proc.devRef .tc main_v94)
    dsimp only [op5]
    rw [ternary_result]
    exact Cert.KernelIdeal.Region5.value (V16 m ρ) c
  · intro w hw
    match w, hw with
    | ⟨0, _⟩, _ => exact ((dat5 (V16 m ρ) c).arrAt_in 0 rfl _).trans (A_eq5 (V16 m ρ) c 0)
    | ⟨1, _⟩, _ => exact ((dat5 (V16 m ρ) c).arrAt_in 1 rfl _).trans (A_eq5 (V16 m ρ) c 1)
    | ⟨2, _⟩, _ => exact ((dat5 (V16 m ρ) c).arrAt_in 2 rfl _).trans (A_eq5 (V16 m ρ) c 2)
    | ⟨3, _⟩, h => exact absurd rfl h

abbrev op6 : HloOp τ sig (Elt Ideal) :=
  quaternary main_v104 main_v93 main_arg14 main_v70 main_v105 (Cert.Spec.hopUpdate : _ → _ → _ → _ → _)

set_option maxHeartbeats 4000000 in
/-- Region 6 leaves the buffers at what one pure operation leaves: its output table is the whole-table function of
    its inputs, every other buffer as entered. -/
theorem step6 (c : Dev nD) : W19 m ρ c = (op6).result (W18 m ρ c) := by
  unfold W19
  refine Cert.LibRegionOp.withArrays_eq_result spec6 launch6.win.arr_inj c (W18 m ρ c) _ op6 4 (quaternary_writes ..) ?_ ?_
  · show (dat6 (V18 m ρ) c).arrAt 4 cfg6.N = (op6).result (W18 m ρ c) (Proc.devRef .tc main_v105)
    dsimp only [op6]
    rw [quaternary_result]
    exact Cert.KernelIdeal.Region6.value (V18 m ρ) c
  · intro w hw
    match w, hw with
    | ⟨0, _⟩, _ => exact ((dat6 (V18 m ρ) c).arrAt_in 0 rfl _).trans (A_eq6 (V18 m ρ) c 0)
    | ⟨1, _⟩, _ => exact ((dat6 (V18 m ρ) c).arrAt_in 1 rfl _).trans (A_eq6 (V18 m ρ) c 1)
    | ⟨2, _⟩, _ => exact ((dat6 (V18 m ρ) c).arrAt_in 2 rfl _).trans (A_eq6 (V18 m ρ) c 2)
    | ⟨3, _⟩, _ => exact ((dat6 (V18 m ρ) c).arrAt_in 3 rfl _).trans (A_eq6 (V18 m ρ) c 3)
    | ⟨4, _⟩, h => exact absurd rfl h

/-! ## The fold through the program -/

/-- The buffers at the program's end: the regions' operations and the host stretches applied in order to the launch contents. -/
theorem unroll (c : Dev nD) : W19 m ρ c =
    op6.result (after hostOps6 (op5.result (after hostOps5_2 (after hostOps5_1 (after hostOps5 (op4.result (after hostOps4 (op3.result (after hostOps3_2 (after hostOps3_1 (after hostOps3 (op2.result (after hostOps2 (op1.result (after hostOps1_2 (after hostOps1_1 (after hostOps1 (op0.result (W0 m ρ c))))))))))))))))))) :=
  (step6 m ρ c).trans (congrArg op6.result (congrArg (after hostOps6) ((step5 m ρ c).trans (congrArg op5.result (congrArg (after hostOps5_2) (congrArg (after hostOps5_1) (congrArg (after hostOps5) ((step4 m ρ c).trans (congrArg op4.result (congrArg (after hostOps4) ((step3 m ρ c).trans (congrArg op3.result (congrArg (after hostOps3_2) (congrArg (after hostOps3_1) (congrArg (after hostOps3) ((step2 m ρ c).trans (congrArg op2.result (congrArg (after hostOps2) ((step1 m ρ c).trans (congrArg op1.result (congrArg (after hostOps1_2) (congrArg (after hostOps1_1) (congrArg (after hostOps1) (step0 m ρ c))))))))))))))))))))))))

/-- The result table as a term of the arguments: the three hops' updates applied in turn to the ego projection. -/
def total (m : (ℓ : Loc nD τ sig) → Buf (Elt Ideal) ℓ) (c : Dev nD) : Buf (Elt Ideal) ((c.tc : Thread nD τ).loc main_v105) :=
  KT.hop (m ((c.tc : Thread nD τ).loc main_arg3)) (m ((c.tc : Thread nD τ).loc main_arg6)) (m ((c.tc : Thread nD τ).loc main_arg13)) (m ((c.tc : Thread nD τ).loc main_arg14))
    (KT.hop (m ((c.tc : Thread nD τ).loc main_arg2)) (m ((c.tc : Thread nD τ).loc main_arg5)) (m ((c.tc : Thread nD τ).loc main_arg11)) (m ((c.tc : Thread nD τ).loc main_arg12))
      (KT.hop (m ((c.tc : Thread nD τ).loc main_arg1)) (m ((c.tc : Thread nD τ).loc main_arg4)) (m ((c.tc : Thread nD τ).loc main_arg9)) (m ((c.tc : Thread nD τ).loc main_arg10))
        (Cert.Spec.denseBias (m ((c.tc : Thread nD τ).loc main_arg0)) (m ((c.tc : Thread nD τ).loc main_arg7)) (m ((c.tc : Thread nD τ).loc main_arg8)))))

set_option maxHeartbeats 40000000 in
/-- The result table ends at that term. -/
theorem result (c : Dev nD) : W19 m ρ c (Proc.devRef .tc main_v105) = total m c := by
  rw [unroll m ρ c]
  dsimp only [op0, op1, op2, op3, op4, op5, op6]
  after_results_simp
  rfl

end Cert.KernelIdeal.KRun

end
-- ==== Proof.RefDefs.lean ====
/-
  The reference program's result in named pieces.

  The result is the ego projection plus, for each of the three hops, the positive part of a normalised aggregate:
  the hop's projected rows, each multiplied by the product of the inverse square roots of the degrees of its two end
  nodes, summed into the rows their edges point at, plus the hop's bias. The edge list is the given one followed by
  one self-loop per node; a degree counts the entries of that list that point at the node.
-/
import proofs.«172900_j70188355551845_2_alg».proof.Proof.Gen.ReferenceIdeal

set_option maxRecDepth 16384

noncomputable section

namespace Cert.ReferenceIdeal.RT

open Cert.ReferenceIdeal Cert.ReferenceIdeal.Gen Idealize.ShloMosaic Idealize.ShloMosaic.TcCoe Idealize.SL.Sem Idealize.ShloMosaic.StableHlo

variable {F : FTy → Type} [FloatOps F]

/-- The source words: row 0 of the edge table followed by 0, 1, …, 49999. -/
def srcWords (ei : (⟨S2x800000, .i32⟩ : BufTy).Contents (Elt F)) : (⟨S850000, .i32⟩ : BufTy).Contents (Elt F) :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

/-- The destination words: row 1 of the edge table followed by 0, 1, …, 49999. -/
def dstWords (ei : (⟨S2x800000, .i32⟩ : BufTy).Contents (Elt F)) : (⟨S850000, .i32⟩ : BufTy).Contents (Elt F) :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- A word list as a column of index words, a negative word first moved up by 50000. -/
def norm (v : (⟨S850000, .i32⟩ : BufTy).Contents (Elt F)) : (⟨S850000x1, .i32⟩ : BufTy).Contents (Elt F) :=
  broadcastInDim S850000x1 ![0] bcast_S850000_S850000x1_0 (select (cmpi .slt v (broadcastInDim S850000 ![] bcast_S_S850000 (constantI S_ 32 0#32))) (addi v (broadcastInDim S850000 ![] bcast_S_S850000 (constantI S_ 32 50000#32))) v)

/-- A word list as a column of index words, as it is. -/
def raw (v : (⟨S850000, .i32⟩ : BufTy).Contents (Elt F)) : (⟨S850000x1, .i32⟩ : BufTy).Contents (Elt F) :=
  broadcastInDim S850000x1 ![0] bcast_S850000_S850000x1_0 v

/-- The degrees: one added per listed word into a vector of zeros. -/
def deg (nd : (⟨S850000x1, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) nd (broadcastInDim S850000 ![] bcast_S_S850000 (constant S_ .f32 0x3F800000#32))

/-- The inverse square root of a positive degree, and zero otherwise. -/
def dinv (dg : (⟨S50000, .f32⟩ : BufTy).Contents (Elt F)) : (⟨S50000, .f32⟩ : BufTy).Contents (Elt F) :=
  select (cmpf .ogt dg (broadcastInDim S50000 ![] bcast_S_S50000 (constant S_ .f32 0x00000000#32))) (Host.rsqrt dg) (broadcastInDim S50000 ![] bcast_S_S50000 (constant S_ .f32 0x00000000#32))

/-- One hop's term over given index columns: ns picks the source rows, nd the destination factors, rd the rows summed into. -/
def hopTerm' (x : (⟨S50000x128, .f32⟩ : BufTy).Contents (Elt F)) (w : (⟨S128x128, .f32⟩ : BufTy).Contents (Elt F)) (b : (⟨S128, .f32⟩ : BufTy).Contents (Elt F))
    (ns nd rd : (⟨S850000x1, .i32⟩ : BufTy).Contents (Elt F)) : (⟨S50000x128, .f32⟩ : BufTy).Contents (Elt F) :=
  maximumf (addf (Host.scatterAdd scatter_S50000x128_S850000x1_S850000x128_1_0_0_1 (broadcastInDim S50000x128 ![] bcast_S_S50000x128 (constant S_ .f32 0x00000000#32)) rd (mulf (Host.gather gather_S50000x128_S850000x1_S850000x128_1_0_n_n_0_1_1128 (Host.dotGeneral dot_S50000x128_S128x128_S50000x128_1_0_0_1_n_n none x w) ns) (broadcastInDim S850000x128 ![0, 1] bcast_S850000x1_S850000x128_0_1 (broadcastInDim S850000x1 ![0] bcast_S850000_S850000x1_0 (mulf (Host.gather gather_S50000_S850000x1_S850000_n_0_n_n_0_1_1 (dinv (deg nd)) ns) (Host.gather gather_S50000_S850000x1_S850000_n_0_n_n_0_1_1 (dinv (deg nd)) nd)))))) (broadcastInDim S50000x128 ![0, 1] bcast_S1x128_S50000x128_0_1 (broadcastInDim S1x128 ![1] bcast_S128_S1x128_1 b))) (broadcastInDim S50000x128 ![] bcast_S_S50000x128 (constant S_ .f32 0x00000000#32))

/-- One hop's term of its table, edge table, weight and bias. -/
def hopTerm (x : (⟨S50000x128, .f32⟩ : BufTy).Contents (Elt F)) (ei : (⟨S2x800000, .i32⟩ : BufTy).Contents (Elt F)) (w : (⟨S128x128, .f32⟩ : BufTy).Contents (Elt F)) (b : (⟨S128, .f32⟩ : BufTy).Contents (Elt F)) :
    (⟨S50000x128, .f32⟩ : BufTy).Contents (Elt F) :=
  hopTerm' x w b (norm (srcWords ei)) (norm (dstWords ei)) (raw (dstWords ei))

/-- The ego projection with its bias. -/
def ego (x : (⟨S50000x128, .f32⟩ : BufTy).Contents (Elt F)) (w : (⟨S128x128, .f32⟩ : BufTy).Contents (Elt F)) (b : (⟨S128, .f32⟩ : BufTy).Contents (Elt F)) : (⟨S50000x128, .f32⟩ : BufTy).Contents (Elt F) :=
  addf (Host.dotGeneral dot_S50000x128_S128x128_S50000x128_1_0_0_1_n_n none x w) (broadcastInDim S50000x128 ![0, 1] bcast_S1x128_S50000x128_0_1 (broadcastInDim S1x128 ![1] bcast_S128_S1x128_1 b))

end Cert.ReferenceIdeal.RT

end
-- ==== Proof.RefRes.lean ====
/-
  The reference program's run ends at the named pieces: the ego term plus the three hops' terms, added in order.
-/
import proofs.«172900_j70188355551845_2_alg».proof.Proof.RefRunP
import proofs.«172900_j70188355551845_2_alg».proof.Proof.RefDefs

set_option maxRecDepth 16384

noncomputable section

namespace Cert.ReferenceIdeal.RT

open Cert.ReferenceIdeal Cert.ReferenceIdeal.Gen Idealize.ShloMosaic Idealize.ShloMosaic.TcCoe Idealize.SL.Sem Idealize.ShloMosaic.StableHlo

variable {F : FTy → Type} [FloatOps F]

/-- The run's result is the ego term plus the three hops' terms, added in order. -/
theorem res_eq (m : (ℓ : Loc nD τ sig) → Buf (Elt F) ℓ) (c : Dev nD) :
    Cert.ReferenceIdeal.ValueP.res_main_v168 m c
      = addf (addf (addf (ego (m ((c.tc : Thread nD τ).loc main_arg0)) (m ((c.tc : Thread nD τ).loc main_arg7)) (m ((c.tc : Thread nD τ).loc main_arg8)))
          (hopTerm (m ((c.tc : Thread nD τ).loc main_arg1)) (m ((c.tc : Thread nD τ).loc main_arg4)) (m ((c.tc : Thread nD τ).loc main_arg9)) (m ((c.tc : Thread nD τ).loc main_arg10))))
          (hopTerm (m ((c.tc : Thread nD τ).loc main_arg2)) (m ((c.tc : Thread nD τ).loc main_arg5)) (m ((c.tc : Thread nD τ).loc main_arg11)) (m ((c.tc : Thread nD τ).loc main_arg12))))
          (hopTerm (m ((c.tc : Thread nD τ).loc main_arg3)) (m ((c.tc : Thread nD τ).loc main_arg6)) (m ((c.tc : Thread nD τ).loc main_arg13)) (m ((c.tc : Thread nD τ).loc main_arg14))) := by
  unfold Cert.ReferenceIdeal.ValueP.res_main_v168
  rfl

end Cert.ReferenceIdeal.RT

end
-- ==== Proof.LibGatherRow.lean ====
/-
  The host gather that reads one whole row (or one entry) of its operand per signed index word, read at an entry of
  its result; and two facts on the extended reals: a finite sum scaled by a non-negative finite factor, and the
  reciprocal square root of a positive real.
-/
import Idealize.ShloMosaic.PureOps.Ideal
import Idealize.ShloMosaic.Lib.ValueIdx

noncomputable section

open scoped BigOperators
open Idealize.ShloMosaic Idealize.ShloMosaic.ValueIdx

namespace Cert.LibGatherRow

/-! ## Two facts on the extended reals -/

/-- A finite sum of extended reals times a factor `c` with `0 ≤ c < ⊤` is the sum of the terms each times `c`
    (multiplication by such a factor distributes over addition of extended reals, whatever the signs and infinities
    of the terms). -/
theorem sum_mul_of_nonneg_of_ne_top {ι : Type} (s : Finset ι) (f : ι → EReal) (c : EReal) (hc : 0 ≤ c) (hc' : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top hc hc', ih]

/-- The reciprocal square root of a positive real `r`, taken in the extended reals, is the real `(√r)⁻¹`. -/
theorem rsqrt_coe_of_pos (r : ℝ) (hr : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr hr.le), if_neg hr.ne']

/-- The reciprocal square root of a positive real is non-negative: `(√r)⁻¹ ≥ 0`. -/
theorem rsqrt_coe_nonneg (r : ℝ) (hr : 0 < r) : 0 ≤ Ideal.rsqrt (r : EReal) := by
  rw [rsqrt_coe_of_pos r hr]
  exact EReal.coe_nonneg.mpr (inv_nonneg.mpr (Real.sqrt_nonneg r))

/-- The reciprocal square root of a positive real is finite. -/
theorem rsqrt_coe_ne_top (r : ℝ) (hr : 0 < r) : Ideal.rsqrt (r : EReal) ≠ ⊤ := by
  rw [rsqrt_coe_of_pos r hr]
  exact EReal.coe_ne_top _

/-! ## The gather of whole rows, read at an entry -/

/-- The row a gather over `N` rows reads for the index word `w`: `w` read as a signed integer and clamped into
    `[0, N − 1]` (a negative word reads row `0`, a word `≥ N` reads row `N − 1`). -/
def rowOf (N : Nat) (hN : 0 < N) (w : BitVec 32) : Fin N := ⟨min w.toInt.toNat (N - 1), by omega⟩

/-- An index word whose signed value is the row number `v < N` names row `v`. -/
theorem rowOf_eq_of_toInt {N : Nat} (hN : 0 < N) (w : BitVec 32) (v : Fin N) (hw : w.toInt = (v.val : ℤ)) :
    rowOf N hN w = v := by
  refine Fin.ext ?_
  show min w.toInt.toNat (N - 1) = v.val
  rw [hw, Int.toNat_natCast]
  have := v.isLt
  omega

variable {α : Type}

/-- THE TABLE GATHER AT AN ENTRY. A gather from an `N × D` table by an `E × 1` array of index words that collapses the
    row axis, keeps the column axis whole as the result's offset axis, and takes its one start-index component (for
    the row axis) along the index array's second axis: entry `(e, c)` of the `E × D` result is the table's entry
    `(rowOf (idx e 0), c)`. -/
theorem gather_rows_apply {N E D : Nat} (hN : 0 < N)
    (d : GatherDims ⟨2, ![N, D]⟩ ⟨2, ![E, 1]⟩ ⟨2, ![E, D]⟩)
    (hod : d.offsetDims = [1]) (hcd : d.collapsedSliceDims = [0]) (hob : d.operandBatchingDims = [])
    (hsm : d.startIndexMap = [0]) (hiv : d.indexVectorDim = 1)
    (x : (⟨2, ![N, D]⟩ : Shape).Idx → α) (idx : IVec ⟨2, ![E, 1]⟩ 32) (e : Fin E) (c : Fin D) :
    Host.gather d x idx (ix2 e c) = x (ix2 (rowOf N hN (idx (ix2 e 0))) c) := by
  have hs : d.sliceSizes 0 = 1 := d.slice_collapsed 0 (hcd ▸ List.mem_singleton.mpr rfl)
  obtain ⟨od, cd, ob, sb, sm, iv, ss, wf⟩ := d
  dsimp only at hod hcd hob hsm hiv hs
  subst hod hcd hob hsm hiv
  unfold Host.gather
  congr 1
  funext a
  refine Fin.ext ?_
  match a with
  | ⟨0, _⟩ =>
    show GatherDims.start _ (ix2 e c) idx 0 + GatherDims.batchCoord _ (ix2 e c) 0 + GatherDims.offCoord _ (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : (GatherDims.mk (s := ⟨2, ![N, D]⟩) (si := ⟨2, ![E, 1]⟩) (t := ⟨2, ![E, D]⟩) [1] [0] [] sb [0] 1 ss wf).siIdx
        (ix2 e c) ⟨List.idxOf (0 : Fin 2) [0], List.idxOf_lt_length_iff.2 (List.mem_singleton.mpr rfl)⟩ = ix2 e 0 := by
      funext b; refine Fin.ext ?_
      match b with
      | ⟨0, _⟩ => rfl
      | ⟨1, _⟩ => rfl
    show min (idx (GatherDims.siIdx _ (ix2 e c) ⟨List.idxOf (0 : Fin 2) [0], _⟩)).toInt.toNat (N - ss 0) = _
    rw [hsi, hs]
    rfl
  | ⟨1, _⟩ =>
    show GatherDims.start _ (ix2 e c) idx 1 + GatherDims.batchCoord _ (ix2 e c) 1 + GatherDims.offCoord _ (ix2 e c) 1 = _
    rw [GatherDims.batchCoord_eq_zero _ _ _ List.not_mem_nil]
    unfold GatherDims.start
    rw [dif_neg (fun h => Nat.one_ne_zero (congrArg Fin.val (List.mem_singleton.mp h)))]
    unfold GatherDims.offCoord
    rw [dif_pos ((GatherDims.mem_sKept _ _).mpr ⟨fun h => Nat.one_ne_zero (congrArg Fin.val (List.mem_singleton.mp h)), List.not_mem_nil⟩)]
    simp only [Nat.add_zero, Nat.zero_add]
    rfl

/-- THE VECTOR GATHER AT AN ENTRY. A gather from a vector of `N` entries by an `E × 1` array of index words that
    collapses the vector's one axis (no offset axes) and takes its one start-index component along the index array's
    second axis: entry `e` of the length-`E` result is the vector's entry `rowOf (idx e 0)`. -/
theorem gather_entries_apply {N E : Nat} (hN : 0 < N)
    (d : GatherDims ⟨1, ![N]⟩ ⟨2, ![E, 1]⟩ ⟨1, ![E]⟩)
    (hod : d.offsetDims = []) (hcd : d.collapsedSliceDims = [0]) (hob : d.operandBatchingDims = [])
    (hsm : d.startIndexMap = [0]) (hiv : d.indexVectorDim = 1)
    (x : (⟨1, ![N]⟩ : Shape).Idx → α) (idx : IVec ⟨2, ![E, 1]⟩ 32) (e : Fin E) :
    Host.gather d x idx (ix1 e) = x (ix1 (rowOf N hN (idx (ix2 e 0)))) := by
  have hs : d.sliceSizes 0 = 1 := d.slice_collapsed 0 (hcd ▸ List.mem_singleton.mpr rfl)
  obtain ⟨od, cd, ob, sb, sm, iv, ss, wf⟩ := d
  dsimp only at hod hcd hob hsm hiv hs
  subst hod hcd hob hsm hiv
  unfold Host.gather
  congr 1
  funext a
  refine Fin.ext ?_
  match a with
  | ⟨0, _⟩ =>
    show GatherDims.start _ (ix1 e) idx 0 + GatherDims.batchCoord _ (ix1 e) 0 + GatherDims.offCoord _ (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : (GatherDims.mk (s := ⟨1, ![N]⟩) (si := ⟨2, ![E, 1]⟩) (t := ⟨1, ![E]⟩) [] [0] [] sb [0] 1 ss wf).siIdx
        (ix1 e) ⟨List.idxOf (0 : Fin 1) [0], List.idxOf_lt_length_iff.2 (List.mem_singleton.mpr rfl)⟩ = ix2 e 0 := by
      funext b; refine Fin.ext ?_
      match b with
      | ⟨0, _⟩ => rfl
      | ⟨1, _⟩ => rfl
    show min (idx (GatherDims.siIdx _ (ix1 e) ⟨List.idxOf (0 : Fin 1) [0], _⟩)).toInt.toNat (N - ss 0) = _
    rw [hsi, hs]
    rfl

end Cert.LibGatherRow
-- ==== Proof.LibScatterAdd.lean ====
/-
  A scatter whose combining step is addition, read at one entry: the operand's entry plus the sum of the updates that
  land there. Addition in a commutative monoid does not see the order in which the updates are folded in.
-/
import Idealize.ShloMosaic.PureOps.Ideal
import Idealize.ShloMosaic.Lib.ValueIdx

noncomputable section

open scoped BigOperators
open Idealize.ShloMosaic Idealize.ShloMosaic.ValueIdx

namespace Cert.LibScatterAdd

/-- A scatter whose body adds, folded over the updates in any listed order, leaves at an entry the operand's entry
    plus the sum of the updates that land there (addition in a commutative monoid does not see the order). -/
theorem scatter_add_apply {α : Type} [AddCommMonoid α] {s si u : Shape} {w : Nat} (d : ScatterDims s si u) (f : α → α → α)
    (hf : ∀ a b, f a b = a + b) (x : s.Idx → α) (idx : IVec si w) (upd : u.Idx → α) (i : s.Idx) :
    Host.scatter d f x idx upd i = x i + ∑ j ∈ Finset.univ.filter (fun j => d.resultIdx? j idx = some i), upd j := by
  classical
  have key : ∀ (step : (s.Idx → α) → Fin u.numel → (s.Idx → α)) (g : Fin u.numel → α)
      (_hstep : ∀ r n, step r n i = r i + g n) (l : List (Fin u.numel)) (x : s.Idx → α),
      (l.foldl step x) i = x i + (l.map g).sum := by
    intro step g hstep l
    induction l with
    | nil => intro x; simp
    | cons n l ih =>
      intro x
      rw [List.foldl_cons, ih, hstep, List.map_cons, List.sum_cons, add_assoc]
  unfold Host.scatter
  refine (key _ (fun n => if d.resultIdx? (u.rowMajor.symm n) idx = some i then upd (u.rowMajor.symm n) else 0) ?_ _ x).trans ?_
  · intro r n
    by_cases hP : d.resultIdx? (u.rowMajor.symm n) idx = some i
    · simp only [hP, if_true]
      simp [hf]
    · rw [if_neg hP, add_zero]
      cases hr : d.resultIdx? (u.rowMajor.symm n) idx with
      | none => rfl
      | some i0 =>
        have hne : i ≠ i0 := fun e' => hP (by rw [hr, e'])
        simp [hne]
  · refine congrArg (x i + ·) ?_
    rw [Finset.sum_filter, ← Equiv.sum_comp u.rowMajor.symm, Fin.sum_univ_def]

end Cert.LibScatterAdd

end
-- ==== Proof.LibLanding.lean ====
/-
  The host scatter with one signed 32-bit index word per update: update e lands on row v exactly when its word,
  read signed, is v. The landing sets of a rank-1 operand and of a table of rows are the segments of the index words.
-/
import Idealize.ShloMosaic.PureOps.Ideal
import Idealize.ShloMosaic.Lib.ValueIdx
import Mathlib.Data.BitVec
import proofs.«172900_j70188355551845_2_alg».proof.Proof.LibScatterAdd

noncomputable section

open scoped BigOperators
open Idealize.ShloMosaic Idealize.ShloMosaic.ValueIdx

namespace Cert.LibLanding

/-- The updates whose index word, read signed, is the row number v. -/
def seg {E : Nat} (word : Fin E → BitVec 32) (v : ℕ) : Finset (Fin E) :=
  Finset.univ.filter (fun e => (word e).toInt = (v : ℤ))

/-- A rank-1 index set is its one coordinate range. -/
def idxEquiv1 {n : Nat} : (⟨1, ![n]⟩ : Shape).Idx ≃ Fin n where
  toFun i := i 0
  invFun a := ix1 a
  left_inv i := (eq_ix1 i).symm
  right_inv _ := rfl

section Vector
variable {N E : Nat}

/-- Rank-1 operand, one index word per update: the window start on the only axis is update j's own word, read signed. -/
theorem start_vec (d : ScatterDims ⟨1, ![N]⟩ ⟨2, ![E, 1]⟩ ⟨1, ![E]⟩)
    (huw : d.updateWindowDims = []) (hsd : d.scatterDimsToOperandDims = [0]) (hiv : d.indexVectorDim = 1)
    (idx : IVec ⟨2, ![E, 1]⟩ 32) (j : (⟨1, ![E]⟩ : Shape).Idx) (a : Fin 1) :
    d.start j idx a = (idx (ix2 (j 0) 0)).toInt := by
  obtain ⟨uw, iw, sd, iv, wf⟩ := d
  simp only at hsd hiv huw
  subst hsd hiv huw
  have ha : a = 0 := Subsingleton.elim _ _
  subst ha
  unfold ScatterDims.start
  rw [dif_pos (by simp)]
  congr 2
  funext b
  match b with
  | ⟨0, _⟩ => rfl
  | ⟨1, _⟩ => rfl

/-- Rank-1 operand whose only axis is an inserted one: the window coordinate is zero. -/
theorem window_vec (d : ScatterDims ⟨1, ![N]⟩ ⟨2, ![E, 1]⟩ ⟨1, ![E]⟩) (hiw : d.insertedWindowDims = [0])
    (j : (⟨1, ![E]⟩ : Shape).Idx) (a : Fin 1) : d.window j a = 0 := by
  obtain ⟨uw, iw, sd, iv, wf⟩ := d
  simp only at hiw
  subst hiw
  unfold ScatterDims.window
  rw [dif_neg]
  intro h
  have h' : a ∈ ([] : List (Fin 1)) := h
  simp at h'

/-- Update e of a rank-1 scatter lands on row n exactly when its index word, read signed, is n. -/
theorem resultIdx_vec_iff (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1) (idx : IVec ⟨2, ![E, 1]⟩ 32) (e : Fin E) (n : Fin N) :
    d.resultIdx? (ix1 e) idx = some (ix1 n) ↔ (idx (ix2 e 0)).toInt = (n.val : ℤ) := by
  have hs : ∀ a, d.start (ix1 e) idx a = (idx (ix2 e 0)).toInt := fun a => start_vec d huw hsd hiv idx (ix1 e) a
  have hw : ∀ a, d.window (ix1 e) a = 0 := fun a => window_vec d hiw (ix1 e) a
  have hn : n.val < N := n.isLt
  unfold ScatterDims.resultIdx?
  constructor
  · intro h
    split at h
    · rename_i hb
      have h0 := congrArg Fin.val (congrFun (Option.some.inj h) 0)
      have hb0 := (hb 0).1
      simp only [hs, hw, Nat.cast_zero, add_zero] at h0 hb0
      have h1 : ((idx (ix2 e 0)).toInt).toNat = n.val := h0
      omega
    · cases h
  · intro h
    have hb : ∀ a, 0 ≤ d.start (ix1 e) idx a + d.window (ix1 e) a ∧
        d.start (ix1 e) idx a + d.window (ix1 e) a < (⟨1, ![N]⟩ : Shape).size a := by
      intro a
      have ha : a = 0 := Subsingleton.elim _ _
      subst ha
      rw [hs, hw, h]
      have : ((⟨1, ![N]⟩ : Shape).size 0 : ℤ) = (N : ℤ) := rfl
      rw [this]
      omega
    rw [dif_pos hb]
    congr 1
    funext a
    have ha : a = 0 := Subsingleton.elim _ _
    subst ha
    apply Fin.ext
    show (d.start (ix1 e) idx 0 + d.window (ix1 e) 0).toNat = n.val
    rw [hs, hw, h]
    omega

/-- (1) Vector landing: the updates landing on row n of a rank-1 operand are those whose index word, read signed,
    is n; a sum over the landing set is the sum over that segment. -/
theorem landing_vec {α : Type} [AddCommMonoid α] (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1) (idx : IVec ⟨2, ![E, 1]⟩ 32) (upd : (⟨1, ![E]⟩ : Shape).Idx → α) (n : Fin N) :
    ∑ j ∈ Finset.univ.filter (fun j => d.resultIdx? j idx = some (ix1 n)), upd j
      = ∑ e ∈ seg (fun e => idx (ix2 e 0)) n.val, upd (ix1 e) := by
  classical
  unfold seg
  rw [Finset.sum_filter, Finset.sum_filter]
  refine Fintype.sum_equiv idxEquiv1 _ _ (fun j => ?_)
  obtain ⟨e, rfl⟩ : ∃ e, j = ix1 e := ⟨j 0, eq_ix1 j⟩
  show _ = if (idx (ix2 e 0)).toInt = (n.val : ℤ) then upd (ix1 e) else 0
  simp only [resultIdx_vec_iff d huw hiw hsd hiv idx e n]

end Vector

section Table
variable {N E D : Nat}

/-- Table of rows, one index word per update: the window starts at update j's own word, read signed, on the row axis
    and at zero on the column axis. -/
theorem start_tab (d : ScatterDims ⟨2, ![N, D]⟩ ⟨2, ![E, 1]⟩ ⟨2, ![E, D]⟩)
    (huw : d.updateWindowDims = [1]) (hsd : d.scatterDimsToOperandDims = [0]) (hiv : d.indexVectorDim = 1)
    (idx : IVec ⟨2, ![E, 1]⟩ 32) (j : (⟨2, ![E, D]⟩ : Shape).Idx) (a : Fin 2) :
    d.start j idx a = if a.val = 0 then (idx (ix2 (j 0) 0)).toInt else 0 := by
  obtain ⟨uw, iw, sd, iv, wf⟩ := d
  simp only at hsd hiv huw
  subst hsd hiv huw
  unfold ScatterDims.start
  match a with
  | ⟨0, _⟩ =>
    rw [dif_pos (by simp), if_pos rfl]
    congr 2
    funext b
    match b with
    | ⟨0, _⟩ => rfl
    | ⟨1, _⟩ => rfl
  | ⟨1, _⟩ =>
    rw [dif_neg, if_neg (by simp)]
    intro h
    exact absurd h (by decide : ¬ (1 : Fin 2) ∈ ([0] : List (Fin 2)))

/-- Table of rows whose row axis is the inserted one: the window coordinate is zero on the row axis and update j's own
    column on the column axis. -/
theorem window_tab (d : ScatterDims ⟨2, ![N, D]⟩ ⟨2, ![E, 1]⟩ ⟨2, ![E, D]⟩)
    (huw : d.updateWindowDims = [1]) (hiw : d.insertedWindowDims = [0])
    (j : (⟨2, ![E, D]⟩ : Shape).Idx) (a : Fin 2) :
    d.window j a = if a.val = 0 then 0 else (j 1).val := by
  obtain ⟨uw, iw, sd, iv, wf⟩ := d
  simp only at hiw huw
  subst hiw huw
  unfold ScatterDims.window
  match a with
  | ⟨0, _⟩ =>
    rw [dif_neg, if_pos rfl]
    intro h
    exact absurd h (by decide : ¬ (0 : Fin 2) ∈ ([1] : List (Fin 2)))
  | ⟨1, _⟩ =>
    rw [if_neg (by simp)]
    split
    · rfl
    · rename_i h
      exact absurd (by decide : (1 : Fin 2) ∈ ([1] : List (Fin 2))) h

/-- Element (e, b) of the updates of a table scatter lands on (n, c) exactly when update e's index word, read signed,
    is n and b = c. -/
theorem resultIdx_tab_iff (d : ScatterDims ⟨2, ![N, D]⟩ ⟨2, ![E, 1]⟩ ⟨2, ![E, D]⟩)
    (huw : d.updateWindowDims = [1]) (hiw : d.insertedWindowDims = [0]) (hsd : d.scatterDimsToOperandDims = [0])
    (hiv : d.indexVectorDim = 1) (idx : IVec ⟨2, ![E, 1]⟩ 32) (e : Fin E) (b : Fin D) (n : Fin N) (c : Fin D) :
    d.resultIdx? (ix2 e b) idx = some (ix2 n c) ↔ (idx (ix2 e 0)).toInt = (n.val : ℤ) ∧ b = c := by
  have hs0 : d.start (ix2 e b) idx 0 = (idx (ix2 e 0)).toInt := by
    rw [start_tab d huw hsd hiv idx (ix2 e b) 0]; rfl
  have hs1 : d.start (ix2 e b) idx 1 = 0 := by
    rw [start_tab d huw hsd hiv idx (ix2 e b) 1]; rfl
  have hw0 : d.window (ix2 e b) 0 = 0 := by
    rw [window_tab d huw hiw (ix2 e b) 0]; rfl
  have hw1 : d.window (ix2 e b) 1 = b.val := by
    rw [window_tab d huw hiw (ix2 e b) 1]; rfl
  have hn : n.val < N := n.isLt
  have hbD : b.val < D := b.isLt
  unfold ScatterDims.resultIdx?
  constructor
  · intro h
    split at h
    · rename_i hb
      have h0 : (d.start (ix2 e b) idx 0 + d.window (ix2 e b) 0).toNat = n.val :=
        congrArg Fin.val (congrFun (Option.some.inj h) 0)
      have h1 : (d.start (ix2 e b) idx 1 + d.window (ix2 e b) 1).toNat = c.val :=
        congrArg Fin.val (congrFun (Option.some.inj h) 1)
      have hb0 := (hb 0).1
      rw [hs0, hw0] at h0 hb0
      rw [hs1, hw1] at h1
      refine ⟨by omega, Fin.ext (by omega)⟩
    · cases h
  · rintro ⟨h, rfl⟩
    have hb : ∀ a, 0 ≤ d.start (ix2 e b) idx a + d.window (ix2 e b) a ∧
        d.start (ix2 e b) idx a + d.window (ix2 e b) a < (⟨2, ![N, D]⟩ : Shape).size a := by
      intro a
      match a with
      | ⟨0, _⟩ =>
        show 0 ≤ d.start (ix2 e b) idx 0 + d.window (ix2 e b) 0 ∧
          d.start (ix2 e b) idx 0 + d.window (ix2 e b) 0 < (N : ℤ)
        rw [hs0, hw0, h]; omega
      | ⟨1, _⟩ =>
        show 0 ≤ d.start (ix2 e b) idx 1 + d.window (ix2 e b) 1 ∧
          d.start (ix2 e b) idx 1 + d.window (ix2 e b) 1 < (D : ℤ)
        rw [hs1, hw1]; omega
    rw [dif_pos hb]
    congr 1
    funext a
    match a with
    | ⟨0, _⟩ =>
      apply Fin.ext
      show (d.start (ix2 e b) idx 0 + d.window (ix2 e b) 0).toNat = n.val
      rw [hs0, hw0, h]; omega
    | ⟨1, _⟩ =>
      apply Fin.ext
      show (d.start (ix2 e b) idx 1 + d.window (ix2 e b) 1).toNat = b.val
      rw [hs1, hw1]; omega

/-- (2) Table landing: the update elements landing on entry (n, c) of a table are the column-c elements of the updates
    whose index word, read signed, is n; a sum over the landing set is the sum over that segment. -/
theorem landing_tab {α : Type} [AddCommMonoid α] (d : ScatterDims ⟨2, ![N, D]⟩ ⟨2, ![E, 1]⟩ ⟨2, ![E, D]⟩)
    (huw : d.updateWindowDims = [1]) (hiw : d.insertedWindowDims = [0]) (hsd : d.scatterDimsToOperandDims = [0])
    (hiv : d.indexVectorDim = 1) (idx : IVec ⟨2, ![E, 1]⟩ 32) (upd : (⟨2, ![E, D]⟩ : Shape).Idx → α)
    (n : Fin N) (c : Fin D) :
    ∑ j ∈ Finset.univ.filter (fun j => d.resultIdx? j idx = some (ix2 n c)), upd j
      = ∑ e ∈ seg (fun e => idx (ix2 e 0)) n.val, upd (ix2 e c) := by
  classical
  unfold seg
  rw [Finset.sum_filter, Finset.sum_filter, sum_idx2]
  refine Finset.sum_congr rfl (fun e _ => ?_)
  simp only [resultIdx_tab_iff d huw hiw hsd hiv idx e _ n c]
  by_cases h : (idx (ix2 e 0)).toInt = (n.val : ℤ)
  · simp only [h, true_and, if_true]
    rw [Finset.sum_ite_eq' Finset.univ c (fun b => upd (ix2 e b))]
    simp
  · simp only [h, false_and, if_false]
    simp

end Table

section Float
variable {N E D : Nat} {φ : FTy}

/-- (3) The accumulating float scatter into a rank-1 operand, at the exact instance: entry n is the operand's entry
    plus the sum of the updates whose index word, read signed, is n. -/
theorem scatterAdd_vec (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1) (x : FVec Ideal ⟨1, ![N]⟩ φ) (idx : IVec ⟨2, ![E, 1]⟩ 32)
    (upd : FVec Ideal ⟨1, ![E]⟩ φ) (n : Fin N) :
    Host.scatterAdd (F := Ideal) d x idx upd (ix1 n)
      = x (ix1 n) + ∑ e ∈ seg (fun e => idx (ix2 e 0)) n.val, upd (ix1 e) := by
  have h : Host.scatterAdd (F := Ideal) d x idx upd (ix1 n)
      = x (ix1 n) + ∑ j ∈ Finset.univ.filter (fun j => d.resultIdx? j idx = some (ix1 n)), upd j := rfl
  rw [h, landing_vec d huw hiw hsd hiv idx upd n]

/-- (3) The accumulating float scatter into a table of rows, at the exact instance: entry (n, c) is the operand's entry
    plus the sum of the column-c elements of the updates whose index word, read signed, is n. -/
theorem scatterAdd_tab (d : ScatterDims ⟨2, ![N, D]⟩ ⟨2, ![E, 1]⟩ ⟨2, ![E, D]⟩)
    (huw : d.updateWindowDims = [1]) (hiw : d.insertedWindowDims = [0]) (hsd : d.scatterDimsToOperandDims = [0])
    (hiv : d.indexVectorDim = 1) (x : FVec Ideal ⟨2, ![N, D]⟩ φ) (idx : IVec ⟨2, ![E, 1]⟩ 32)
    (upd : FVec Ideal ⟨2, ![E, D]⟩ φ) (n : Fin N) (c : Fin D) :
    Host.scatterAdd (F := Ideal) d x idx upd (ix2 n c)
      = x (ix2 n c) + ∑ e ∈ seg (fun e => idx (ix2 e 0)) n.val, upd (ix2 e c) := by
  have h : Host.scatterAdd (F := Ideal) d x idx upd (ix2 n c)
      = x (ix2 n c) + ∑ j ∈ Finset.univ.filter (fun j => d.resultIdx? j idx = some (ix2 n c)), upd j := rfl
  rw [h, landing_tab d huw hiw hsd hiv idx upd n c]

end Float

section Count
variable {N E : Nat}

/-- A sum of ones over a finite set, in the extended reals, is the set's size. -/
theorem sum_one_ereal {ι : Type} (S : Finset ι) : ∑ _e ∈ S, (1 : EReal) = ((S.card : ℝ) : EReal) := by
  classical
  induction S using Finset.induction_on with
  | empty => simp
  | insert a S ha ih =>
    rw [Finset.sum_insert ha, ih, Finset.card_insert_of_notMem ha, Nat.cast_add, Nat.cast_one, EReal.coe_add,
      EReal.coe_one, add_comm]

/-- A segment has at most as many members as there are updates. -/
theorem card_seg_le (word : Fin E → BitVec 32) (v : ℕ) : (seg word v).card ≤ E := by
  unfold seg
  exact (Finset.card_filter_le _ _).trans_eq (Finset.card_fin E)

/-- A 32-bit word holding a natural number below 2^31 reads back, signed, as that number. -/
theorem toInt_natCast_of_lt (k : ℕ) (hk : k < 2 ^ 31) : ((k : BitVec 32)).toInt = (k : ℤ) := by
  rw [BitVec.natCast_eq_ofNat, BitVec.toInt_eq_toNat_cond, BitVec.toNat_ofNat]
  have h1 : k % 2 ^ 32 = k := Nat.mod_eq_of_lt (by omega)
  rw [h1, if_pos (by omega)]

/-- (4) The counting scatter: ones added by 32-bit word addition into zeros, then read as a signed integer, count the
    updates whose index word, read signed, is n (there are fewer than 2^31 updates, so the word does not wrap). -/
theorem count_scatter (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1) (z : IVec ⟨1, ![N]⟩ 32) (idx : IVec ⟨2, ![E, 1]⟩ 32) (o : IVec ⟨1, ![E]⟩ 32)
    (hz : ∀ i, z i = 0#32) (ho : ∀ j, o j = 1#32) (hE : E < 2 ^ 31) (n : Fin N) :
    sitofp (F := Ideal) .f32 (Host.scatter d IntOp.addi z idx o) (ix1 n)
      = (((seg (fun e => idx (ix2 e 0)) n.val).card : ℝ) : EReal) := by
  have hword : Host.scatter d IntOp.addi z idx o (ix1 n)
      = (((seg (fun e => idx (ix2 e 0)) n.val).card : ℕ) : BitVec 32) := by
    rw [Cert.LibScatterAdd.scatter_add_apply d IntOp.addi (fun _ _ => rfl) z idx o (ix1 n),
      landing_vec d huw hiw hsd hiv idx o n, hz]
    simp only [ho]
    rw [Finset.sum_const, nsmul_eq_mul]
    show (0 : BitVec 32) + _ * (1 : BitVec 32) = _
    rw [zero_add, mul_one]
  show (((Host.scatter d IntOp.addi z idx o (ix1 n)).toInt : ℝ) : EReal) = _
  rw [hword, toInt_natCast_of_lt _ (lt_of_le_of_lt (card_seg_le _ _) hE)]
  norm_cast

/-- (5) The float count: ones accumulated into zeros at the exact instance count the updates whose index word, read
    signed, is n. -/
theorem count_scatterAdd {φ : FTy} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1) (x : FVec Ideal ⟨1, ![N]⟩ φ) (idx : IVec ⟨2, ![E, 1]⟩ 32)
    (o : FVec Ideal ⟨1, ![E]⟩ φ) (hx : ∀ i, x i = 0) (ho : ∀ j, o j = 1) (n : Fin N) :
    Host.scatterAdd (F := Ideal) d x idx o (ix1 n)
      = (((seg (fun e => idx (ix2 e 0)) n.val).card : ℝ) : EReal) := by
  rw [scatterAdd_vec d huw hiw hsd hiv x idx o n, hx]
  simp only [ho]
  rw [zero_add]
  exact sum_one_ereal _

end Count

end Cert.LibLanding

end
-- ==== Proof.LibHostDot.lean ====
/-
  A plain matrix product on the host, read at an index, on the extended reals.

  For dimension numbers that contract the left operand's second axis against the right operand's first — an [M, K] array
  times a [K, P] array — the host's product read at row `p` and column `q` is `Σ k, l (p, k) · r (k, q)` over the K
  contraction coordinates: the sum over the contraction's index set, which has one axis, re-indexed through that axis's
  coordinate. The two facts about the free axes are taken as hypotheses, since for given dimension numbers they hold by
  computation.
-/
import Idealize.ShloMosaic.PureOps.Ideal.Laws
import Idealize.ShloMosaic.Lib.ValueIdx

noncomputable section

open scoped BigOperators

namespace Cert.LibHostDot

open Idealize.ShloMosaic Idealize.ShloMosaic.ValueIdx

/-- The host's matrix product at (p, q) is the sum over the contraction coordinate of the left operand at (p, k) times the
    right operand at (k, q). -/
theorem dotGeneral_plain_apply {M K P : ℕ} {φ₁ φ₂ : FTy}
    (D : DotDims ⟨2, ![M, K]⟩ ⟨2, ![K, P]⟩ ⟨2, ![M, P]⟩)
    (hlc : D.lhsContracting = [1]) (hrc : D.rhsContracting = [0])
    (hl0 : ∀ (j : (⟨2, ![M, P]⟩ : Shape).Idx) (c : D.contr.Idx), (D.lhsIdx j c 0).val = (j 0).val)
    (hr1 : ∀ (j : (⟨2, ![M, P]⟩ : Shape).Idx) (c : D.contr.Idx), (D.rhsIdx j c 1).val = (j 1).val)
    (hrank : D.contr.rank = 1) (hsize : D.contr.size ⟨0, by omega⟩ = K)
    (prec : Option ContractPrecision)
    (l : FVec Ideal ⟨2, ![M, K]⟩ φ₁) (r : FVec Ideal ⟨2, ![K, P]⟩ φ₂) (p : Fin M) (q : Fin P) :
    Host.dotGeneral D prec l r (ix2 p q) = ∑ k : Fin K, l (ix2 p k) * r (ix2 k q) := by
  simp only [Host.dotGeneral]
  rw [Ideal.dotGeneral_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hrank hsize).symm k) = ix2 k q := funext fun a => Fin.ext (by
    match a with
    | ⟨0, _⟩ => exact (D.rhsIdx_val_of_single hrc _ _).trans hk
    | ⟨1, _⟩ => exact hr1 _ _)
  rw [el, er]

end Cert.LibHostDot

end
-- ==== Proof.LibAxisBroadcast.lean ====
/-
  Columns and rows repeated across a table by an axis-by-axis broadcast.

  A broadcast that names, for each axis of its operand, the axis of the result it lands on keeps a coordinate on a
  non-unit axis and reads a unit axis at 0. So an [a, 1] column sent to [a, b] on axes (0, 1) holds at (p, q) the
  column's entry of row p; a [1, b] row sent to [a, b] on axes (0, 1) holds at (p, q) the row's entry of column q; a
  length-a vector placed on the first axis of an [a, 1] column holds at (p, u) the vector's entry p — which is also
  what the reshape of the vector to [a, 1] holds there, so the two columns are one table.
-/
import Idealize.ShloMosaic.Lib.Pipeline.Value
import Idealize.ShloMosaic.Lib.ValueIdx
import Idealize.ShloMosaic.Lib.ValueLayout

noncomputable section

namespace Cert.LibAxisBroadcast

open Idealize.ShloMosaic Idealize.ShloMosaic.ValueIdx

variable {α : Type}

/-- An [a, 1] column broadcast on axes (0, 1) to [a, b]: at (p, q) the column at (p, 0). -/
theorem column_apply {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if a = 1 then 0 else p.val
    split
    · have := p.isLt; omega
    · rfl
  | ⟨1, _⟩ => rfl

/-- A [1, b] row broadcast on axes (0, 1) to [a, b]: at (p, q) the row at (0, q). -/
theorem row_apply {a b : ℕ} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply ![0, 1] h v (ix2 p q) (ix2 (0 : Fin 1) q) fun ax => ?_
  match ax with
  | ⟨0, _⟩ => rfl
  | ⟨1, _⟩ =>
    show q.val = if b = 1 then 0 else q.val
    split
    · have := q.isLt; omega
    · rfl

/-- A length-a vector placed on the first axis of an [a, 1] column: at (p, u) the vector at p. -/
theorem placed_column_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- The reshape of a length-a vector to an [a, 1] column is the vector placed on the column's first axis. -/
theorem shapeCast_column_eq_placed {a : ℕ} (x : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ x h = broadcastInDim ⟨2, ![a, 1]⟩ ![0] h' x := by
  funext i
  obtain ⟨p, u, rfl⟩ : ∃ (p : Fin a) (u : Fin 1), i = ix2 p u := ⟨i 0, i 1, eq_ix2 i⟩
  rw [placed_column_apply x h' p u]
  refine shapeCast_apply x h _ _ ?_
  have hu : u.val = 0 := by omega
  rw [Shape.rowMajor_val_two, Shape.rowMajor_val_one]
  show p.val = p.val * 1 + u.val
  rw [hu, Nat.mul_one, Nat.add_zero]

end Cert.LibAxisBroadcast

end
-- ==== Proof.HopCore.lean ====
/-
  One hop of the layer, entry by entry: the kernel program's scaled aggregate and the reference program's normalised
  aggregate are the same table.

  Write S(v) for the listed edges summed into row v, r(e) for the source row of edge e, P(r, j) for row r of the
  table against column j of the weight, and δ(u) for the inverse square root of node u's degree when that degree is
  positive and 0 otherwise. The kernel program scales each projected row by δ of its own node, sums the rows of S(v),
  and then scales the sum by δ(v); the reference program multiplies each gathered row by δ(r(e)) · δ(v) before summing.
  The two agree because δ(v) is a non-negative finite factor, by which a finite sum of extended reals may be
  multiplied term by term.
-/
import proofs.«172900_j70188355551845_2_alg».proof.Proof.KDefs
import proofs.«172900_j70188355551845_2_alg».proof.Proof.RefDefs
import proofs.«172900_j70188355551845_2_alg».proof.Proof.LibGatherRow
import proofs.«172900_j70188355551845_2_alg».proof.Proof.LibLanding
import proofs.«172900_j70188355551845_2_alg».proof.Proof.Spec
import proofs.«172900_j70188355551845_2_alg».proof.Proof.LibHostDot
import proofs.«172900_j70188355551845_2_alg».proof.Proof.LibBiasRow
import proofs.«172900_j70188355551845_2_alg».proof.Proof.LibAxisBroadcast
import Idealize.ShloMosaic.PureOps.Ideal.Laws

set_option maxRecDepth 16384

noncomputable section

open scoped BigOperators
open Idealize.ShloMosaic Idealize.ShloMosaic.ValueIdx
open Cert.LibLanding Cert.LibGatherRow

namespace Cert.HopCore

/-- A column of 850000 index words. -/
abbrev Words : Shape := ⟨2, ![850000, 1]⟩
/-- One value per node. -/
abbrev Nodes : Shape := ⟨1, ![50000]⟩

/-! ## Constants, fills and the column -/

/-- The scalar zero broadcast to any shape is zero at every index. -/
theorem zero_fill_apply {t : Shape} (h : (⟨0, ![]⟩ : Shape).BroadcastsInDim t ![]) (j : t.Idx) :
    broadcastInDim t ![] h (constant (F := Ideal) ⟨0, ![]⟩ .f32 0x00000000#32) j = 0 := by
  rw [Cert.LibBiasRow.fill_apply, constant_apply, Ideal.ofBits_zero_f32]

/-- The word 0x3F800000 encodes the real number 1. -/
theorem ofBits_one_f32 : Ideal.ofBits .f32 0x3F800000#32 = 1 := by
  simp [Ideal.ofBits, Ideal.ieee, -EReal.coe_mul]; norm_num

/-- The scalar one broadcast to any shape is one at every index. -/
theorem one_fill_apply {t : Shape} (h : (⟨0, ![]⟩ : Shape).BroadcastsInDim t ![]) (j : t.Idx) :
    broadcastInDim t ![] h (constant (F := Ideal) ⟨0, ![]⟩ .f32 0x3F800000#32) j = 1 := by
  rw [Cert.LibBiasRow.fill_apply, constant_apply, ofBits_one_f32]

/-- A splat integer word broadcast to any shape is that word at every index. -/
theorem word_fill_apply {t : Shape} (h : (⟨0, ![]⟩ : Shape).BroadcastsInDim t ![]) (b : BitVec 32) (j : t.Idx) :
    broadcastInDim t ![] h (constantI ⟨0, ![]⟩ 32 b) j = b := by
  rw [Cert.LibBiasRow.fill_apply]; rfl

/-! ## The inverse square root of a positive degree, at an entry -/

/-- "Inverse square root where positive, zero elsewhere", read at an index. -/
theorem dinv_apply {t : Shape} (h : (⟨0, ![]⟩ : Shape).BroadcastsInDim t ![]) (dg : FVec Ideal t .f32) (i : t.Idx) :
    select (cmpf .ogt dg (broadcastInDim t ![] h (constant (F := Ideal) ⟨0, ![]⟩ .f32 0x00000000#32))) (Host.rsqrt dg)
        (broadcastInDim t ![] h (constant (F := Ideal) ⟨0, ![]⟩ .f32 0x00000000#32)) i
      = if 0 < dg i then Ideal.rsqrt (dg i) else 0 := by
  rw [select_apply, cmpf_apply, zero_fill_apply]
  show Scalar.select (Ideal.cmp .ogt (dg i) 0) (Ideal.rsqrt (dg i)) 0 = _
  by_cases hp : 0 < dg i
  · rw [if_pos hp]
    have : Ideal.cmp .ogt (dg i) 0 = 1#1 := by simp [Ideal.cmp, hp]
    rw [this, select_one]
  · rw [if_neg hp]
    have : Ideal.cmp .ogt (dg i) 0 = 0#1 := by simp [Ideal.cmp, hp]
    rw [this, select_zero]

/-! ## Degrees and their factors -/

/-- The number of listed words that, read signed, name node `u`: the degree of `u`. -/
def cnt (nd : IVec Words 32) (u : Fin 50000) : ℕ := (seg (fun e => nd (ix2 e 0)) u.val).card

/-- The factor of node `u`: the inverse square root of its degree when the degree is positive, and `0` otherwise. -/
def fac (nd : IVec Words 32) (u : Fin 50000) : EReal :=
  if 0 < cnt nd u then Ideal.rsqrt (((cnt nd u : ℕ) : ℝ) : EReal) else 0

/-- A natural number read as an extended real is positive exactly when it is positive. -/
theorem coe_nat_pos_iff (n : ℕ) : (0 : EReal) < ((n : ℝ) : EReal) ↔ 0 < n := by
  rw [← EReal.coe_zero, EReal.coe_lt_coe_iff]; exact Nat.cast_pos

/-- A node's factor is non-negative. -/
theorem fac_nonneg (nd : IVec Words 32) (u : Fin 50000) : 0 ≤ fac nd u := by
  unfold fac; split
  · rename_i h; exact rsqrt_coe_nonneg _ (Nat.cast_pos.mpr h)
  · exact le_refl _

/-- A node's factor is finite. -/
theorem fac_ne_top (nd : IVec Words 32) (u : Fin 50000) : fac nd u ≠ ⊤ := by
  unfold fac; split
  · rename_i h; exact rsqrt_coe_ne_top _ (Nat.cast_pos.mpr h)
  · exact EReal.zero_ne_top

/-- The degrees counted in integers and read as reals: entry `u` is the degree of `u`. -/
theorem degI_apply (nd : IVec Words 32) (u : Fin 50000) :
    Cert.KernelIdeal.KT.degI (F := Ideal) nd (ix1 u) = (((cnt nd u : ℕ) : ℝ) : EReal) := by
  unfold Cert.KernelIdeal.KT.degI
  exact count_scatter Cert.KernelIdeal.scatter_S50000_S850000x1_S850000_n_0_0_1 rfl rfl rfl rfl _ nd _
    (fun i => word_fill_apply _ _ i) (fun j => word_fill_apply _ _ j) (by norm_num) u

/-- The degrees accumulated as reals: entry `u` is the degree of `u`. -/
theorem deg_apply (nd : IVec Words 32) (u : Fin 50000) :
    Cert.ReferenceIdeal.RT.deg (F := Ideal) nd (ix1 u) = (((cnt nd u : ℕ) : ℝ) : EReal) := by
  unfold Cert.ReferenceIdeal.RT.deg
  exact count_scatterAdd Cert.ReferenceIdeal.scatter_S50000_S850000x1_S850000_n_0_0_1 rfl rfl rfl rfl _ nd _
    (fun i => zero_fill_apply _ i) (fun j => one_fill_apply _ j) u

/-- The kernel program's factor vector holds at `u` the factor of `u`. -/
theorem dinvK_apply (nd : IVec Words 32) (u : Fin 50000) :
    Cert.KernelIdeal.KT.dinv (F := Ideal) (Cert.KernelIdeal.KT.degI nd) (ix1 u) = fac nd u := by
  unfold Cert.KernelIdeal.KT.dinv
  rw [dinv_apply, degI_apply]
  unfold fac
  simp only [coe_nat_pos_iff]

/-- The reference program's factor vector holds at `u` the factor of `u`. -/
theorem dinvR_apply (nd : IVec Words 32) (u : Fin 50000) :
    Cert.ReferenceIdeal.RT.dinv (F := Ideal) (Cert.ReferenceIdeal.RT.deg nd) (ix1 u) = fac nd u := by
  unfold Cert.ReferenceIdeal.RT.dinv
  rw [dinv_apply, deg_apply]
  unfold fac
  simp only [coe_nat_pos_iff]

/-- The kernel program's factor column holds at `(u, 0)` the factor of `u`. -/
theorem colK_apply (nd : IVec Words 32) (u : Fin 50000) :
    Cert.KernelIdeal.KT.col (F := Ideal) (Cert.KernelIdeal.KT.dinv (Cert.KernelIdeal.KT.degI nd)) (ix2 u 0) = fac nd u := by
  unfold Cert.KernelIdeal.KT.col
  rw [Cert.LibAxisBroadcast.placed_column_apply, dinvK_apply]

/-! ## The two aggregates at an entry -/

/-- The source row of listed edge `e`: its source word read signed and clamped into the table. -/
abbrev src (ns : IVec Words 32) (e : Fin 850000) : Fin 50000 := rowOf 50000 (by decide) (ns (ix2 e 0))

/-- The kernel program's aggregate at `(v, j)`: over the edges summed into row `v`, the projected source row at
    column `j` times that row's own factor. -/
theorem agg_apply (x : Cert.Spec.Tab.Idx → EReal) (w : Cert.Spec.Wgt.Idx → EReal) (dc : Cert.Spec.Col.Idx → EReal)
    (ns rd : IVec Words 32) (v : Fin 50000) (j : Fin 128) :
    Cert.KernelIdeal.KT.agg x w dc ns rd (ix2 v j)
      = ∑ e ∈ seg (fun e => rd (ix2 e 0)) v.val, Cert.Spec.proj x w (src ns e) j * dc (ix2 (src ns e) 0) := by
  unfold Cert.KernelIdeal.KT.agg
  refine (scatterAdd_tab Cert.KernelIdeal.scatter_S50000x128_S850000x1_S850000x128_1_0_0_1 rfl rfl rfl rfl _ rd _ v j).trans ?_
  rw [zero_fill_apply, zero_add]
  refine Finset.sum_congr rfl fun e _ => ?_
  refine (gather_rows_apply (by decide) _ rfl rfl rfl rfl rfl _ ns e j).trans ?_
  rfl

/-- The host's product of the table and the weight at `(p, q)` is row `p` against column `q`. -/
theorem dot_apply (x : Cert.Spec.Tab.Idx → EReal) (w : Cert.Spec.Wgt.Idx → EReal) (p : Fin 50000) (q : Fin 128) :
    Host.dotGeneral (F := Ideal) (φ₁ := .f32) (φ₂ := .f32)
        Cert.ReferenceIdeal.dot_S50000x128_S128x128_S50000x128_1_0_0_1_n_n none x w (ix2 p q)
      = Cert.Spec.proj x w p q := by
  refine Cert.LibHostDot.dotGeneral_plain_apply (M := 50000) (K := 128) (P := 128)
    Cert.ReferenceIdeal.dot_S50000x128_S128x128_S50000x128_1_0_0_1_n_n rfl rfl ?_ ?_ rfl rfl none x w p q
  · intro j c
    simp [DotDims.lhsIdx, Cert.ReferenceIdeal.dot_S50000x128_S128x128_S50000x128_1_0_0_1_n_n]; rfl
  · intro j c
    simp [DotDims.rhsIdx, Cert.ReferenceIdeal.dot_S50000x128_S128x128_S50000x128_1_0_0_1_n_n]; rfl

/-- The reference program's hop term at `(v, j)`: the positive part of the bias plus, over the edges summed into row
    `v`, the projected source row at column `j` times the product of the factors of the edge's two end nodes. -/
theorem hopTerm'_apply (x : Cert.Spec.Tab.Idx → EReal) (w : Cert.Spec.Wgt.Idx → EReal) (b : Cert.Spec.Bias.Idx → EReal)
    (ns nd rd : IVec Words 32) (v : Fin 50000) (j : Fin 128) :
    Cert.ReferenceIdeal.RT.hopTerm' (F := Ideal) x w b ns nd rd (ix2 v j)
      = max ((∑ e ∈ seg (fun e => rd (ix2 e 0)) v.val,
                Cert.Spec.proj x w (src ns e) j * (fac nd (src ns e) * fac nd (src nd e))) + b (ix1 j)) 0 := by
  unfold Cert.ReferenceIdeal.RT.hopTerm'
  refine (maximumf_apply _ _ _).trans ?_
  refine congrArg₂ max ?_ (zero_fill_apply _ _)
  refine (addf_apply _ _ _).trans ?_
  refine congrArg₂ (· + ·) ?_ (Cert.LibBiasRow.placed_row_apply b _ _ v j)
  refine (scatterAdd_tab Cert.ReferenceIdeal.scatter_S50000x128_S850000x1_S850000x128_1_0_0_1 rfl rfl rfl rfl _ rd _ v j).trans ?_
  rw [zero_fill_apply, zero_add]
  refine Finset.sum_congr rfl fun e _ => ?_
  refine (mulf_apply _ _ _).trans ?_
  refine congrArg₂ (· * ·) ?_ ?_
  · refine (gather_rows_apply (by decide) _ rfl rfl rfl rfl rfl _ ns e j).trans ?_
    exact dot_apply x w _ j
  · refine (Cert.LibAxisBroadcast.column_apply _ _ e j).trans ?_
    refine (Cert.LibAxisBroadcast.placed_column_apply _ _ e 0).trans ?_
    refine (mulf_apply _ _ _).trans ?_
    refine congrArg₂ (· * ·) ?_ ?_
    · refine (gather_entries_apply (by decide) _ rfl rfl rfl rfl rfl _ ns e).trans ?_
      exact dinvR_apply nd _
    · refine (gather_entries_apply (by decide) _ rfl rfl rfl rfl rfl _ nd e).trans ?_
      exact dinvR_apply nd _

/-! ## The hop -/

/-- ONE HOP, BOTH WAYS. Scaling every projected row by its own node's factor, summing the rows an edge list sends to
    row `v`, and scaling the sum by the factor of `v` gives what summing the rows each multiplied by the product of
    the factors of its edge's two end nodes gives — provided every edge summed into row `v` has `v` as the node
    whose factor its destination word reads (`hrow`). The factor of `v` is non-negative and finite, so it may be
    taken inside the sum of extended reals; no finiteness of the table, the weight or the bias is used. -/
theorem hop_core (x : Cert.Spec.Tab.Idx → EReal) (w : Cert.Spec.Wgt.Idx → EReal) (b : Cert.Spec.Bias.Idx → EReal)
    (ns nd rd : IVec Words 32)
    (hrow : ∀ (e : Fin 850000) (v : Fin 50000), (rd (ix2 e 0)).toInt = (v.val : ℤ) →
      rowOf 50000 (by decide) (nd (ix2 e 0)) = v) :
    (fun i => max (Cert.KernelIdeal.KT.agg x w
                      (Cert.KernelIdeal.KT.col (Cert.KernelIdeal.KT.dinv (Cert.KernelIdeal.KT.degI nd))) ns rd i
                    * Cert.KernelIdeal.KT.col (Cert.KernelIdeal.KT.dinv (Cert.KernelIdeal.KT.degI nd)) (ix2 (i 0) 0)
                    + b (ix1 (i 1))) 0)
      = Cert.ReferenceIdeal.RT.hopTerm' (F := Ideal) x w b ns nd rd := by
  funext i
  obtain ⟨v, j, rfl⟩ : ∃ (v : Fin 50000) (j : Fin 128), i = ix2 v j := ⟨i 0, i 1, eq_ix2 i⟩
  rw [hopTerm'_apply]
  show max (Cert.KernelIdeal.KT.agg x w
      (Cert.KernelIdeal.KT.col (Cert.KernelIdeal.KT.dinv (Cert.KernelIdeal.KT.degI nd))) ns rd (ix2 v j)
      * Cert.KernelIdeal.KT.col (Cert.KernelIdeal.KT.dinv (Cert.KernelIdeal.KT.degI nd)) (ix2 v 0) + b (ix1 j)) 0 = _
  rw [agg_apply, colK_apply, sum_mul_of_nonneg_of_ne_top _ _ _ (fac_nonneg nd v) (fac_ne_top nd v)]
  refine congrArg₂ max (congrArg₂ (· + ·) ?_ rfl) rfl
  refine Finset.sum_congr rfl fun e he => ?_
  have hv : src nd e = v := hrow e v (Finset.mem_filter.mp he).2
  rw [colK_apply, mul_assoc, hv]

end Cert.HopCore

end
-- ==== Proof.Glue.lean ====
/-
  Where the reference program's pieces and the kernel program's pieces meet the entry-by-entry description: the ego
  projection is the dense projection with bias; an index word that already names a row is kept by the wrap of negative
  words; and the two programs spell the same index columns.
-/
import proofs.«172900_j70188355551845_2_alg».proof.Proof.KDefs
import proofs.«172900_j70188355551845_2_alg».proof.Proof.RefDefs
import proofs.«172900_j70188355551845_2_alg».proof.Proof.Spec
import proofs.«172900_j70188355551845_2_alg».proof.Proof.LibGatherRow
import proofs.«172900_j70188355551845_2_alg».proof.Proof.LibHostDot
import proofs.«172900_j70188355551845_2_alg».proof.Proof.LibBiasRow
import proofs.«172900_j70188355551845_2_alg».proof.Proof.LibAxisBroadcast
import Idealize.ShloMosaic.Lib.ValueIdx
import Idealize.ShloMosaic.Lib.ValueLayout
import Idealize.ShloMosaic.Lib.Pipeline.Value

set_option maxRecDepth 16384

noncomputable section

open scoped BigOperators
open Idealize.ShloMosaic Idealize.ShloMosaic.ValueIdx

namespace Cert.Glue

/-! ## The ego projection -/

/-- The reference's ego projection — the host product of the table with the weight, plus the bias placed as a row and
    repeated over the rows — is, entry by entry, row p against column q plus b(q). -/
theorem ego (x : (⟨Cert.ReferenceIdeal.S50000x128, .f32⟩ : BufTy).Contents (Elt Ideal))
    (w : (⟨Cert.ReferenceIdeal.S128x128, .f32⟩ : BufTy).Contents (Elt Ideal))
    (b : (⟨Cert.ReferenceIdeal.S128, .f32⟩ : BufTy).Contents (Elt Ideal)) :
    Cert.Spec.denseBias x w b = Cert.ReferenceIdeal.RT.ego (F := Ideal) x w b := by
  funext i
  obtain ⟨p, q, rfl⟩ : ∃ (p : Fin 50000) (q : Fin 128), i = ix2 p q := ⟨i 0, i 1, eq_ix2 i⟩
  unfold Cert.ReferenceIdeal.RT.ego
  refine Eq.trans ?_ (addf_apply _ _ _).symm
  refine congrArg₂ (· + ·) ?_ ?_
  · exact (Cert.LibHostDot.dotGeneral_plain_apply (M := 50000) (K := 128) (P := 128)
      Cert.ReferenceIdeal.dot_S50000x128_S128x128_S50000x128_1_0_0_1_n_n rfl rfl (fun _ _ => rfl) (fun _ _ => rfl) rfl rfl
      none x w p q).symm
  · exact (Cert.LibBiasRow.placed_row_apply (a := 50000) (b := 128) b Cert.ReferenceIdeal.Gen.bcast_S128_S1x128_1
      Cert.ReferenceIdeal.Gen.bcast_S1x128_S50000x128_0_1 p q).symm

/-! ## An index word that names a row -/

/-- A word whose signed value is not negative is not below zero in the signed order. -/
theorem cmpi_slt_zero_of_nonneg (u : BitVec 32) (h : 0 ≤ u.toInt) : IntOp.cmpi .slt u 0#32 = 0#1 := by
  have hs : u.slt 0#32 = false := by
    rw [BitVec.slt_eq_decide]
    simpa using h
  show BitVec.ofBool (u.slt 0#32) = 0#1
  rw [hs]; rfl

/-- The word list placed as a column holds at (e, 0) the word e. -/
theorem raw_apply (dw : (⟨Cert.ReferenceIdeal.S850000, .i32⟩ : BufTy).Contents (Elt Ideal)) (e : Fin 850000) :
    Cert.ReferenceIdeal.RT.raw (F := Ideal) dw (ix2 e 0) = dw (ix1 e) :=
  Cert.LibAxisBroadcast.placed_column_apply (a := 850000) dw Cert.ReferenceIdeal.Gen.bcast_S850000_S850000x1_0 e 0

/-- A word that is the number of a row, v below 50000, is not negative, so the wrap of negative words keeps it: the
    wrapped column's word at (e, 0) names row v. -/
theorem norm_row (dw : (⟨Cert.ReferenceIdeal.S850000, .i32⟩ : BufTy).Contents (Elt Ideal)) (e : Fin 850000) (v : Fin 50000)
    (h : (Cert.ReferenceIdeal.RT.raw (F := Ideal) dw (ix2 e 0)).toInt = (v.val : ℤ)) :
    Cert.LibGatherRow.rowOf 50000 (by decide) (Cert.ReferenceIdeal.RT.norm (F := Ideal) dw (ix2 e 0)) = v := by
  rw [raw_apply] at h
  refine Cert.LibGatherRow.rowOf_eq_of_toInt _ _ v ?_
  have hn : Cert.ReferenceIdeal.RT.norm (F := Ideal) dw (ix2 e 0) = dw (ix1 e) := by
    unfold Cert.ReferenceIdeal.RT.norm
    refine (Cert.LibAxisBroadcast.placed_column_apply (a := 850000) _ Cert.ReferenceIdeal.Gen.bcast_S850000_S850000x1_0 e 0).trans ?_
    refine (select_apply _ _ _ _).trans ?_
    have hc : cmpi .slt dw (broadcastInDim Cert.ReferenceIdeal.S850000 ![] Cert.ReferenceIdeal.Gen.bcast_S_S850000
        (constantI Cert.ReferenceIdeal.S_ 32 0#32)) (ix1 e) = 0#1 := by
      show IntOp.cmpi .slt (dw (ix1 e)) (broadcastInDim Cert.ReferenceIdeal.S850000 ![] Cert.ReferenceIdeal.Gen.bcast_S_S850000
        (constantI Cert.ReferenceIdeal.S_ 32 0#32) (ix1 e)) = 0#1
      rw [Cert.LibBiasRow.fill_apply]
      exact cmpi_slt_zero_of_nonneg _ (by rw [h]; exact Int.natCast_nonneg _)
    rw [hc]
    rfl
  rw [hn]
  exact h

/-! ## The two programs' index columns -/

/-- The source index column of the kernel program is the reference's. -/
theorem norm_src (ei : (⟨Cert.KernelIdeal.S2x800000, .i32⟩ : BufTy).Contents (Elt Ideal)) :
    Cert.KernelIdeal.KT.norm (F := Ideal) (Cert.KernelIdeal.KT.srcWords ei)
      = Cert.ReferenceIdeal.RT.norm (Cert.ReferenceIdeal.RT.srcWords ei) := rfl

/-- The wrapped destination index column of the kernel program is the reference's. -/
theorem norm_dst (ei : (⟨Cert.KernelIdeal.S2x800000, .i32⟩ : BufTy).Contents (Elt Ideal)) :
    Cert.KernelIdeal.KT.norm (F := Ideal) (Cert.KernelIdeal.KT.dstWords ei)
      = Cert.ReferenceIdeal.RT.norm (Cert.ReferenceIdeal.RT.dstWords ei) := rfl

/-- The destination index column as it is, of the kernel program, is the reference's. -/
theorem raw_dst (ei : (⟨Cert.KernelIdeal.S2x800000, .i32⟩ : BufTy).Contents (Elt Ideal)) :
    Cert.KernelIdeal.KT.raw (F := Ideal) (Cert.KernelIdeal.KT.dstWords ei)
      = Cert.ReferenceIdeal.RT.raw (Cert.ReferenceIdeal.RT.dstWords ei) := rfl

end Cert.Glue

end
-- ==== Proof.HopEq.lean ====
/-
  One hop of the two programs.

  The kernel program scales each projected row by its source's factor before the rows are summed by destination and
  scales the sum by the destination's factor afterwards; the reference scales each gathered row by the product of
  the two factors before summing. The destination's factor is a non-negative real, so it moves across the finite sum;
  the two degree counts are the same number; the index columns are the same terms.
-/
import proofs.«172900_j70188355551845_2_alg».proof.Proof.KDefs
import proofs.«172900_j70188355551845_2_alg».proof.Proof.RefDefs
import proofs.«172900_j70188355551845_2_alg».proof.Proof.HopCore
import proofs.«172900_j70188355551845_2_alg».proof.Proof.Glue
import Idealize.ShloMosaic.Lib.ValueIdx

set_option maxRecDepth 16384

noncomputable section

namespace Cert.Bridge

open Idealize.ShloMosaic Idealize.ShloMosaic.ValueIdx Idealize.ShloMosaic.TcCoe Idealize.SL.Sem
open Cert.KernelIdeal Cert.KernelIdeal.Gen

/-- One hop: the kernel program's update of the running table is the running table plus the reference's hop term. -/
theorem hop_eq (x : (⟨S50000x128, .f32⟩ : BufTy).Contents (Elt Ideal)) (ei : (⟨S2x800000, .i32⟩ : BufTy).Contents (Elt Ideal))
    (w : (⟨S128x128, .f32⟩ : BufTy).Contents (Elt Ideal)) (b : (⟨S128, .f32⟩ : BufTy).Contents (Elt Ideal))
    (run : (⟨S50000x128, .f32⟩ : BufTy).Contents (Elt Ideal)) :
    Cert.KernelIdeal.KT.hop x ei w b run = addf (F := Ideal) (φ := .f32) run (Cert.ReferenceIdeal.RT.hopTerm (F := Ideal) x ei w b) := by
  funext i
  unfold Cert.KernelIdeal.KT.hop Cert.Spec.hopUpdate Cert.ReferenceIdeal.RT.hopTerm
  rw [Cert.Glue.norm_src ei, Cert.Glue.norm_dst ei, Cert.Glue.raw_dst ei]
  refine (congrArg (fun t => run i + t) (congrFun (Cert.HopCore.hop_core x w b _ _ _
    (fun e v h => Cert.Glue.norm_row (Cert.ReferenceIdeal.RT.dstWords (F := Ideal) ei) e v h)) i)).trans ?_
  rfl

end Cert.Bridge

end
-- ==== Proof.Bridge.lean ====
/-
  The two programs compute the same table: the three hops' identities applied on top of the ego projection.
-/
import proofs.«172900_j70188355551845_2_alg».proof.Proof.KRun
import proofs.«172900_j70188355551845_2_alg».proof.Proof.RefDefs
import proofs.«172900_j70188355551845_2_alg».proof.Proof.HopEq
import proofs.«172900_j70188355551845_2_alg».proof.Proof.Glue
import Idealize.ShloMosaic.Lib.ValueIdx

set_option maxRecDepth 16384

noncomputable section

namespace Cert.Bridge

open Idealize.ShloMosaic Idealize.ShloMosaic.ValueIdx Idealize.ShloMosaic.TcCoe Idealize.SL.Sem
open Cert.KernelIdeal Cert.KernelIdeal.Gen

/-- The whole result: the kernel program's composed term is the reference's. -/
theorem total_eq (m : (ℓ : Loc nD τ sig) → Buf (Elt Ideal) ℓ) (c : Dev nD) :
    Cert.KernelIdeal.KRun.total m c
      = addf (F := Ideal) (φ := .f32) (addf (F := Ideal) (φ := .f32) (addf (F := Ideal) (φ := .f32)
          (Cert.ReferenceIdeal.RT.ego (F := Ideal) (m ((c.tc : Thread nD τ).loc main_arg0)) (m ((c.tc : Thread nD τ).loc main_arg7)) (m ((c.tc : Thread nD τ).loc main_arg8)))
          (Cert.ReferenceIdeal.RT.hopTerm (F := Ideal) (m ((c.tc : Thread nD τ).loc main_arg1)) (m ((c.tc : Thread nD τ).loc main_arg4)) (m ((c.tc : Thread nD τ).loc main_arg9)) (m ((c.tc : Thread nD τ).loc main_arg10))))
          (Cert.ReferenceIdeal.RT.hopTerm (F := Ideal) (m ((c.tc : Thread nD τ).loc main_arg2)) (m ((c.tc : Thread nD τ).loc main_arg5)) (m ((c.tc : Thread nD τ).loc main_arg11)) (m ((c.tc : Thread nD τ).loc main_arg12))))
          (Cert.ReferenceIdeal.RT.hopTerm (F := Ideal) (m ((c.tc : Thread nD τ).loc main_arg3)) (m ((c.tc : Thread nD τ).loc main_arg6)) (m ((c.tc : Thread nD τ).loc main_arg13)) (m ((c.tc : Thread nD τ).loc main_arg14))) := by
  unfold Cert.KernelIdeal.KRun.total
  rw [hop_eq, hop_eq, hop_eq, Cert.Glue.ego]

end Cert.Bridge

end
-- ==== Proof.lean ====
/- The proof of `Cert.Claim`: the tiled graph-convolution layer against its plain reference, over the extended reals.

   The three frames: the two kernel programs' by their generated frame certificates, the reference's by its run.
   The kernel program is its own idealization (no rewrite was applied), so that conjunct is trivial.
   The value claim: the idealized kernel program ends with its result table at the three hops' updates applied to the
   ego projection (each tiled region is one whole-table operation, Proof/Region0 … Region6 and Proof/KRun); the
   reference ends at the ego term plus the three hops' terms (Proof/RefRes); and the two are one function of the
   arguments (Proof/Bridge): per hop, the destination's inverse-square-root degree factor is a non-negative real and
   moves across the finite sum over the edges that point at the node, the integer and the float degree counts are the
   same number, and both programs read the same index columns. No finiteness of the inputs is used. -/
import proofs.«172900_j70188355551845_2_alg».proof.Defs
import proofs.«172900_j70188355551845_2_alg».proof.Proof.Gen.Kernel
import proofs.«172900_j70188355551845_2_alg».proof.Proof.Gen.Kernel.Skeleton
import proofs.«172900_j70188355551845_2_alg».proof.Proof.Gen.Kernel.Launch
import proofs.«172900_j70188355551845_2_alg».proof.Proof.Gen.Kernel.Points
import proofs.«172900_j70188355551845_2_alg».proof.Proof.Gen.Kernel.Frame
import proofs.«172900_j70188355551845_2_alg».proof.Proof.Gen.KernelIdeal
import proofs.«172900_j70188355551845_2_alg».proof.Proof.Gen.KernelIdeal.Skeleton
import proofs.«172900_j70188355551845_2_alg».proof.Proof.Gen.KernelIdeal.Launch
import proofs.«172900_j70188355551845_2_alg».proof.Proof.Gen.KernelIdeal.Points
import proofs.«172900_j70188355551845_2_alg».proof.Proof.Gen.KernelIdeal.Frame
import proofs.«172900_j70188355551845_2_alg».proof.Proof.Gen.ReferenceIdeal
import proofs.«172900_j70188355551845_2_alg».proof.Proof.Gen.Pre_finite_inputs
import proofs.«172900_j70188355551845_2_alg».proof.Proof.RunNamed
import proofs.«172900_j70188355551845_2_alg».proof.Proof.KRun
import proofs.«172900_j70188355551845_2_alg».proof.Proof.RefRunP
import proofs.«172900_j70188355551845_2_alg».proof.Proof.RefRes
import proofs.«172900_j70188355551845_2_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- The idealized kernel program runs and leaves its arguments unchanged. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- No operation was rewritten: nothing to preserve. -/
theorem preserves : Cert.preserves_Kernel_KernelIdeal := trivial

/-- From memories that agree on the arguments both programs end with the same result table. -/
theorem algebraic : Cert.algebraic_KernelIdeal_ReferenceIdeal := by
  intro m ρ m' ρ' _ hagree
  refine ⟨fun c => Cert.KernelIdeal.KRun.total m c, ?_, ?_⟩
  · exact (θ_run Cert.KernelIdeal.defs _ _).mono
      (fun r h c => ⟨(h c).1.trans (Cert.KernelIdeal.KRun.result m ρ c), (h c).2⟩) (Cert.KernelIdeal.Named.run m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7, h8, h9, h10, h11, h12, h13, h14⟩ := hagree c
    rw [Cert.ReferenceIdeal.RT.res_eq, h0, h1, h2, h3, h4, h5, h6, h7, h8, h9, h10, h11, h12, h13, h14]
    exact (Cert.Bridge.total_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
